-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2816x2048 : Shape := ⟨3, ![8, 2816, 2048]⟩
abbrev S8x2048x1408 : Shape := ⟨3, ![8, 2048, 1408]⟩
abbrev S8192x2 : Shape := ⟨2, ![8192, 2]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2816x2048 : S_.BroadcastsInDim S8x2816x2048 (![] : Fin 0 → Fin S8x2816x2048.rank)
  reducesTo_S8x2816x2048_S_d0_1_2 : S8x2816x2048.ReducesTo [0, 1, 2] S_
  bcast_S_S8x2048x1408 : S_.BroadcastsInDim S8x2048x1408 (![] : Fin 0 → Fin S8x2048x1408.rank)
  reducesTo_S8x2048x1408_S_d0_1_2 : S8x2048x1408.ReducesTo [0, 1, 2] S_
  bcast_S_S8192x2 : S_.BroadcastsInDim S8192x2 (![] : Fin 0 → Fin S8192x2.rank)
  reducesTo_S8192x2_S_d0_1 : S8192x2.ReducesTo [0, 1] S_

variable [Facts]

def fn_part1 {F : FTy → Type} [FloatOps F] (main_v13 : IVec S_ 1) (main_v16 : IVec S8192x2 1) : IVec S_ 1 :=
  let main_c_5 : IVec S_ 1 := constantI S_ 1 1#1
  let main_v17 : IVec S_ 1 := (fun x v => Host.reduce IntOp.andi x v reducesTo_S8192x2_S_d0_1 h_S_) main_v16 main_c_5
  let main_v18 : IVec S_ 1 := andi main_v13 main_v17
  main_v18

def fn {F : FTy → Type} [FloatOps F] (main_arg0 : FVec F S8192x2048 .f32) (main_arg1 : FVec F S8x2816x2048 .f32) (main_arg2 : FVec F S8x2048x1408 .f32) (main_arg3 : IVec S8192x2 32) (main_arg4 : FVec F S8192x2 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2816x2048 .f32 := Host.absf main_arg1
  let main_cst_0 : FVec F S_ .f32 := constant S_ .f32 0x7F800000#32
  let main_v5 : FVec F S8x2816x2048 .f32 := broadcastInDim S8x2816x2048 ![] bcast_S_S8x2816x2048 main_cst_0
  let main_v6 : IVec S8x2816x2048 1 := cmpf .olt main_v4 main_v5
  let main_c_1 : IVec S_ 1 := constantI S_ 1 1#1
  let main_v7 : IVec S_ 1 := (fun x v => Host.reduce IntOp.andi x v reducesTo_S8x2816x2048_S_d0_1_2 h_S_) main_v6 main_c_1
  let main_v8 : IVec S_ 1 := andi main_v3 main_v7
  let main_v9 : FVec F S8x2048x1408 .f32 := Host.absf main_arg2
  let main_cst_2 : FVec F S_ .f32 := constant S_ .f32 0x7F800000#32
  let main_v10 : FVec F S8x2048x1408 .f32 := broadcastInDim S8x2048x1408 ![] bcast_S_S8x2048x1408 main_cst_2
  let main_v11 : IVec S8x2048x1408 1 := cmpf .olt main_v9 main_v10
  let main_c_3 : IVec S_ 1 := constantI S_ 1 1#1
  let main_v12 : IVec S_ 1 := (fun x v => Host.reduce IntOp.andi x v reducesTo_S8x2048x1408_S_d0_1_2 h_S_) main_v11 main_c_3
  let main_v13 : IVec S_ 1 := andi main_v8 main_v12
  let main_v14 : FVec F S8192x2 .f32 := Host.absf main_arg4
  let main_cst_4 : FVec F S_ .f32 := constant S_ .f32 0x7F800000#32
  let main_v15 : FVec F S8192x2 .f32 := broadcastInDim S8192x2 ![] bcast_S_S8192x2 main_cst_4
  let main_v16 : IVec S8192x2 1 := cmpf .olt main_v14 main_v15
  fn_part1 (F := F) main_v13 main_v16
-- ==== Kernel.lean ====
abbrev S8192x2048 : Shape := ⟨2, ![8192, 2048]⟩
abbrev S8x2816x2048 : Shape := ⟨3, ![8, 2816, 2048]⟩
abbrev S8x2048x1408 : Shape := ⟨3, ![8, 2048, 1408]⟩
abbrev S8192x2 : Shape := ⟨2, ![8192, 2]⟩
abbrev S_ : Shape := ⟨0, ![]⟩
abbrev S8192 : Shape := ⟨1, ![8192]⟩
abbrev S1x8192 : Shape := ⟨2, ![1, 8192]⟩
abbrev S8x8192 : Shape := ⟨2, ![8, 8192]⟩
abbrev S8x1x8192 : Shape := ⟨3, ![8, 1, 8192]⟩
abbrev S256x2048 : Shape := ⟨2, ![256, 2048]⟩
abbrev S1x2816x2048 : Shape := ⟨3, ![1, 2816, 2048]⟩
abbrev S1x2048x1408 : Shape := ⟨3, ![1, 2048, 1408]⟩
abbrev S1x1x256 : Shape := ⟨3, ![1, 1, 256]⟩
abbrev S2816x2048 : Shape := ⟨2, ![2816, 2048]⟩
abbrev S2048x1408 : Shape := ⟨2, ![2048, 1408]⟩
abbrev S256x2816 : Shape := ⟨2, ![256, 2816]⟩
abbrev S256x1408 : Shape := ⟨2, ![256, 1408]⟩
abbrev S256 : Shape := ⟨1, ![256]⟩
abbrev S256x1 : Shape := ⟨2, ![256, 1]⟩

abbrev nBuf : Space → Nat
  | .hbm => 91
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8x2816x2048, .f32⟩
  | .hbm, ⟨2, _⟩ => ⟨S8x2048x1408, .f32⟩
  | .hbm, ⟨3, _⟩ => ⟨S8192x2, .i32⟩
  | .hbm, ⟨4, _⟩ => ⟨S8192x2, .f32⟩
  | .hbm, ⟨5, _⟩ => ⟨S8192x2048, .bf16⟩
  | .hbm, ⟨6, _⟩ => ⟨S8x2816x2048, .bf16⟩
  | .hbm, ⟨7, _⟩ => ⟨S8x2048x1408, .bf16⟩
  | .hbm, ⟨8, _⟩ => ⟨S_, .i32⟩
  | .hbm, ⟨9, _⟩ => ⟨S8192x2, .i32⟩
  | .hbm, ⟨10, _⟩ => ⟨S8192x2, .i1⟩
  | .hbm, ⟨11, _⟩ => ⟨S_, .f32⟩
  | .hbm, ⟨12, _⟩ => ⟨S_, .f32⟩
  | .hbm, ⟨13, _⟩ => ⟨S8192x2, .f32⟩
  | .hbm, ⟨14, _⟩ => ⟨S8192x2, .f32⟩
  | .hbm, ⟨15, _⟩ => ⟨S_, .f32⟩
  | .hbm, ⟨16, _⟩ => ⟨S8192, .f32⟩
  | .hbm, ⟨17, _⟩ => ⟨S_, .i32⟩
  | .hbm, ⟨18, _⟩ => ⟨S8192x2, .i32⟩
  | .hbm, ⟨19, _⟩ => ⟨S8192x2, .i1⟩
  | .hbm, ⟨20, _⟩ => ⟨S_, .f32⟩
  | .hbm, ⟨21, _⟩ => ⟨S_, .f32⟩
  | .hbm, ⟨22, _⟩ => ⟨S8192x2, .f32⟩
  | .hbm, ⟨23, _⟩ => ⟨S8192x2, .f32⟩
  | .hbm, ⟨24, _⟩ => ⟨S_, .f32⟩
  | .hbm, ⟨25, _⟩ => ⟨S8192, .f32⟩
  | .hbm, ⟨26, _⟩ => ⟨S_, .i32⟩
  | .hbm, ⟨27, _⟩ => ⟨S8192x2, .i32⟩
  | .hbm, ⟨28, _⟩ => ⟨S8192x2, .i1⟩
  | .hbm, ⟨29, _⟩ => ⟨S_, .f32⟩
  | .hbm, ⟨30, _⟩ => ⟨S_, .f32⟩
  | .hbm, ⟨31, _⟩ => ⟨S8192x2, .f32⟩
  | .hbm, ⟨32, _⟩ => ⟨S8192x2, .f32⟩
  | .hbm, ⟨33, _⟩ => ⟨S_, .f32⟩
  | .hbm, ⟨34, _⟩ => ⟨S8192, .f32⟩
  | .hbm, ⟨35, _⟩ => ⟨S_, .i32⟩
  | .hbm, ⟨36, _⟩ => ⟨S8192x2, .i32⟩
  | .hbm, ⟨37, _⟩ => ⟨S8192x2, .i1⟩
  | .hbm, ⟨38, _⟩ => ⟨S_, .f32⟩
  | .hbm, ⟨39, _⟩ => ⟨S_, .f32⟩
  | .hbm, ⟨40, _⟩ => ⟨S8192x2, .f32⟩
  | .hbm, ⟨41, _⟩ => ⟨S8192x2, .f32⟩
  | .hbm, ⟨42, _⟩ => ⟨S_, .f32⟩
  | .hbm, ⟨43, _⟩ => ⟨S8192, .f32⟩
  | .hbm, ⟨44, _⟩ => ⟨S_, .i32⟩
  | .hbm, ⟨45, _⟩ => ⟨S8192x2, .i32⟩
  | .hbm, ⟨46, _⟩ => ⟨S8192x2, .i1⟩
  | .hbm, ⟨47, _⟩ => ⟨S_, .f32⟩
  | .hbm, ⟨48, _⟩ => ⟨S_, .f32⟩
  | .hbm, ⟨49, _⟩ => ⟨S8192x2, .f32⟩
  | .hbm, ⟨50, _⟩ => ⟨S8192x2, .f32⟩
  | .hbm, ⟨51, _⟩ => ⟨S_, .f32⟩
  | .hbm, ⟨52, _⟩ => ⟨S8192, .f32⟩
  | .hbm, ⟨53, _⟩ => ⟨S_, .i32⟩
  | .hbm, ⟨54, _⟩ => ⟨S8192x2, .i32⟩
  | .hbm, ⟨55, _⟩ => ⟨S8192x2, .i1⟩
  | .hbm, ⟨56, _⟩ => ⟨S_, .f32⟩
  | .hbm, ⟨57, _⟩ => ⟨S_, .f32⟩
  | .hbm, ⟨58, _⟩ => ⟨S8192x2, .f32⟩
  | .hbm, ⟨59, _⟩ => ⟨S8192x2, .f32⟩
  | .hbm, ⟨60, _⟩ => ⟨S_, .f32⟩
  | .hbm, ⟨61, _⟩ => ⟨S8192, .f32⟩
  | .hbm, ⟨62, _⟩ => ⟨S_, .i32⟩
  | .hbm, ⟨63, _⟩ => ⟨S8192x2, .i32⟩
  | .hbm, ⟨64, _⟩ => ⟨S8192x2, .i1⟩
  | .hbm, ⟨65, _⟩ => ⟨S_, .f32⟩
  | .hbm, ⟨66, _⟩ => ⟨S_, .f32⟩
  | .hbm, ⟨67, _⟩ => ⟨S8192x2, .f32⟩
  | .hbm, ⟨68, _⟩ => ⟨S8192x2, .f32⟩
  | .hbm, ⟨69, _⟩ => ⟨S_, .f32⟩
  | .hbm, ⟨70, _⟩ => ⟨S8192, .f32⟩
  | .hbm, ⟨71, _⟩ => ⟨S_, .i32⟩
  | .hbm, ⟨72, _⟩ => ⟨S8192x2, .i32⟩
  | .hbm, ⟨73, _⟩ => ⟨S8192x2, .i1⟩
  | .hbm, ⟨74, _⟩ => ⟨S_, .f32⟩
  | .hbm, ⟨75, _⟩ => ⟨S_, .f32⟩
  | .hbm, ⟨76, _⟩ => ⟨S8192x2, .f32⟩
  | .hbm, ⟨77, _⟩ => ⟨S8192x2, .f32⟩
  | .hbm, ⟨78, _⟩ => ⟨S_, .f32⟩
  | .hbm, ⟨79, _⟩ => ⟨S8192, .f32⟩
  | .hbm, ⟨80, _⟩ => ⟨S1x8192, .f32⟩
  | .hbm, ⟨81, _⟩ => ⟨S1x8192, .f32⟩
  | .hbm, ⟨82, _⟩ => ⟨S1x8192, .f32⟩
  | .hbm, ⟨83, _⟩ => ⟨S1x8192, .f32⟩
  | .hbm, ⟨84, _⟩ => ⟨S1x8192, .f32⟩
  | .hbm, ⟨85, _⟩ => ⟨S1x8192, .f32⟩
  | .hbm, ⟨86, _⟩ => ⟨S1x8192, .f32⟩
  | .hbm, ⟨87, _⟩ => ⟨S1x8192, .f32⟩
  | .hbm, ⟨88, _⟩ => ⟨S8x8192, .f32⟩
  | .hbm, ⟨89, _⟩ => ⟨S8x1x8192, .f32⟩
  | .hbm, ⟨90, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S1x2816x2048, .bf16⟩
  | .local _ .vmem, ⟨3, _⟩ => ⟨S1x2816x2048, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x1x256, .f32⟩
  | .local _ .vmem, ⟨7, _⟩ => ⟨S1x1x256, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_call2_v0 : Ref sig .tc := ⟨.hbm, 30, rfl⟩
abbrev main_call2_v1 : Ref sig .tc := ⟨.hbm, 31, rfl⟩
abbrev main_v13 : Ref sig .tc := ⟨.hbm, 32, rfl⟩
abbrev main_cst_6 : Ref sig .tc := ⟨.hbm, 33, rfl⟩
abbrev main_v14 : Ref sig .tc := ⟨.hbm, 34, rfl⟩
abbrev main_c_7 : Ref sig .tc := ⟨.hbm, 35, rfl⟩
abbrev main_v15 : Ref sig .tc := ⟨.hbm, 36, rfl⟩
abbrev main_v16 : Ref sig .tc := ⟨.hbm, 37, rfl⟩
abbrev main_cst_8 : Ref sig .tc := ⟨.hbm, 38, rfl⟩
abbrev main_call3_v0 : Ref sig .tc := ⟨.hbm, 39, rfl⟩
abbrev main_call3_v1 : Ref sig .tc := ⟨.hbm, 40, rfl⟩
abbrev main_v17 : Ref sig .tc := ⟨.hbm, 41, rfl⟩
abbrev main_cst_9 : Ref sig .tc := ⟨.hbm, 42, rfl⟩
abbrev main_v18 : Ref sig .tc := ⟨.hbm, 43, rfl⟩
abbrev main_c_10 : Ref sig .tc := ⟨.hbm, 44, rfl⟩
abbrev main_v19 : Ref sig .tc := ⟨.hbm, 45, rfl⟩
abbrev main_v20 : Ref sig .tc := ⟨.hbm, 46, rfl⟩
abbrev main_cst_11 : Ref sig .tc := ⟨.hbm, 47, rfl⟩
abbrev main_call4_v0 : Ref sig .tc := ⟨.hbm, 48, rfl⟩
abbrev main_call4_v1 : Ref sig .tc := ⟨.hbm, 49, rfl⟩
abbrev main_v21 : Ref sig .tc := ⟨.hbm, 50, rfl⟩
abbrev main_cst_12 : Ref sig .tc := ⟨.hbm, 51, rfl⟩
abbrev main_v22 : Ref sig .tc := ⟨.hbm, 52, rfl⟩
abbrev main_c_13 : Ref sig .tc := ⟨.hbm, 53, rfl⟩
abbrev main_v23 : Ref sig .tc := ⟨.hbm, 54, rfl⟩
abbrev main_v24 : Ref sig .tc := ⟨.hbm, 55, rfl⟩
abbrev main_cst_14 : Ref sig .tc := ⟨.hbm, 56, rfl⟩
abbrev main_call5_v0 : Ref sig .tc := ⟨.hbm, 57, rfl⟩
abbrev main_call5_v1 : Ref sig .tc := ⟨.hbm, 58, rfl⟩
abbrev main_v25 : Ref sig .tc := ⟨.hbm, 59, rfl⟩
abbrev main_cst_15 : Ref sig .tc := ⟨.hbm, 60, rfl⟩
abbrev main_v26 : Ref sig .tc := ⟨.hbm, 61, rfl⟩
abbrev main_c_16 : Ref sig .tc := ⟨.hbm, 62, rfl⟩
abbrev main_v27 : Ref sig .tc := ⟨.hbm, 63, rfl⟩
abbrev main_v28 : Ref sig .tc := ⟨.hbm, 64, rfl⟩
abbrev main_cst_17 : Ref sig .tc := ⟨.hbm, 65, rfl⟩
abbrev main_call6_v0 : Ref sig .tc := ⟨.hbm, 66, rfl⟩
abbrev main_call6_v1 : Ref sig .tc := ⟨.hbm, 67, rfl⟩
abbrev main_v29 : Ref sig .tc := ⟨.hbm, 68, rfl⟩
abbrev main_cst_18 : Ref sig .tc := ⟨.hbm, 69, rfl⟩
abbrev main_v30 : Ref sig .tc := ⟨.hbm, 70, rfl⟩
abbrev main_c_19 : Ref sig .tc := ⟨.hbm, 71, rfl⟩
abbrev main_v31 : Ref sig .tc := ⟨.hbm, 72, rfl⟩
abbrev main_v32 : Ref sig .tc := ⟨.hbm, 73, rfl⟩
abbrev main_cst_20 : Ref sig .tc := ⟨.hbm, 74, rfl⟩
abbrev main_call7_v0 : Ref sig .tc := ⟨.hbm, 75, rfl⟩
abbrev main_call7_v1 : Ref sig .tc := ⟨.hbm, 76, rfl⟩
abbrev main_v33 : Ref sig .tc := ⟨.hbm, 77, rfl⟩
abbrev main_cst_21 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  bcast_S_S8192x2 : S_.BroadcastsInDim S8192x2 (![] : Fin 0 → Fin S8192x2.rank)
  reducesTo_S8192x2_S8192_d1 : S8192x2.ReducesTo [1] S8192
  h_S_ : 0 < S_.numel
  bcast_S8192_S1x8192_1 : S8192.BroadcastsInDim S1x8192 (![1] : Fin 1 → Fin S1x8192.rank)
  concatenates_S1x8192_S1x8192_S1x8192_S1x8192_S1x8192_S1x8192_S1x8192_S1x8192_S8x8192_d0 : Shape.Concatenates [S1x8192, S1x8192, S1x8192, S1x8192, S1x8192, S1x8192, S1x8192, S1x8192] S8x8192 0
  bcast_S8x8192_S8x1x8192_0_2 : S8x8192.BroadcastsInDim S8x1x8192 (![0, 2] : Fin 2 → Fin S8x1x8192.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2816x2048_S1x2816x2048_0_0_0 : ∀ a, (![0, 0, 0] : Fin 3 → Nat) a + S1x2816x2048.size a ≤ S1x2816x2048.size a
  h_S1x2816x2048 : 0 < S1x2816x2048.numel
  shapeCasts_S1x2816x2048_S2816x2048 : S1x2816x2048.ShapeCasts S2816x2048
  inb_S1x2048x1408_S1x2048x1408_0_0_0 : ∀ a, (![0, 0, 0] : Fin 3 → Nat) a + S1x2048x1408.size a ≤ S1x2048x1408.size a
  h_S1x2048x1408 : 0 < S1x2048x1408.numel
  shapeCasts_S1x2048x1408_S2048x1408 : S1x2048x1408.ShapeCasts S2048x1408
  slices_S256x2816_o0_0_S256x1408 : S256x2816.Slices ![0, 0] S256x1408
  slices_S256x2816_o0_1408_S256x1408 : S256x2816.Slices ![0, 1408] S256x1408
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S256x1 : S256.ShapeCasts S256x1
  broadcasts_S256x1_S256x2048 : S256x1.Broadcasts S256x2048
  dot_S256x2048_S2816x2048_S256x2816_1_1_0_0_n_n_wf : DotDims.WF S256x2048 S2816x2048 S256x2816 [1] [1] [0] [0] [] []
  dot_S256x1408_S2048x1408_S256x2048_1_1_0_0_n_n_wf : DotDims.WF S256x1408 S2048x1408 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .bf16 = 32 ∨ (Rect.block (s := S8192x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2816x2048.size a ≤ S8x2816x2048.size a
  hwx0_1 : ∀ i : grid0.Coords, EltTy.bits .bf16 = 32 ∨ (Rect.block (s := S8x2816x2048) S1x2816x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1408.size a ≤ S8x2048x1408.size a
  hwx0_2 : ∀ i : grid0.Coords, EltTy.bits .bf16 = 32 ∨ (Rect.block (s := S8x2048x1408) S1x2048x1408.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S8x1x8192.size a
  hwx0_3 : ∀ i : grid0.Coords, EltTy.bits .f32 = 32 ∨ (Rect.block (s := S8x1x8192) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x2048.size a
  hwx0_4 : ∀ i : grid0.Coords, EltTy.bits .f32 = 32 ∨ (Rect.block (s := S8192x2048) S256x2048.size (cc0_transform_4 i) (hinb0_4 i)).WholeWords (EltTy.packing .f32)

variable [Facts₀]

def dot_S256x2048_S2816x2048_S256x2816_1_1_0_0_n_n : DotDims S256x2048 S2816x2048 S256x2816 where
  lhsContracting := [1]
  rhsContracting := [1]
  lhsNonContracting := [0]
  rhsNonContracting := [0]
  lhsBatch := []
  rhsBatch := []
  wf := dot_S256x2048_S2816x2048_S256x2816_1_1_0_0_n_n_wf
def dot_S256x1408_S2048x1408_S256x2048_1_1_0_0_n_n : DotDims S256x1408 S2048x1408 S256x2048 where
  lhsContracting := [1]
  rhsContracting := [1]
  lhsNonContracting := [0]
  rhsNonContracting := [0]
  lhsBatch := []
  rhsBatch := []
  wf := dot_S256x1408_S2048x1408_S256x2048_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2816x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x1408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v45) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2816x2048 : Shape := ⟨3, ![8, 2816, 2048]⟩
abbrev S8x2048x1408 : Shape := ⟨3, ![8, 2048, 1408]⟩
abbrev S8192x2 : Shape := ⟨2, ![8192, 2]⟩
abbrev S_ : Shape := ⟨0, ![]⟩
abbrev S8192 : Shape := ⟨1, ![8192]⟩
abbrev S1x2816x2048 : Shape := ⟨3, ![1, 2816, 2048]⟩
abbrev S2816x2048 : Shape := ⟨2, ![2816, 2048]⟩
abbrev S2048x2816 : Shape := ⟨2, ![2048, 2816]⟩
abbrev S8192x2816 : Shape := ⟨2, ![8192, 2816]⟩
abbrev S8192x1408 : Shape := ⟨2, ![8192, 1408]⟩
abbrev S8192x1 : Shape := ⟨2, ![8192, 1]⟩
abbrev S1x2048x1408 : Shape := ⟨3, ![1, 2048, 1408]⟩
abbrev S2048x1408 : Shape := ⟨2, ![2048, 1408]⟩
abbrev S1408x2048 : Shape := ⟨2, ![1408, 2048]⟩

abbrev nBuf : Space → Nat
  | .hbm => 271
  | .vmem => 0
  | .smem => 0
  | _ => 0

abbrev hbmTy0_0 (i : Nat) : BufTy := match i % 128 with
  | 0 => ⟨S8192x2048, .f32⟩
  | 1 => ⟨S8x2816x2048, .f32⟩
  | 2 => ⟨S8x2048x1408, .f32⟩
  | 3 => ⟨S8192x2, .i32⟩
  | 4 => ⟨S8192x2, .f32⟩
  | 5 => ⟨S_, .f32⟩
  | 6 => ⟨S8192x2048, .f32⟩
  | 7 => ⟨S_, .i32⟩
  | 8 => ⟨S8192x2, .i32⟩
  | 9 => ⟨S8192x2, .i1⟩
  | 10 => ⟨S_, .f32⟩
  | 11 => ⟨S_, .f32⟩
  | 12 => ⟨S8192x2, .f32⟩
  | 13 => ⟨S8192x2, .f32⟩
  | 14 => ⟨S_, .f32⟩
  | 15 => ⟨S8192, .f32⟩
  | 16 => ⟨S1x2816x2048, .f32⟩
  | 17 => ⟨S2816x2048, .f32⟩
  | 18 => ⟨S2048x2816, .f32⟩
  | 19 => ⟨S8192x2816, .f32⟩
  | 20 => ⟨S8192x1408, .f32⟩
  | 21 => ⟨S8192x1408, .f32⟩
  | 22 => ⟨S8192x1408, .f32⟩
  | 23 => ⟨S_, .f32⟩
  | 24 => ⟨S8192x1408, .f32⟩
  | 25 => ⟨S8192x1408, .f32⟩
  | 26 => ⟨S_, .f32⟩
  | 27 => ⟨S8192x1408, .f32⟩
  | 28 => ⟨S8192x1408, .f32⟩
  | 29 => ⟨S8192x1408, .f32⟩
  | 30 => ⟨S8192x1408, .f32⟩
  | 31 => ⟨S8192x1408, .f32⟩
  | 32 => ⟨S8192x1, .f32⟩
  | 33 => ⟨S1x2048x1408, .f32⟩
  | 34 => ⟨S2048x1408, .f32⟩
  | 35 => ⟨S1408x2048, .f32⟩
  | 36 => ⟨S8192x2048, .f32⟩
  | 37 => ⟨S8192x2048, .f32⟩
  | 38 => ⟨S8192x2048, .f32⟩
  | 39 => ⟨S8192x2048, .f32⟩
  | 40 => ⟨S_, .i32⟩
  | 41 => ⟨S8192x2, .i32⟩
  | 42 => ⟨S8192x2, .i1⟩
  | 43 => ⟨S_, .f32⟩
  | 44 => ⟨S_, .f32⟩
  | 45 => ⟨S8192x2, .f32⟩
  | 46 => ⟨S8192x2, .f32⟩
  | 47 => ⟨S_, .f32⟩
  | 48 => ⟨S8192, .f32⟩
  | 49 => ⟨S1x2816x2048, .f32⟩
  | 50 => ⟨S2816x2048, .f32⟩
  | 51 => ⟨S2048x2816, .f32⟩
  | 52 => ⟨S8192x2816, .f32⟩
  | 53 => ⟨S8192x1408, .f32⟩
  | 54 => ⟨S8192x1408, .f32⟩
  | 55 => ⟨S8192x1408, .f32⟩
  | 56 => ⟨S_, .f32⟩
  | 57 => ⟨S8192x1408, .f32⟩
  | 58 => ⟨S8192x1408, .f32⟩
  | 59 => ⟨S_, .f32⟩
  | 60 => ⟨S8192x1408, .f32⟩
  | 61 => ⟨S8192x1408, .f32⟩
  | 62 => ⟨S8192x1408, .f32⟩
  | 63 => ⟨S8192x1408, .f32⟩
  | 64 => ⟨S8192x1408, .f32⟩
  | 65 => ⟨S8192x1, .f32⟩
  | 66 => ⟨S1x2048x1408, .f32⟩
  | 67 => ⟨S2048x1408, .f32⟩
  | 68 => ⟨S1408x2048, .f32⟩
  | 69 => ⟨S8192x2048, .f32⟩
  | 70 => ⟨S8192x2048, .f32⟩
  | 71 => ⟨S8192x2048, .f32⟩
  | 72 => ⟨S8192x2048, .f32⟩
  | 73 => ⟨S_, .i32⟩
  | 74 => ⟨S8192x2, .i32⟩
  | 75 => ⟨S8192x2, .i1⟩
  | 76 => ⟨S_, .f32⟩
  | 77 => ⟨S_, .f32⟩
  | 78 => ⟨S8192x2, .f32⟩
  | 79 => ⟨S8192x2, .f32⟩
  | 80 => ⟨S_, .f32⟩
  | 81 => ⟨S8192, .f32⟩
  | 82 => ⟨S1x2816x2048, .f32⟩
  | 83 => ⟨S2816x2048, .f32⟩
  | 84 => ⟨S2048x2816, .f32⟩
  | 85 => ⟨S8192x2816, .f32⟩
  | 86 => ⟨S8192x1408, .f32⟩
  | 87 => ⟨S8192x1408, .f32⟩
  | 88 => ⟨S8192x1408, .f32⟩
  | 89 => ⟨S_, .f32⟩
  | 90 => ⟨S8192x1408, .f32⟩
  | 91 => ⟨S8192x1408, .f32⟩
  | 92 => ⟨S_, .f32⟩
  | 93 => ⟨S8192x1408, .f32⟩
  | 94 => ⟨S8192x1408, .f32⟩
  | 95 => ⟨S8192x1408, .f32⟩
  | 96 => ⟨S8192x1408, .f32⟩
  | 97 => ⟨S8192x1408, .f32⟩
  | 98 => ⟨S8192x1, .f32⟩
  | 99 => ⟨S1x2048x1408, .f32⟩
  | 100 => ⟨S2048x1408, .f32⟩
  | 101 => ⟨S1408x2048, .f32⟩
  | 102 => ⟨S8192x2048, .f32⟩
  | 103 => ⟨S8192x2048, .f32⟩
  | 104 => ⟨S8192x2048, .f32⟩
  | 105 => ⟨S8192x2048, .f32⟩
  | 106 => ⟨S_, .i32⟩
  | 107 => ⟨S8192x2, .i32⟩
  | 108 => ⟨S8192x2, .i1⟩
  | 109 => ⟨S_, .f32⟩
  | 110 => ⟨S_, .f32⟩
  | 111 => ⟨S8192x2, .f32⟩
  | 112 => ⟨S8192x2, .f32⟩
  | 113 => ⟨S_, .f32⟩
  | 114 => ⟨S8192, .f32⟩
  | 115 => ⟨S1x2816x2048, .f32⟩
  | 116 => ⟨S2816x2048, .f32⟩
  | 117 => ⟨S2048x2816, .f32⟩
  | 118 => ⟨S8192x2816, .f32⟩
  | 119 => ⟨S8192x1408, .f32⟩
  | 120 => ⟨S8192x1408, .f32⟩
  | 121 => ⟨S8192x1408, .f32⟩
  | 122 => ⟨S_, .f32⟩
  | 123 => ⟨S8192x1408, .f32⟩
  | 124 => ⟨S8192x1408, .f32⟩
  | 125 => ⟨S_, .f32⟩
  | 126 => ⟨S8192x1408, .f32⟩
  | 127 => ⟨S8192x1408, .f32⟩
  | _ => ⟨S8192x2048, .f32⟩

abbrev hbmTy0_1 (i : Nat) : BufTy := match i % 128 with
  | 0 => ⟨S8192x1408, .f32⟩
  | 1 => ⟨S8192x1408, .f32⟩
  | 2 => ⟨S8192x1408, .f32⟩
  | 3 => ⟨S8192x1, .f32⟩
  | 4 => ⟨S1x2048x1408, .f32⟩
  | 5 => ⟨S2048x1408, .f32⟩
  | 6 => ⟨S1408x2048, .f32⟩
  | 7 => ⟨S8192x2048, .f32⟩
  | 8 => ⟨S8192x2048, .f32⟩
  | 9 => ⟨S8192x2048, .f32⟩
  | 10 => ⟨S8192x2048, .f32⟩
  | 11 => ⟨S_, .i32⟩
  | 12 => ⟨S8192x2, .i32⟩
  | 13 => ⟨S8192x2, .i1⟩
  | 14 => ⟨S_, .f32⟩
  | 15 => ⟨S_, .f32⟩
  | 16 => ⟨S8192x2, .f32⟩
  | 17 => ⟨S8192x2, .f32⟩
  | 18 => ⟨S_, .f32⟩
  | 19 => ⟨S8192, .f32⟩
  | 20 => ⟨S1x2816x2048, .f32⟩
  | 21 => ⟨S2816x2048, .f32⟩
  | 22 => ⟨S2048x2816, .f32⟩
  | 23 => ⟨S8192x2816, .f32⟩
  | 24 => ⟨S8192x1408, .f32⟩
  | 25 => ⟨S8192x1408, .f32⟩
  | 26 => ⟨S8192x1408, .f32⟩
  | 27 => ⟨S_, .f32⟩
  | 28 => ⟨S8192x1408, .f32⟩
  | 29 => ⟨S8192x1408, .f32⟩
  | 30 => ⟨S_, .f32⟩
  | 31 => ⟨S8192x1408, .f32⟩
  | 32 => ⟨S8192x1408, .f32⟩
  | 33 => ⟨S8192x1408, .f32⟩
  | 34 => ⟨S8192x1408, .f32⟩
  | 35 => ⟨S8192x1408, .f32⟩
  | 36 => ⟨S8192x1, .f32⟩
  | 37 => ⟨S1x2048x1408, .f32⟩
  | 38 => ⟨S2048x1408, .f32⟩
  | 39 => ⟨S1408x2048, .f32⟩
  | 40 => ⟨S8192x2048, .f32⟩
  | 41 => ⟨S8192x2048, .f32⟩
  | 42 => ⟨S8192x2048, .f32⟩
  | 43 => ⟨S8192x2048, .f32⟩
  | 44 => ⟨S_, .i32⟩
  | 45 => ⟨S8192x2, .i32⟩
  | 46 => ⟨S8192x2, .i1⟩
  | 47 => ⟨S_, .f32⟩
  | 48 => ⟨S_, .f32⟩
  | 49 => ⟨S8192x2, .f32⟩
  | 50 => ⟨S8192x2, .f32⟩
  | 51 => ⟨S_, .f32⟩
  | 52 => ⟨S8192, .f32⟩
  | 53 => ⟨S1x2816x2048, .f32⟩
  | 54 => ⟨S2816x2048, .f32⟩
  | 55 => ⟨S2048x2816, .f32⟩
  | 56 => ⟨S8192x2816, .f32⟩
  | 57 => ⟨S8192x1408, .f32⟩
  | 58 => ⟨S8192x1408, .f32⟩
  | 59 => ⟨S8192x1408, .f32⟩
  | 60 => ⟨S_, .f32⟩
  | 61 => ⟨S8192x1408, .f32⟩
  | 62 => ⟨S8192x1408, .f32⟩
  | 63 => ⟨S_, .f32⟩
  | 64 => ⟨S8192x1408, .f32⟩
  | 65 => ⟨S8192x1408, .f32⟩
  | 66 => ⟨S8192x1408, .f32⟩
  | 67 => ⟨S8192x1408, .f32⟩
  | 68 => ⟨S8192x1408, .f32⟩
  | 69 => ⟨S8192x1, .f32⟩
  | 70 => ⟨S1x2048x1408, .f32⟩
  | 71 => ⟨S2048x1408, .f32⟩
  | 72 => ⟨S1408x2048, .f32⟩
  | 73 => ⟨S8192x2048, .f32⟩
  | 74 => ⟨S8192x2048, .f32⟩
  | 75 => ⟨S8192x2048, .f32⟩
  | 76 => ⟨S8192x2048, .f32⟩
  | 77 => ⟨S_, .i32⟩
  | 78 => ⟨S8192x2, .i32⟩
  | 79 => ⟨S8192x2, .i1⟩
  | 80 => ⟨S_, .f32⟩
  | 81 => ⟨S_, .f32⟩
  | 82 => ⟨S8192x2, .f32⟩
  | 83 => ⟨S8192x2, .f32⟩
  | 84 => ⟨S_, .f32⟩
  | 85 => ⟨S8192, .f32⟩
  | 86 => ⟨S1x2816x2048, .f32⟩
  | 87 => ⟨S2816x2048, .f32⟩
  | 88 => ⟨S2048x2816, .f32⟩
  | 89 => ⟨S8192x2816, .f32⟩
  | 90 => ⟨S8192x1408, .f32⟩
  | 91 => ⟨S8192x1408, .f32⟩
  | 92 => ⟨S8192x1408, .f32⟩
  | 93 => ⟨S_, .f32⟩
  | 94 => ⟨S8192x1408, .f32⟩
  | 95 => ⟨S8192x1408, .f32⟩
  | 96 => ⟨S_, .f32⟩
  | 97 => ⟨S8192x1408, .f32⟩
  | 98 => ⟨S8192x1408, .f32⟩
  | 99 => ⟨S8192x1408, .f32⟩
  | 100 => ⟨S8192x1408, .f32⟩
  | 101 => ⟨S8192x1408, .f32⟩
  | 102 => ⟨S8192x1, .f32⟩
  | 103 => ⟨S1x2048x1408, .f32⟩
  | 104 => ⟨S2048x1408, .f32⟩
  | 105 => ⟨S1408x2048, .f32⟩
  | 106 => ⟨S8192x2048, .f32⟩
  | 107 => ⟨S8192x2048, .f32⟩
  | 108 => ⟨S8192x2048, .f32⟩
  | 109 => ⟨S8192x2048, .f32⟩
  | 110 => ⟨S_, .i32⟩
  | 111 => ⟨S8192x2, .i32⟩
  | 112 => ⟨S8192x2, .i1⟩
  | 113 => ⟨S_, .f32⟩
  | 114 => ⟨S_, .f32⟩
  | 115 => ⟨S8192x2, .f32⟩
  | 116 => ⟨S8192x2, .f32⟩
  | 117 => ⟨S_, .f32⟩
  | 118 => ⟨S8192, .f32⟩
  | 119 => ⟨S1x2816x2048, .f32⟩
  | 120 => ⟨S2816x2048, .f32⟩
  | 121 => ⟨S2048x2816, .f32⟩
  | 122 => ⟨S8192x2816, .f32⟩
  | 123 => ⟨S8192x1408, .f32⟩
  | 124 => ⟨S8192x1408, .f32⟩
  | 125 => ⟨S8192x1408, .f32⟩
  | 126 => ⟨S_, .f32⟩
  | 127 => ⟨S8192x1408, .f32⟩
  | _ => ⟨S8192x2048, .f32⟩

abbrev hbmTy0_2 (i : Nat) : BufTy := match i % 128 with
  | 0 => ⟨S8192x1408, .f32⟩
  | 1 => ⟨S_, .f32⟩
  | 2 => ⟨S8192x1408, .f32⟩
  | 3 => ⟨S8192x1408, .f32⟩
  | 4 => ⟨S8192x1408, .f32⟩
  | 5 => ⟨S8192x1408, .f32⟩
  | 6 => ⟨S8192x1408, .f32⟩
  | 7 => ⟨S8192x1, .f32⟩
  | 8 => ⟨S1x2048x1408, .f32⟩
  | 9 => ⟨S2048x1408, .f32⟩
  | 10 => ⟨S1408x2048, .f32⟩
  | 11 => ⟨S8192x2048, .f32⟩
  | 12 => ⟨S8192x2048, .f32⟩
  | 13 => ⟨S8192x2048, .f32⟩
  | 14 => ⟨S8192x2048, .f32⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_call2_v0 : Ref sig .tc := ⟨.hbm, 44, rfl⟩
abbrev main_call2_v1 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_5 : Ref sig .tc := ⟨.hbm, 73, rfl⟩
abbrev main_v41 : Ref sig .tc := ⟨.hbm, 74, rfl⟩
abbrev main_v42 : Ref sig .tc := ⟨.hbm, 75, rfl⟩
abbrev main_cst_6 : Ref sig .tc := ⟨.hbm, 76, rfl⟩
abbrev main_call4_v0 : Ref sig .tc := ⟨.hbm, 77, rfl⟩
abbrev main_call4_v1 : Ref sig .tc := ⟨.hbm, 78, rfl⟩
abbrev main_v43 : Ref sig .tc := ⟨.hbm, 79, rfl⟩
abbrev main_cst_7 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_call5_v0 : Ref sig .tc := ⟨.hbm, 87, rfl⟩
abbrev main_call5_v1 : Ref sig .tc := ⟨.hbm, 88, rfl⟩
abbrev main_call5_cst : Ref sig .tc := ⟨.hbm, 89, rfl⟩
abbrev main_call5_v2 : Ref sig .tc := ⟨.hbm, 90, rfl⟩
abbrev main_call5_v3 : Ref sig .tc := ⟨.hbm, 91, rfl⟩
abbrev main_call5_cst_0 : Ref sig .tc := ⟨.hbm, 92, rfl⟩
abbrev main_call5_v4 : Ref sig .tc := ⟨.hbm, 93, rfl⟩
abbrev main_call5_v5 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_c_8 : Ref sig .tc := ⟨.hbm, 106, rfl⟩
abbrev main_v61 : Ref sig .tc := ⟨.hbm, 107, rfl⟩
abbrev main_v62 : Ref sig .tc := ⟨.hbm, 108, rfl⟩
abbrev main_cst_9 : Ref sig .tc := ⟨.hbm, 109, rfl⟩
abbrev main_call6_v0 : Ref sig .tc := ⟨.hbm, 110, rfl⟩
abbrev main_call6_v1 : Ref sig .tc := ⟨.hbm, 111, rfl⟩
abbrev main_v63 : Ref sig .tc := ⟨.hbm, 112, rfl⟩
abbrev main_cst_10 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_call7_v0 : Ref sig .tc := ⟨.hbm, 120, rfl⟩
abbrev main_call7_v1 : Ref sig .tc := ⟨.hbm, 121, rfl⟩
abbrev main_call7_cst : Ref sig .tc := ⟨.hbm, 122, rfl⟩
abbrev main_call7_v2 : Ref sig .tc := ⟨.hbm, 123, rfl⟩
abbrev main_call7_v3 : Ref sig .tc := ⟨.hbm, 124, rfl⟩
abbrev main_call7_cst_0 : Ref sig .tc := ⟨.hbm, 125, rfl⟩
abbrev main_call7_v4 : Ref sig .tc := ⟨.hbm, 126, rfl⟩
abbrev main_call7_v5 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_c_11 : Ref sig .tc := ⟨.hbm, 139, rfl⟩
abbrev main_v81 : Ref sig .tc := ⟨.hbm, 140, rfl⟩
abbrev main_v82 : Ref sig .tc := ⟨.hbm, 141, rfl⟩
abbrev main_cst_12 : Ref sig .tc := ⟨.hbm, 142, rfl⟩
abbrev main_call8_v0 : Ref sig .tc := ⟨.hbm, 143, rfl⟩
abbrev main_call8_v1 : Ref sig .tc := ⟨.hbm, 144, rfl⟩
abbrev main_v83 : Ref sig .tc := ⟨.hbm, 145, rfl⟩
abbrev main_cst_13 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_call9_v0 : Ref sig .tc := ⟨.hbm, 153, rfl⟩
abbrev main_call9_v1 : Ref sig .tc := ⟨.hbm, 154, rfl⟩
abbrev main_call9_cst : Ref sig .tc := ⟨.hbm, 155, rfl⟩
abbrev main_call9_v2 : Ref sig .tc := ⟨.hbm, 156, rfl⟩
abbrev main_call9_v3 : Ref sig .tc := ⟨.hbm, 157, rfl⟩
abbrev main_call9_cst_0 : Ref sig .tc := ⟨.hbm, 158, rfl⟩
abbrev main_call9_v4 : Ref sig .tc := ⟨.hbm, 159, rfl⟩
abbrev main_call9_v5 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_c_14 : Ref sig .tc := ⟨.hbm, 172, rfl⟩
abbrev main_v101 : Ref sig .tc := ⟨.hbm, 173, rfl⟩
abbrev main_v102 : Ref sig .tc := ⟨.hbm, 174, rfl⟩
abbrev main_cst_15 : Ref sig .tc := ⟨.hbm, 175, rfl⟩
abbrev main_call10_v0 : Ref sig .tc := ⟨.hbm, 176, rfl⟩
abbrev main_call10_v1 : Ref sig .tc := ⟨.hbm, 177, rfl⟩
abbrev main_v103 : Ref sig .tc := ⟨.hbm, 178, rfl⟩
abbrev main_cst_16 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_call11_v0 : Ref sig .tc := ⟨.hbm, 186, rfl⟩
abbrev main_call11_v1 : Ref sig .tc := ⟨.hbm, 187, rfl⟩
abbrev main_call11_cst : Ref sig .tc := ⟨.hbm, 188, rfl⟩
abbrev main_call11_v2 : Ref sig .tc := ⟨.hbm, 189, rfl⟩
abbrev main_call11_v3 : Ref sig .tc := ⟨.hbm, 190, rfl⟩
abbrev main_call11_cst_0 : Ref sig .tc := ⟨.hbm, 191, rfl⟩
abbrev main_call11_v4 : Ref sig .tc := ⟨.hbm, 192, rfl⟩
abbrev main_call11_v5 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_c_17 : Ref sig .tc := ⟨.hbm, 205, rfl⟩
abbrev main_v121 : Ref sig .tc := ⟨.hbm, 206, rfl⟩
abbrev main_v122 : Ref sig .tc := ⟨.hbm, 207, rfl⟩
abbrev main_cst_18 : Ref sig .tc := ⟨.hbm, 208, rfl⟩
abbrev main_call12_v0 : Ref sig .tc := ⟨.hbm, 209, rfl⟩
abbrev main_call12_v1 : Ref sig .tc := ⟨.hbm, 210, rfl⟩
abbrev main_v123 : Ref sig .tc := ⟨.hbm, 211, rfl⟩
abbrev main_cst_19 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_call13_v0 : Ref sig .tc := ⟨.hbm, 219, rfl⟩
abbrev main_call13_v1 : Ref sig .tc := ⟨.hbm, 220, rfl⟩
abbrev main_call13_cst : Ref sig .tc := ⟨.hbm, 221, rfl⟩
abbrev main_call13_v2 : Ref sig .tc := ⟨.hbm, 222, rfl⟩
abbrev main_call13_v3 : Ref sig .tc := ⟨.hbm, 223, rfl⟩
abbrev main_call13_cst_0 : Ref sig .tc := ⟨.hbm, 224, rfl⟩
abbrev main_call13_v4 : Ref sig .tc := ⟨.hbm, 225, rfl⟩
abbrev main_call13_v5 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_c_20 : Ref sig .tc := ⟨.hbm, 238, rfl⟩
abbrev main_v141 : Ref sig .tc := ⟨.hbm, 239, rfl⟩
abbrev main_v142 : Ref sig .tc := ⟨.hbm, 240, rfl⟩
abbrev main_cst_21 : Ref sig .tc := ⟨.hbm, 241, rfl⟩
abbrev main_call14_v0 : Ref sig .tc := ⟨.hbm, 242, rfl⟩
abbrev main_call14_v1 : Ref sig .tc := ⟨.hbm, 243, rfl⟩
abbrev main_v143 : Ref sig .tc := ⟨.hbm, 244, rfl⟩
abbrev main_cst_22 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_call15_v0 : Ref sig .tc := ⟨.hbm, 252, rfl⟩
abbrev main_call15_v1 : Ref sig .tc := ⟨.hbm, 253, rfl⟩
abbrev main_call15_cst : Ref sig .tc := ⟨.hbm, 254, rfl⟩
abbrev main_call15_v2 : Ref sig .tc := ⟨.hbm, 255, rfl⟩
abbrev main_call15_v3 : Ref sig .tc := ⟨.hbm, 256, rfl⟩
abbrev main_call15_cst_0 : Ref sig .tc := ⟨.hbm, 257, rfl⟩
abbrev main_call15_v4 : Ref sig .tc := ⟨.hbm, 258, rfl⟩
abbrev main_call15_v5 : Ref sig .tc := ⟨.hbm, 259, rfl⟩
abbrev main_v150 : Ref sig .tc := ⟨.hbm, 260, rfl⟩
abbrev main_v151 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  bcast_S_S8192x2 : S_.BroadcastsInDim S8192x2 (![] : Fin 0 → Fin S8192x2.rank)
  reducesTo_S8192x2_S8192_d1 : S8192x2.ReducesTo [1] S8192
  h_S_ : 0 < S_.numel
  slices_S8x2816x2048_S1x2816x2048_0_0_0 : S8x2816x2048.Slices ![0, 0, 0] S1x2816x2048
  shapeCasts_S1x2816x2048_S2816x2048 : S1x2816x2048.ShapeCasts S2816x2048
  transposes_S2816x2048_S2048x2816_1_0 : S2816x2048.Transposes [1, 0] S2048x2816
  slices_S8192x2816_S8192x1408_0_0 : S8192x2816.Slices ![0, 0] S8192x1408
  bcast_S_S8192x1408 : S_.BroadcastsInDim S8192x1408 (![] : Fin 0 → Fin S8192x1408.rank)
  slices_S8192x2816_S8192x1408_0_1408 : S8192x2816.Slices ![0, 1408] S8192x1408
  bcast_S8192_S8192x1_0 : S8192.BroadcastsInDim S8192x1 (![0] : Fin 1 → Fin S8192x1.rank)
  slices_S8x2048x1408_S1x2048x1408_0_0_0 : S8x2048x1408.Slices ![0, 0, 0] S1x2048x1408
  shapeCasts_S1x2048x1408_S2048x1408 : S1x2048x1408.ShapeCasts S2048x1408
  transposes_S2048x1408_S1408x2048_1_0 : S2048x1408.Transposes [1, 0] S1408x2048
  bcast_S8192x1_S8192x2048_0_1 : S8192x1.BroadcastsInDim S8192x2048 (![0, 1] : Fin 2 → Fin S8192x2048.rank)
  slices_S8x2816x2048_S1x2816x2048_1_0_0 : S8x2816x2048.Slices ![1, 0, 0] S1x2816x2048
  slices_S8x2048x1408_S1x2048x1408_1_0_0 : S8x2048x1408.Slices ![1, 0, 0] S1x2048x1408
  slices_S8x2816x2048_S1x2816x2048_2_0_0 : S8x2816x2048.Slices ![2, 0, 0] S1x2816x2048
  slices_S8x2048x1408_S1x2048x1408_2_0_0 : S8x2048x1408.Slices ![2, 0, 0] S1x2048x1408
  slices_S8x2816x2048_S1x2816x2048_3_0_0 : S8x2816x2048.Slices ![3, 0, 0] S1x2816x2048
  slices_S8x2048x1408_S1x2048x1408_3_0_0 : S8x2048x1408.Slices ![3, 0, 0] S1x2048x1408
  slices_S8x2816x2048_S1x2816x2048_4_0_0 : S8x2816x2048.Slices ![4, 0, 0] S1x2816x2048
  slices_S8x2048x1408_S1x2048x1408_4_0_0 : S8x2048x1408.Slices ![4, 0, 0] S1x2048x1408
  slices_S8x2816x2048_S1x2816x2048_5_0_0 : S8x2816x2048.Slices ![5, 0, 0] S1x2816x2048
  slices_S8x2048x1408_S1x2048x1408_5_0_0 : S8x2048x1408.Slices ![5, 0, 0] S1x2048x1408
  slices_S8x2816x2048_S1x2816x2048_6_0_0 : S8x2816x2048.Slices ![6, 0, 0] S1x2816x2048
  slices_S8x2048x1408_S1x2048x1408_6_0_0 : S8x2048x1408.Slices ![6, 0, 0] S1x2048x1408
  slices_S8x2816x2048_S1x2816x2048_7_0_0 : S8x2816x2048.Slices ![7, 0, 0] S1x2816x2048
  slices_S8x2048x1408_S1x2048x1408_7_0_0 : S8x2048x1408.Slices ![7, 0, 0] S1x2048x1408
  dot_S8192x2048_S2048x2816_S8192x2816_1_0_0_1_n_n_wf : DotDims.WF S8192x2048 S2048x2816 S8192x2816 [1] [0] [0] [1] [] []
  dot_S8192x1408_S1408x2048_S8192x2048_1_0_0_1_n_n_wf : DotDims.WF S8192x1408 S1408x2048 S8192x2048 [1] [0] [0] [1] [] []

variable [Facts₀]

def dot_S8192x2048_S2048x2816_S8192x2816_1_0_0_1_n_n : DotDims S8192x2048 S2048x2816 S8192x2816 where
  lhsContracting := [1]
  rhsContracting := [0]
  lhsNonContracting := [0]
  rhsNonContracting := [1]
  lhsBatch := []
  rhsBatch := []
  wf := dot_S8192x2048_S2048x2816_S8192x2816_1_0_0_1_n_n_wf
def dot_S8192x1408_S1408x2048_S8192x2048_1_0_0_1_n_n : DotDims S8192x1408 S1408x2048 S8192x2048 where
  lhsContracting := [1]
  rhsContracting := [0]
  lhsNonContracting := [0]
  rhsNonContracting := [1]
  lhsBatch := []
  rhsBatch := []
  wf := dot_S8192x1408_S1408x2048_S8192x2048_1_0_0_1_n_n_wf

class Facts : Prop extends Facts₀ where

variable [Facts]
-- ==== Proof.RefResult.lean ====
/-
  The reference's result, as its run states it (one composed term of the five arguments), is the last stage of its
  operation-by-operation reading: the two spell the same operations in the same order.
-/
import proofs.«120920_j84705345012305_2_alg».proof.Proof.RefRunP
import proofs.«120920_j84705345012305_2_alg».proof.Proof.RefReadP

noncomputable section

namespace Cert.ReferenceIdeal.RefValue

open Cert.ReferenceIdeal Idealize.ShloMosaic Idealize.ShloMosaic.TcCoe Idealize.SL.Sem

variable {F : FTy → Type} [FloatOps F]

set_option maxRecDepth 8192 in
theorem result_is_stage (m : (ℓ : Loc nD τ sig) → Buf (Elt F) ℓ) (c : Dev nD) :
    Cert.ReferenceIdeal.ValueP.res_main_v160 m c
      = Cert.ReferenceIdeal.ReadP.val_main_v160 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Cert.ReferenceIdeal.ValueP.res_main_v160; rfl

end Cert.ReferenceIdeal.RefValue

end
-- ==== Proof.BitsAround.lean ====
/-
  The host program around the one kernel launch, and what the launch's schedule says of the kernel body.

  @main is seventeen stretches of host operations (three converts; per expert the routing coefficient of every
  token; the eight coefficient rows stacked into [8, 1, 8192]) followed by the launch. `V` is what each buffer
  holds when the launch starts. The five argument arrays are written by no host operation, and none of them is an
  array the launch windows (those are the converted copies and the stacked coefficients), so each ends as it
  began. The grid is 32 token tiles × 8 experts, expert innermost: a point `t` is (t / 8, t % 8). The body's first
  conditional (reset the accumulator) is taken exactly where t % 8 = 0 and its second (store the output tile)
  exactly where t % 8 = 7; the output window is written back exactly at those last points and is left untouched
  at the others.
-/
import proofs.«120920_j84705345012305_2_alg».proof.Proof.Gen.Kernel.Launch
import proofs.«120920_j84705345012305_2_alg».proof.Proof.Gen.Kernel.Skeleton
import proofs.«120920_j84705345012305_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- The stretches of host operations before the launch, in program order. -/
abbrev hostPrefix : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- What each buffer holds when the launch starts: the launch-time memory after the host operations. -/
abbrev V (c : Dev nD) (b : Ref sig .tc) : Buf (Elt F) ((c : Thread nD τ).loc b) :=
  StableHlo.after (List.flatten hostPrefix) (fun b => m (c, b)) b

/-- An operation of several operands writes its result buffer only. -/
theorem nary_writes {n : Nat} (xs : Fin n → Ref sig .tc) (y : Ref sig .tc)
    (f : ((k : Fin n) → (xs k).ty.Contents (Elt F)) → y.ty.Contents (Elt F)) (hxs) (hy) :
    (StableHlo.nary (τ := τ) xs y f hxs hy : HloOp τ sig (Elt F)).writes = {(y : DevRef τ sig)} := rfl

/-- No host operation allocates. -/
theorem hostPrefix_fresh : (hostPrefix : List (List (HloOp τ sig (Elt F)))).Forall fun ops => ops.Forall fun op => op.fresh = ∅ := by
  simp only [List.Forall]; repeat' constructor

/-- @main is the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostPrefix
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    hostPrefix_fresh main_chain

/-- No host operation writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, nary_writes, Finset.mem_singleton]
    repeat' apply And.intro
    all_goals exact StableHlo.devRef_ne_of_ne (by decide)))
/-- No host operation writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, nary_writes, Finset.mem_singleton]
    repeat' apply And.intro
    all_goals exact StableHlo.devRef_ne_of_ne (by decide)))
/-- No host operation writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, nary_writes, Finset.mem_singleton]
    repeat' apply And.intro
    all_goals exact StableHlo.devRef_ne_of_ne (by decide)))
/-- No host operation writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, nary_writes, Finset.mem_singleton]
    repeat' apply And.intro
    all_goals exact StableHlo.devRef_ne_of_ne (by decide)))
/-- No host operation writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not, for any proof data whose
    array is the launch-time one and whose body leaves the block in place. -/
theorem beforeIn0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, for any proof data whose
    array is the launch-time one and whose body leaves the block in place. -/
theorem beforeIn1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, for any proof data whose
    array is the launch-time one and whose body leaves the block in place. -/
theorem beforeIn2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, for any proof data whose
    array is the launch-time one and whose body leaves the block in place. -/
theorem beforeIn3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end as they began -/

/-- From a run that ends with every bypassing buffer at its launch-time contents to the frame claim's post: the five
    argument arrays are bypassing buffers (no window's array is an argument), and no host operation wrote them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of _ rfl (by decide))).trans (V_main_arg0 m c),
     ((h c).2 main_arg1 (Pipeline.mem_restRefs_of _ rfl (by decide))).trans (V_main_arg1 m c),
     ((h c).2 main_arg2 (Pipeline.mem_restRefs_of _ rfl (by decide))).trans (V_main_arg2 m c),
     ((h c).2 main_arg3 (Pipeline.mem_restRefs_of _ rfl (by decide))).trans (V_main_arg3 m c),
     ((h c).2 main_arg4 (Pipeline.mem_restRefs_of _ rfl (by decide))).trans (V_main_arg4 m c)⟩) h

/-! ## The body's two conditionals over the grid -/

/-- The accumulator is reset: the expert coordinate is 0. -/
abbrev resets (i : grid0.Coords) : Prop := (Scalar.cmpi .ne (Scalar.extui (Scalar.cmpi .eq (BitVec.ofNat 32 (i 1).val) 0#32)) 0#32) = 1#1
theorem resets_iff : ∀ t : Fin cfg0.N, resets (grid0.coords t) ↔ t.val % 8 = 0 :=
  (by decide +kernel : ∀ t : Fin grid0.N, resets (grid0.coords t) ↔ t.val % 8 = 0)

/-- The output tile is stored: the expert coordinate is 7. -/
abbrev emits (i : grid0.Coords) : Prop := k0_cond2 i = 1#1
theorem emits_iff : ∀ t : Fin cfg0.N, emits (grid0.coords t) ↔ t.val % 8 = 7 :=
  (by decide +kernel : ∀ t : Fin grid0.N, emits (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Where the output tile is not stored the output window is idle, -/
theorem idle4_of : ∀ t : Fin cfg0.N, ¬emits (grid0.coords t) → cfg0.idle 4 (grid0.coords t) = true := by decide +kernel
/-- and not written back; -/
theorem noFlush4_of : ∀ t : Fin cfg0.N, ¬emits (grid0.coords t) → (cfg0.win 4).flush t = false := by decide +kernel
/-- where it is stored the window is live. -/
theorem live4_of : ∀ t : Fin cfg0.N, emits (grid0.coords t) → cfg0.idle 4 (grid0.coords t) = false := by decide +kernel

/-! ## The body's memrefs at a point -/

/-- One staging buffer of the output window, through which its contents are stated. -/
abbrev outView : View sig .tc .vmem S256x2048 .f32 := (Memref.whole cc0_stg4_0 : Memref sig .tc .vmem S256x2048 .f32).view
abbrev mr0 (t : Fin cfg0.N) : Memref sig .tc .vmem S256x2048 .bf16 := win0_0.stage (cfg0.slots t 0)
abbrev hmr0 (t : Fin cfg0.N) : (mr0 t).IsWhole := hstage0_0 ((cfg0.slots t 0).cast nbuf0_0)
abbrev mr1 (t : Fin cfg0.N) : Memref sig .tc .vmem S1x2816x2048 .bf16 := win0_1.stage (cfg0.slots t 1)
abbrev hmr1 (t : Fin cfg0.N) : (mr1 t).IsWhole := hstage0_1 ((cfg0.slots t 1).cast nbuf0_1)
abbrev mr2 (t : Fin cfg0.N) : Memref sig .tc .vmem S1x2048x1408 .bf16 := win0_2.stage (cfg0.slots t 2)
abbrev hmr2 (t : Fin cfg0.N) : (mr2 t).IsWhole := hstage0_2 ((cfg0.slots t 2).cast nbuf0_2)
abbrev mr3 (t : Fin cfg0.N) : Memref sig .tc .vmem S1x1x256 .f32 := win0_3.stage (cfg0.slots t 3)
abbrev hmr3 (t : Fin cfg0.N) : (mr3 t).IsWhole := hstage0_3 ((cfg0.slots t 3).cast nbuf0_3)
abbrev mr4 (t : Fin cfg0.N) : Memref sig .tc .vmem S256x2048 .f32 := win0_4.stage (cfg0.slots t 4)
abbrev hmr4 (t : Fin cfg0.N) : (mr4 t).IsWhole := hstage0_4 ((cfg0.slots t 4).cast nbuf0_4)
/-- The accumulator scratch: a whole scoped buffer of the kernel's own. -/
abbrev accM : Memref sig .tc .vmem S256x2048 .f32 := Memref.whole cc0_scratch0
abbrev accView : View sig .tc .vmem S256x2048 .f32 := accM.view

/-- The launch's invariant with the accumulator scratch as a memref owned at some contents. -/
theorem PhiA0_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Around

end
-- ==== Proof.BitsRunFirst.lean ====
/-
  The kernel body at a token tile's FIRST expert (the accumulator is reset, the output tile is not stored): run on
  whole staging buffers holding the four input blocks, the output window's buffer handed back untouched, the
  accumulator scratch at anything. It ends with the accumulator scratch overwritten by the body's stores (the
  pieces the run finds: the zero splat, then the first expert's term added to what was loaded back).
-/
import proofs.«120920_j84705345012305_2_alg».proof.Proof.BitsAround

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at a first expert, with the pieces its stores leave in the accumulator scratch. -/
noncomputable def runFirst (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : resets i) (hc1 : ¬emits i)
    (x0 : Vec F S256x2048 .bf16) (x1 : Vec F S1x2816x2048 .bf16) (x2 : Vec F S1x2048x1408 .bf16) (x3 : Vec F S1x1x256 .f32) :
    Σ' (L4 : List (View.Piece (Elt F) S256x2048 .f32)), { LS : List (View.Piece (Elt F) S256x2048 .f32) //
      ∀ (xi4 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨[], ?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Around

end
-- ==== Proof.BitsRunMid.lean ====
/-
  The kernel body at a MIDDLE expert of a token tile (no reset, no store of the output tile): the accumulator scratch
  is handed over at what the expert before left and ends overwritten by the one store of the updated sum; the
  output window's buffer is handed back untouched.
-/
import proofs.«120920_j84705345012305_2_alg».proof.Proof.BitsRunFirst

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at a middle expert, with the piece its store leaves in the accumulator scratch. -/
noncomputable def runMid (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : ¬emits i)
    (x0 : Vec F S256x2048 .bf16) (x1 : Vec F S1x2816x2048 .bf16) (x2 : Vec F S1x2048x1408 .bf16) (x3 : Vec F S1x1x256 .f32) (xs : Vec F S256x2048 .f32) :
    Σ' (L4 : List (View.Piece (Elt F) S256x2048 .f32)), { LS : List (View.Piece (Elt F) S256x2048 .f32) //
      ∀ (xi4 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨[], ?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Around

end
-- ==== Proof.BitsRunLast.lean ====
/-
  The kernel body at a token tile's LAST expert (no reset; the output tile is stored): the accumulator scratch is
  handed over at what the expert before left and ends overwritten by the updated sum, which the body then loads
  back and stores whole into the output window's buffer (handed over at anything).
-/
import proofs.«120920_j84705345012305_2_alg».proof.Proof.BitsRunMid

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at a last expert, with the pieces its stores leave in the output buffer and in the scratch. -/
noncomputable def runLast (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : emits i)
    (x0 : Vec F S256x2048 .bf16) (x1 : Vec F S1x2816x2048 .bf16) (x2 : Vec F S1x2048x1408 .bf16) (x3 : Vec F S1x1x256 .f32) (xs : Vec F S256x2048 .f32) :
    Σ' (L4 : List (View.Piece (Elt F) S256x2048 .f32)), { LS : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, ?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Around

end
-- ==== Proof.BitsFrame.lean ====
/-
  The frame of the program: what the accumulator scratch and the output window's buffer hold after every grid
  point, the launch's proof data over it, the body obligation at every point (by the three runs), the run of
  @main, and the frame claim.

  After point `t` = (tile, e) the accumulator holds the zero splat plus the terms of experts 0..e of that tile, as
  the runs' found pieces read back; the output window's buffer holds the accumulator at the tile's last expert.
  Between points of one tile the scratch is carried by the invariant; at a tile's first point whatever it held is
  overwritten.
-/
import proofs.«120920_j84705345012305_2_alg».proof.Proof.BitsRunLast

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a first expert the body stores nothing into the output window (idle there, not written back): a placeholder. -/
def outFirst (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : resets i) (hc1 : ¬emits i) (x0 : Vec F S256x2048 .bf16) (x1 : Vec F S1x2816x2048 .bf16) (x2 : Vec F S1x2048x1408 .bf16) (x3 : Vec F S1x1x256 .f32) : Vec F S256x2048 .f32 :=
  outView.read (Elt F) (outView.writes (Elt F) outView.junk (runFirst c i arg2 harg2 arg3 harg3 arg4 harg4 arg5 harg5 arg6 harg6 arg7 harg7 hc0 hc1 x0 x1 x2 x3).1)

theorem accCoverFirst (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : resets i) (hc1 : ¬emits i) (x0 : Vec F S256x2048 .bf16) (x1 : Vec F S1x2816x2048 .bf16) (x2 : Vec F S1x2048x1408 .bf16) (x3 : Vec F S1x1x256 .f32) (y : S256x2048.Idx) :
    ∃ pc ∈ (runFirst c i arg2 harg2 arg3 harg3 arg4 harg4 arg5 harg5 arg6 harg6 arg7 harg7 hc0 hc1 x0 x1 x2 x3).2.1, y ∈ pc.1.set :=
  View.cover_of_tiledL (runFirst c i arg2 harg2 arg3 harg3 arg4 harg4 arg5 harg5 arg6 harg6 arg7 harg7 hc0 hc1 x0 x1 x2 x3).2.1 S256x2048.size (by sl_kernel_rfl) y

/-- What a first expert leaves in the accumulator scratch. -/
def accFirst (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : resets i) (hc1 : ¬emits i) (x0 : Vec F S256x2048 .bf16) (x1 : Vec F S1x2816x2048 .bf16) (x2 : Vec F S1x2048x1408 .bf16) (x3 : Vec F S1x1x256 .f32) : Vec F S256x2048 .f32 :=
  accView.read (Elt F) (accView.writes (Elt F) accView.junk (runFirst c i arg2 harg2 arg3 harg3 arg4 harg4 arg5 harg5 arg6 harg6 arg7 harg7 hc0 hc1 x0 x1 x2 x3).2.1)

/-- At a middle expert the body stores nothing into the output window either: a placeholder. -/
def outMid (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : ¬emits i) (x0 : Vec F S256x2048 .bf16) (x1 : Vec F S1x2816x2048 .bf16) (x2 : Vec F S1x2048x1408 .bf16) (x3 : Vec F S1x1x256 .f32) (xs : Vec F S256x2048 .f32) : Vec F S256x2048 .f32 :=
  outView.read (Elt F) (outView.writes (Elt F) outView.junk (runMid c i arg2 harg2 arg3 harg3 arg4 harg4 arg5 harg5 arg6 harg6 arg7 harg7 hc0 hc1 x0 x1 x2 x3 xs).1)

theorem accCoverMid (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : ¬emits i) (x0 : Vec F S256x2048 .bf16) (x1 : Vec F S1x2816x2048 .bf16) (x2 : Vec F S1x2048x1408 .bf16) (x3 : Vec F S1x1x256 .f32) (xs : Vec F S256x2048 .f32) (y : S256x2048.Idx) :
    ∃ pc ∈ (runMid c i arg2 harg2 arg3 harg3 arg4 harg4 arg5 harg5 arg6 harg6 arg7 harg7 hc0 hc1 x0 x1 x2 x3 xs).2.1, y ∈ pc.1.set :=
  View.cover_of_tiledL (runMid c i arg2 harg2 arg3 harg3 arg4 harg4 arg5 harg5 arg6 harg6 arg7 harg7 hc0 hc1 x0 x1 x2 x3 xs).2.1 S256x2048.size (by sl_kernel_rfl) y

/-- What a middle expert leaves in the accumulator scratch. -/
def accMid (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : ¬emits i) (x0 : Vec F S256x2048 .bf16) (x1 : Vec F S1x2816x2048 .bf16) (x2 : Vec F S1x2048x1408 .bf16) (x3 : Vec F S1x1x256 .f32) (xs : Vec F S256x2048 .f32) : Vec F S256x2048 .f32 :=
  accView.read (Elt F) (accView.writes (Elt F) accView.junk (runMid c i arg2 harg2 arg3 harg3 arg4 harg4 arg5 harg5 arg6 harg6 arg7 harg7 hc0 hc1 x0 x1 x2 x3 xs).2.1)

theorem outCoverLast (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : emits i) (x0 : Vec F S256x2048 .bf16) (x1 : Vec F S1x2816x2048 .bf16) (x2 : Vec F S1x2048x1408 .bf16) (x3 : Vec F S1x1x256 .f32) (xs : Vec F S256x2048 .f32) (y : S256x2048.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S256x2048.size (by sl_kernel_rfl) y

/-- What a last expert leaves in the output window's buffer. -/
def outLast (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : emits i) (x0 : Vec F S256x2048 .bf16) (x1 : Vec F S1x2816x2048 .bf16) (x2 : Vec F S1x2048x1408 .bf16) (x3 : Vec F S1x1x256 .f32) (xs : Vec F S256x2048 .f32) : Vec F S256x2048 .f32 :=
  outView.read (Elt F) (outView.writes (Elt F) outView.junk (runLast c i arg2 harg2 arg3 harg3 arg4 harg4 arg5 harg5 arg6 harg6 arg7 harg7 hc0 hc1 x0 x1 x2 x3 xs).1)

theorem accCoverLast (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : emits i) (x0 : Vec F S256x2048 .bf16) (x1 : Vec F S1x2816x2048 .bf16) (x2 : Vec F S1x2048x1408 .bf16) (x3 : Vec F S1x1x256 .f32) (xs : Vec F S256x2048 .f32) (y : S256x2048.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S256x2048.size (by sl_kernel_rfl) y

/-- What a last expert leaves in the accumulator scratch. -/
def accLast (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : emits i) (x0 : Vec F S256x2048 .bf16) (x1 : Vec F S1x2816x2048 .bf16) (x2 : Vec F S1x2048x1408 .bf16) (x3 : Vec F S1x1x256 .f32) (xs : Vec F S256x2048 .f32) : Vec F S256x2048 .f32 :=
  accView.read (Elt F) (accView.writes (Elt F) accView.junk (runLast c i arg2 harg2 arg3 harg3 arg4 harg4 arg5 harg5 arg6 harg6 arg7 harg7 hc0 hc1 x0 x1 x2 x3 xs).2.1)

/-! ## Point by point -/

/-- The case's contents at point `t`, a pair (output window's buffer, accumulator scratch). -/
def stepFirst (c : Dev nD) (t : Fin cfg0.N) (h0 : t.val % 8 = 0) (h1 : ¬t.val % 8 = 7) : Vec F S256x2048 .f32 × Vec F S256x2048 .f32 :=
  (outFirst c (grid0.coords t) (mr0 t) (hmr0 t) (mr1 t) (hmr1 t) (mr2 t) (hmr2 t) (mr3 t) (hmr3 t) (mr4 t) (hmr4 t) accM (Memref.isWhole_whole _) ((resets_iff t).mpr h0) (fun h => h1 ((emits_iff t).mp h)) (iblk m c 0 t) (iblk m c 1 t) (iblk m c 2 t) (iblk m c 3 t),
   accFirst c (grid0.coords t) (mr0 t) (hmr0 t) (mr1 t) (hmr1 t) (mr2 t) (hmr2 t) (mr3 t) (hmr3 t) (mr4 t) (hmr4 t) accM (Memref.isWhole_whole _) ((resets_iff t).mpr h0) (fun h => h1 ((emits_iff t).mp h)) (iblk m c 0 t) (iblk m c 1 t) (iblk m c 2 t) (iblk m c 3 t))
def stepMid (c : Dev nD) (t : Fin cfg0.N) (h0 : ¬t.val % 8 = 0) (h1 : ¬t.val % 8 = 7) (xs : Vec F S256x2048 .f32) : Vec F S256x2048 .f32 × Vec F S256x2048 .f32 :=
  (outMid c (grid0.coords t) (mr0 t) (hmr0 t) (mr1 t) (hmr1 t) (mr2 t) (hmr2 t) (mr3 t) (hmr3 t) (mr4 t) (hmr4 t) accM (Memref.isWhole_whole _) (fun h => h0 ((resets_iff t).mp h)) (fun h => h1 ((emits_iff t).mp h)) (iblk m c 0 t) (iblk m c 1 t) (iblk m c 2 t) (iblk m c 3 t) xs,
   accMid c (grid0.coords t) (mr0 t) (hmr0 t) (mr1 t) (hmr1 t) (mr2 t) (hmr2 t) (mr3 t) (hmr3 t) (mr4 t) (hmr4 t) accM (Memref.isWhole_whole _) (fun h => h0 ((resets_iff t).mp h)) (fun h => h1 ((emits_iff t).mp h)) (iblk m c 0 t) (iblk m c 1 t) (iblk m c 2 t) (iblk m c 3 t) xs)
def stepLast (c : Dev nD) (t : Fin cfg0.N) (h0 : ¬t.val % 8 = 0) (h1 : t.val % 8 = 7) (xs : Vec F S256x2048 .f32) : Vec F S256x2048 .f32 × Vec F S256x2048 .f32 :=
  (outLast c (grid0.coords t) (mr0 t) (hmr0 t) (mr1 t) (hmr1 t) (mr2 t) (hmr2 t) (mr3 t) (hmr3 t) (mr4 t) (hmr4 t) accM (Memref.isWhole_whole _) (fun h => h0 ((resets_iff t).mp h)) ((emits_iff t).mpr h1) (iblk m c 0 t) (iblk m c 1 t) (iblk m c 2 t) (iblk m c 3 t) xs,
   accLast c (grid0.coords t) (mr0 t) (hmr0 t) (mr1 t) (hmr1 t) (mr2 t) (hmr2 t) (mr3 t) (hmr3 t) (mr4 t) (hmr4 t) accM (Memref.isWhole_whole _) (fun h => h0 ((resets_iff t).mp h)) ((emits_iff t).mpr h1) (iblk m c 0 t) (iblk m c 1 t) (iblk m c 2 t) (iblk m c 3 t) xs)

/-- THE ACCUMULATION: what the output window's buffer and the accumulator scratch hold after the body at position `n`:
    the case the position is in, a later expert's over what the position before left in the scratch. -/
def outsAt (c : Dev nD) : (n : ℕ) → n < cfg0.N → Vec F S256x2048 .f32 × Vec F S256x2048 .f32
  | 0, hn => stepFirst m c ⟨0, hn⟩ (Nat.zero_mod 8) (by show ¬ (0 : ℕ) % 8 = 7; decide)
  | n + 1, hn =>
    if h0 : (n + 1) % 8 = 0 then
      if h1 : (n + 1) % 8 = 7 then False.elim (by omega)
      else stepFirst m c ⟨n + 1, hn⟩ h0 h1
    else
      if h1 : (n + 1) % 8 = 7 then stepLast m c ⟨n + 1, hn⟩ h0 h1 (outsAt c n (Nat.lt_of_succ_lt hn)).2
      else stepMid m c ⟨n + 1, hn⟩ h0 h1 (outsAt c n (Nat.lt_of_succ_lt hn)).2

theorem outsAt_first (c : Dev nD) (t : Fin cfg0.N) (h0 : t.val % 8 = 0) (h1 : ¬t.val % 8 = 7) :
    outsAt m c t.val t.isLt = stepFirst m c t h0 h1 := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt m c t.val t.isLt = stepMid m c t h0 h1 (outsAt m c (t.val - 1) (Nat.lt_of_le_of_lt (Nat.sub_le _ _) t.isLt)).2 := by
  obtain ⟨n, hn⟩ := t
  cases n with
  | zero => exact absurd (Nat.zero_mod 8) h0
  | succ n => exact (dif_neg h0).trans ((dif_neg h1).trans rfl)

theorem outsAt_last (c : Dev nD) (t : Fin cfg0.N) (h0 : ¬t.val % 8 = 0) (h1 : t.val % 8 = 7) :
    outsAt m c t.val t.isLt = stepLast m c t h0 h1 (outsAt m c (t.val - 1) (Nat.lt_of_le_of_lt (Nat.sub_le _ _) t.isLt)).2 := by
  obtain ⟨n, hn⟩ := t
  cases n with
  | zero => exact absurd (Nat.zero_mod 8) h0
  | succ n => exact (dif_neg h0).trans ((dif_pos h1).trans rfl)

/-- The invariant before position `n`: before the first point the launch's (the scratch at anything); afterwards the
    accumulator scratch at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The launch's proof data -/

/-- The arrays as the launch finds them; after the body at point `t` each input's buffer at its block and the output's
    at `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  beforeIn0_of m (dats m 0 c) (A_eq m c 0) (after0 m c) t d
theorem before1 (c : Dev nD) (t : Fin cfg0.N) (d) : (dats m 0 c).before 1 t d = iblk m c 1 t :=
  beforeIn1_of m (dats m 0 c) (A_eq m c 1) (after1 m c) t d
theorem before2 (c : Dev nD) (t : Fin cfg0.N) (d) : (dats m 0 c).before 2 t d = iblk m c 2 t :=
  beforeIn2_of m (dats m 0 c) (A_eq m c 2) (after2 m c) t d
theorem before3 (c : Dev nD) (t : Fin cfg0.N) (d) : (dats m 0 c).before 3 t d = iblk m c 3 t :=
  beforeIn3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (mr0 t) fullShare (iblk m c 0 t) := by
  rw [show (dats m 0 c).leavesExact 0 t = owns (c : Thread nD τ) (mr0 t) fullShare ((dats m 0 c).after 0 t) from by
    unfold Dat.leavesExact; rw [live0 t], after0]
theorem leaves1 (c : Dev nD) (t : Fin cfg0.N) : (dats m 0 c).leavesExact 1 t = owns (c : Thread nD τ) (mr1 t) fullShare (iblk m c 1 t) := by
  rw [show (dats m 0 c).leavesExact 1 t = owns (c : Thread nD τ) (mr1 t) fullShare ((dats m 0 c).after 1 t) from by
    unfold Dat.leavesExact; rw [live1 t], after1]
theorem leaves2 (c : Dev nD) (t : Fin cfg0.N) : (dats m 0 c).leavesExact 2 t = owns (c : Thread nD τ) (mr2 t) fullShare (iblk m c 2 t) := by
  rw [show (dats m 0 c).leavesExact 2 t = owns (c : Thread nD τ) (mr2 t) fullShare ((dats m 0 c).after 2 t) from by
    unfold Dat.leavesExact; rw [live2 t], after2]
theorem leaves3 (c : Dev nD) (t : Fin cfg0.N) : (dats m 0 c).leavesExact 3 t = owns (c : Thread nD τ) (mr3 t) fullShare (iblk m c 3 t) := by
  rw [show (dats m 0 c).leavesExact 3 t = owns (c : Thread nD τ) (mr3 t) fullShare ((dats m 0 c).after 3 t) from by
    unfold Dat.leavesExact; rw [live3 t], after3]

set_option maxHeartbeats 4800000 in
/-- The body at any point: the inputs' buffers hold their blocks; the point's position among its tile's experts says
    which run applies; the invariant hands over the scratch (at anything before the first point, else at what the
    point before left) and takes it back at this point's contents; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 256 := lt_of_lt_of_eq t.isLt (show cfg0.N = 256 from N_0)
  by_cases h0 : t.val % 8 = 0
  · have h1 : ¬t.val % 8 = 7 := by omega
    rw [Dat.leavesExact_idle (dats m 0 c) 4 t (idle4_of t (fun h => h1 ((emits_iff t).mp h))) (noFlush4_of t (fun h => h1 ((emits_iff t).mp h)))]
    rw [outsAt_first m c t h0 h1]
    unfold stepFirst accFirst; (try dsimp only)
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ ((resets_iff t).mpr h0) (fun h => h1 ((emits_iff t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accCoverFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ ((resets_iff t).mpr h0) (fun h => h1 ((emits_iff t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accCoverFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dats m 0 c).leavesExact 4 t = owns (c : Thread nD τ) (mr4 t) fullShare ((dats m 0 c).after 4 t) from by
        unfold Dat.leavesExact; rw [live4_of t ((emits_iff t).mpr h1)], after4]
      rw [outsAt_last m c t h0 h1]
      unfold stepLast outLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((resets_iff t).mp h)) ((emits_iff t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (accCoverLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outCoverLast c _ _ _ _ _ _ _ _ _ _ _ _ _ _ _ _ _ _ _ _)
    · rw [Dat.leavesExact_idle (dats m 0 c) 4 t (idle4_of t (fun h => h1 ((emits_iff t).mp h))) (noFlush4_of t (fun h => h1 ((emits_iff t).mp h)))]
      rw [outsAt_mid m c t h0 h1]
      unfold stepMid accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((resets_iff t).mp h)) (fun h => h1 ((emits_iff t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accCoverMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of @main terminates, and every final state has each windowed array at what the
    proof data say and every other unscoped buffer at its launch-time contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- THE FRAME: the program runs to the end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Around

end
-- ==== Proof.IdealAround.lean ====
/-
  The host program around the one kernel launch, and what the launch's schedule says of the kernel body.

  @main is seventeen stretches of host operations (three converts; per expert the routing coefficient of every
  token; the eight coefficient rows stacked into [8, 1, 8192]) followed by the launch. `V` is what each buffer
  holds when the launch starts. The five argument arrays are written by no host operation, and none of them is an
  array the launch windows (those are the converted copies and the stacked coefficients), so each ends as it
  began. The grid is 32 token tiles × 8 experts, expert innermost: a point `t` is (t / 8, t % 8). The body's first
  conditional (reset the accumulator) is taken exactly where t % 8 = 0 and its second (store the output tile)
  exactly where t % 8 = 7; the output window is written back exactly at those last points and is left untouched
  at the others.
-/
import proofs.«120920_j84705345012305_2_alg».proof.Proof.Gen.KernelIdeal.Launch
import proofs.«120920_j84705345012305_2_alg».proof.Proof.Gen.KernelIdeal.Skeleton
import proofs.«120920_j84705345012305_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- The stretches of host operations before the launch, in program order. -/
abbrev hostPrefix : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- What each buffer holds when the launch starts: the launch-time memory after the host operations. -/
abbrev V (c : Dev nD) (b : Ref sig .tc) : Buf (Elt F) ((c : Thread nD τ).loc b) :=
  StableHlo.after (List.flatten hostPrefix) (fun b => m (c, b)) b

/-- An operation of several operands writes its result buffer only. -/
theorem nary_writes {n : Nat} (xs : Fin n → Ref sig .tc) (y : Ref sig .tc)
    (f : ((k : Fin n) → (xs k).ty.Contents (Elt F)) → y.ty.Contents (Elt F)) (hxs) (hy) :
    (StableHlo.nary (τ := τ) xs y f hxs hy : HloOp τ sig (Elt F)).writes = {(y : DevRef τ sig)} := rfl

/-- No host operation allocates. -/
theorem hostPrefix_fresh : (hostPrefix : List (List (HloOp τ sig (Elt F)))).Forall fun ops => ops.Forall fun op => op.fresh = ∅ := by
  simp only [List.Forall]; repeat' constructor

/-- @main is the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostPrefix
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    hostPrefix_fresh main_chain

/-- No host operation writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, nary_writes, Finset.mem_singleton]
    repeat' apply And.intro
    all_goals exact StableHlo.devRef_ne_of_ne (by decide)))
/-- No host operation writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, nary_writes, Finset.mem_singleton]
    repeat' apply And.intro
    all_goals exact StableHlo.devRef_ne_of_ne (by decide)))
/-- No host operation writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, nary_writes, Finset.mem_singleton]
    repeat' apply And.intro
    all_goals exact StableHlo.devRef_ne_of_ne (by decide)))
/-- No host operation writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, nary_writes, Finset.mem_singleton]
    repeat' apply And.intro
    all_goals exact StableHlo.devRef_ne_of_ne (by decide)))
/-- No host operation writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.ternary, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not, for any proof data whose
    array is the launch-time one and whose body leaves the block in place. -/
theorem beforeIn0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, for any proof data whose
    array is the launch-time one and whose body leaves the block in place. -/
theorem beforeIn1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, for any proof data whose
    array is the launch-time one and whose body leaves the block in place. -/
theorem beforeIn2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, for any proof data whose
    array is the launch-time one and whose body leaves the block in place. -/
theorem beforeIn3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end as they began -/

/-- From a run that ends with every bypassing buffer at its launch-time contents to the frame claim's post: the five
    argument arrays are bypassing buffers (no window's array is an argument), and no host operation wrote them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of _ rfl (by decide))).trans (V_main_arg0 m c),
     ((h c).2 main_arg1 (Pipeline.mem_restRefs_of _ rfl (by decide))).trans (V_main_arg1 m c),
     ((h c).2 main_arg2 (Pipeline.mem_restRefs_of _ rfl (by decide))).trans (V_main_arg2 m c),
     ((h c).2 main_arg3 (Pipeline.mem_restRefs_of _ rfl (by decide))).trans (V_main_arg3 m c),
     ((h c).2 main_arg4 (Pipeline.mem_restRefs_of _ rfl (by decide))).trans (V_main_arg4 m c)⟩) h

/-! ## The body's two conditionals over the grid -/

/-- The accumulator is reset: the expert coordinate is 0. -/
abbrev resets (i : grid0.Coords) : Prop := (Scalar.cmpi .ne (Scalar.extui (Scalar.cmpi .eq (BitVec.ofNat 32 (i 1).val) 0#32)) 0#32) = 1#1
theorem resets_iff : ∀ t : Fin cfg0.N, resets (grid0.coords t) ↔ t.val % 8 = 0 :=
  (by decide +kernel : ∀ t : Fin grid0.N, resets (grid0.coords t) ↔ t.val % 8 = 0)

/-- The output tile is stored: the expert coordinate is 7. -/
abbrev emits (i : grid0.Coords) : Prop := k0_cond2 i = 1#1
theorem emits_iff : ∀ t : Fin cfg0.N, emits (grid0.coords t) ↔ t.val % 8 = 7 :=
  (by decide +kernel : ∀ t : Fin grid0.N, emits (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Where the output tile is not stored the output window is idle, -/
theorem idle4_of : ∀ t : Fin cfg0.N, ¬emits (grid0.coords t) → cfg0.idle 4 (grid0.coords t) = true := by decide +kernel
/-- and not written back; -/
theorem noFlush4_of : ∀ t : Fin cfg0.N, ¬emits (grid0.coords t) → (cfg0.win 4).flush t = false := by decide +kernel
/-- where it is stored the window is live. -/
theorem live4_of : ∀ t : Fin cfg0.N, emits (grid0.coords t) → cfg0.idle 4 (grid0.coords t) = false := by decide +kernel

/-! ## The body's memrefs at a point -/

/-- One staging buffer of the output window, through which its contents are stated. -/
abbrev outView : View sig .tc .vmem S256x2048 .f32 := (Memref.whole cc0_stg4_0 : Memref sig .tc .vmem S256x2048 .f32).view
abbrev mr0 (t : Fin cfg0.N) : Memref sig .tc .vmem S256x2048 .bf16 := win0_0.stage (cfg0.slots t 0)
abbrev hmr0 (t : Fin cfg0.N) : (mr0 t).IsWhole := hstage0_0 ((cfg0.slots t 0).cast nbuf0_0)
abbrev mr1 (t : Fin cfg0.N) : Memref sig .tc .vmem S1x2816x2048 .bf16 := win0_1.stage (cfg0.slots t 1)
abbrev hmr1 (t : Fin cfg0.N) : (mr1 t).IsWhole := hstage0_1 ((cfg0.slots t 1).cast nbuf0_1)
abbrev mr2 (t : Fin cfg0.N) : Memref sig .tc .vmem S1x2048x1408 .bf16 := win0_2.stage (cfg0.slots t 2)
abbrev hmr2 (t : Fin cfg0.N) : (mr2 t).IsWhole := hstage0_2 ((cfg0.slots t 2).cast nbuf0_2)
abbrev mr3 (t : Fin cfg0.N) : Memref sig .tc .vmem S1x1x256 .f32 := win0_3.stage (cfg0.slots t 3)
abbrev hmr3 (t : Fin cfg0.N) : (mr3 t).IsWhole := hstage0_3 ((cfg0.slots t 3).cast nbuf0_3)
abbrev mr4 (t : Fin cfg0.N) : Memref sig .tc .vmem S256x2048 .f32 := win0_4.stage (cfg0.slots t 4)
abbrev hmr4 (t : Fin cfg0.N) : (mr4 t).IsWhole := hstage0_4 ((cfg0.slots t 4).cast nbuf0_4)
/-- The accumulator scratch: a whole scoped buffer of the kernel's own. -/
abbrev accM : Memref sig .tc .vmem S256x2048 .f32 := Memref.whole cc0_scratch0
abbrev accView : View sig .tc .vmem S256x2048 .f32 := accM.view

/-- The launch's invariant with the accumulator scratch as a memref owned at some contents. -/
theorem PhiA0_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Around

end
-- ==== Proof.IdealRunFirst.lean ====
/-
  The kernel body at a token tile's FIRST expert (the accumulator is reset, the output tile is not stored): run on
  whole staging buffers holding the four input blocks, the output window's buffer handed back untouched, the
  accumulator scratch at anything. It ends with the accumulator scratch overwritten by the body's stores (the
  pieces the run finds: the zero splat, then the first expert's term added to what was loaded back).
-/
import proofs.«120920_j84705345012305_2_alg».proof.Proof.IdealAround

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at a first expert, with the pieces its stores leave in the accumulator scratch. -/
noncomputable def runFirst (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : resets i) (hc1 : ¬emits i)
    (x0 : Vec F S256x2048 .bf16) (x1 : Vec F S1x2816x2048 .bf16) (x2 : Vec F S1x2048x1408 .bf16) (x3 : Vec F S1x1x256 .f32) :
    Σ' (L4 : List (View.Piece (Elt F) S256x2048 .f32)), { LS : List (View.Piece (Elt F) S256x2048 .f32) //
      ∀ (xi4 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨[], ?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Around

end
-- ==== Proof.IdealRunMid.lean ====
/-
  The kernel body at a MIDDLE expert of a token tile (no reset, no store of the output tile): the accumulator scratch
  is handed over at what the expert before left and ends overwritten by the one store of the updated sum; the
  output window's buffer is handed back untouched.
-/
import proofs.«120920_j84705345012305_2_alg».proof.Proof.IdealRunFirst

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at a middle expert, with the piece its store leaves in the accumulator scratch. -/
noncomputable def runMid (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : ¬emits i)
    (x0 : Vec F S256x2048 .bf16) (x1 : Vec F S1x2816x2048 .bf16) (x2 : Vec F S1x2048x1408 .bf16) (x3 : Vec F S1x1x256 .f32) (xs : Vec F S256x2048 .f32) :
    Σ' (L4 : List (View.Piece (Elt F) S256x2048 .f32)), { LS : List (View.Piece (Elt F) S256x2048 .f32) //
      ∀ (xi4 : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨[], ?_, fun xi4 E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Around

end
-- ==== Proof.IdealRunLast.lean ====
/-
  The kernel body at a token tile's LAST expert (no reset; the output tile is stored): the accumulator scratch is
  handed over at what the expert before left and ends overwritten by the updated sum, which the body then loads
  back and stores whole into the output window's buffer (handed over at anything).
-/
import proofs.«120920_j84705345012305_2_alg».proof.Proof.IdealRunMid

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at a last expert, with the pieces its stores leave in the output buffer and in the scratch. -/
noncomputable def runLast (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : emits i)
    (x0 : Vec F S256x2048 .bf16) (x1 : Vec F S1x2816x2048 .bf16) (x2 : Vec F S1x2048x1408 .bf16) (x3 : Vec F S1x1x256 .f32) (xs : Vec F S256x2048 .f32) :
    Σ' (L4 : List (View.Piece (Elt F) S256x2048 .f32)), { LS : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, ?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Around

end
-- ==== Proof.IdealFrame.lean ====
/-
  The frame of the program: what the accumulator scratch and the output window's buffer hold after every grid
  point, the launch's proof data over it, the body obligation at every point (by the three runs), the run of
  @main, and the frame claim.

  After point `t` = (tile, e) the accumulator holds the zero splat plus the terms of experts 0..e of that tile, as
  the runs' found pieces read back; the output window's buffer holds the accumulator at the tile's last expert.
  Between points of one tile the scratch is carried by the invariant; at a tile's first point whatever it held is
  overwritten.
-/
import proofs.«120920_j84705345012305_2_alg».proof.Proof.IdealRunLast

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a first expert the body stores nothing into the output window (idle there, not written back): a placeholder. -/
def outFirst (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : resets i) (hc1 : ¬emits i) (x0 : Vec F S256x2048 .bf16) (x1 : Vec F S1x2816x2048 .bf16) (x2 : Vec F S1x2048x1408 .bf16) (x3 : Vec F S1x1x256 .f32) : Vec F S256x2048 .f32 :=
  outView.read (Elt F) (outView.writes (Elt F) outView.junk (runFirst c i arg2 harg2 arg3 harg3 arg4 harg4 arg5 harg5 arg6 harg6 arg7 harg7 hc0 hc1 x0 x1 x2 x3).1)

theorem accCoverFirst (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : resets i) (hc1 : ¬emits i) (x0 : Vec F S256x2048 .bf16) (x1 : Vec F S1x2816x2048 .bf16) (x2 : Vec F S1x2048x1408 .bf16) (x3 : Vec F S1x1x256 .f32) (y : S256x2048.Idx) :
    ∃ pc ∈ (runFirst c i arg2 harg2 arg3 harg3 arg4 harg4 arg5 harg5 arg6 harg6 arg7 harg7 hc0 hc1 x0 x1 x2 x3).2.1, y ∈ pc.1.set :=
  View.cover_of_tiledL (runFirst c i arg2 harg2 arg3 harg3 arg4 harg4 arg5 harg5 arg6 harg6 arg7 harg7 hc0 hc1 x0 x1 x2 x3).2.1 S256x2048.size (by sl_kernel_rfl) y

/-- What a first expert leaves in the accumulator scratch. -/
def accFirst (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : resets i) (hc1 : ¬emits i) (x0 : Vec F S256x2048 .bf16) (x1 : Vec F S1x2816x2048 .bf16) (x2 : Vec F S1x2048x1408 .bf16) (x3 : Vec F S1x1x256 .f32) : Vec F S256x2048 .f32 :=
  accView.read (Elt F) (accView.writes (Elt F) accView.junk (runFirst c i arg2 harg2 arg3 harg3 arg4 harg4 arg5 harg5 arg6 harg6 arg7 harg7 hc0 hc1 x0 x1 x2 x3).2.1)

/-- At a middle expert the body stores nothing into the output window either: a placeholder. -/
def outMid (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : ¬emits i) (x0 : Vec F S256x2048 .bf16) (x1 : Vec F S1x2816x2048 .bf16) (x2 : Vec F S1x2048x1408 .bf16) (x3 : Vec F S1x1x256 .f32) (xs : Vec F S256x2048 .f32) : Vec F S256x2048 .f32 :=
  outView.read (Elt F) (outView.writes (Elt F) outView.junk (runMid c i arg2 harg2 arg3 harg3 arg4 harg4 arg5 harg5 arg6 harg6 arg7 harg7 hc0 hc1 x0 x1 x2 x3 xs).1)

theorem accCoverMid (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : ¬emits i) (x0 : Vec F S256x2048 .bf16) (x1 : Vec F S1x2816x2048 .bf16) (x2 : Vec F S1x2048x1408 .bf16) (x3 : Vec F S1x1x256 .f32) (xs : Vec F S256x2048 .f32) (y : S256x2048.Idx) :
    ∃ pc ∈ (runMid c i arg2 harg2 arg3 harg3 arg4 harg4 arg5 harg5 arg6 harg6 arg7 harg7 hc0 hc1 x0 x1 x2 x3 xs).2.1, y ∈ pc.1.set :=
  View.cover_of_tiledL (runMid c i arg2 harg2 arg3 harg3 arg4 harg4 arg5 harg5 arg6 harg6 arg7 harg7 hc0 hc1 x0 x1 x2 x3 xs).2.1 S256x2048.size (by sl_kernel_rfl) y

/-- What a middle expert leaves in the accumulator scratch. -/
def accMid (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : ¬emits i) (x0 : Vec F S256x2048 .bf16) (x1 : Vec F S1x2816x2048 .bf16) (x2 : Vec F S1x2048x1408 .bf16) (x3 : Vec F S1x1x256 .f32) (xs : Vec F S256x2048 .f32) : Vec F S256x2048 .f32 :=
  accView.read (Elt F) (accView.writes (Elt F) accView.junk (runMid c i arg2 harg2 arg3 harg3 arg4 harg4 arg5 harg5 arg6 harg6 arg7 harg7 hc0 hc1 x0 x1 x2 x3 xs).2.1)

theorem outCoverLast (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : emits i) (x0 : Vec F S256x2048 .bf16) (x1 : Vec F S1x2816x2048 .bf16) (x2 : Vec F S1x2048x1408 .bf16) (x3 : Vec F S1x1x256 .f32) (xs : Vec F S256x2048 .f32) (y : S256x2048.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S256x2048.size (by sl_kernel_rfl) y

/-- What a last expert leaves in the output window's buffer. -/
def outLast (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : emits i) (x0 : Vec F S256x2048 .bf16) (x1 : Vec F S1x2816x2048 .bf16) (x2 : Vec F S1x2048x1408 .bf16) (x3 : Vec F S1x1x256 .f32) (xs : Vec F S256x2048 .f32) : Vec F S256x2048 .f32 :=
  outView.read (Elt F) (outView.writes (Elt F) outView.junk (runLast c i arg2 harg2 arg3 harg3 arg4 harg4 arg5 harg5 arg6 harg6 arg7 harg7 hc0 hc1 x0 x1 x2 x3 xs).1)

theorem accCoverLast (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : emits i) (x0 : Vec F S256x2048 .bf16) (x1 : Vec F S1x2816x2048 .bf16) (x2 : Vec F S1x2048x1408 .bf16) (x3 : Vec F S1x1x256 .f32) (xs : Vec F S256x2048 .f32) (y : S256x2048.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S256x2048.size (by sl_kernel_rfl) y

/-- What a last expert leaves in the accumulator scratch. -/
def accLast (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : emits i) (x0 : Vec F S256x2048 .bf16) (x1 : Vec F S1x2816x2048 .bf16) (x2 : Vec F S1x2048x1408 .bf16) (x3 : Vec F S1x1x256 .f32) (xs : Vec F S256x2048 .f32) : Vec F S256x2048 .f32 :=
  accView.read (Elt F) (accView.writes (Elt F) accView.junk (runLast c i arg2 harg2 arg3 harg3 arg4 harg4 arg5 harg5 arg6 harg6 arg7 harg7 hc0 hc1 x0 x1 x2 x3 xs).2.1)

/-! ## Point by point -/

/-- The case's contents at point `t`, a pair (output window's buffer, accumulator scratch). -/
def stepFirst (c : Dev nD) (t : Fin cfg0.N) (h0 : t.val % 8 = 0) (h1 : ¬t.val % 8 = 7) : Vec F S256x2048 .f32 × Vec F S256x2048 .f32 :=
  (outFirst c (grid0.coords t) (mr0 t) (hmr0 t) (mr1 t) (hmr1 t) (mr2 t) (hmr2 t) (mr3 t) (hmr3 t) (mr4 t) (hmr4 t) accM (Memref.isWhole_whole _) ((resets_iff t).mpr h0) (fun h => h1 ((emits_iff t).mp h)) (iblk m c 0 t) (iblk m c 1 t) (iblk m c 2 t) (iblk m c 3 t),
   accFirst c (grid0.coords t) (mr0 t) (hmr0 t) (mr1 t) (hmr1 t) (mr2 t) (hmr2 t) (mr3 t) (hmr3 t) (mr4 t) (hmr4 t) accM (Memref.isWhole_whole _) ((resets_iff t).mpr h0) (fun h => h1 ((emits_iff t).mp h)) (iblk m c 0 t) (iblk m c 1 t) (iblk m c 2 t) (iblk m c 3 t))
def stepMid (c : Dev nD) (t : Fin cfg0.N) (h0 : ¬t.val % 8 = 0) (h1 : ¬t.val % 8 = 7) (xs : Vec F S256x2048 .f32) : Vec F S256x2048 .f32 × Vec F S256x2048 .f32 :=
  (outMid c (grid0.coords t) (mr0 t) (hmr0 t) (mr1 t) (hmr1 t) (mr2 t) (hmr2 t) (mr3 t) (hmr3 t) (mr4 t) (hmr4 t) accM (Memref.isWhole_whole _) (fun h => h0 ((resets_iff t).mp h)) (fun h => h1 ((emits_iff t).mp h)) (iblk m c 0 t) (iblk m c 1 t) (iblk m c 2 t) (iblk m c 3 t) xs,
   accMid c (grid0.coords t) (mr0 t) (hmr0 t) (mr1 t) (hmr1 t) (mr2 t) (hmr2 t) (mr3 t) (hmr3 t) (mr4 t) (hmr4 t) accM (Memref.isWhole_whole _) (fun h => h0 ((resets_iff t).mp h)) (fun h => h1 ((emits_iff t).mp h)) (iblk m c 0 t) (iblk m c 1 t) (iblk m c 2 t) (iblk m c 3 t) xs)
def stepLast (c : Dev nD) (t : Fin cfg0.N) (h0 : ¬t.val % 8 = 0) (h1 : t.val % 8 = 7) (xs : Vec F S256x2048 .f32) : Vec F S256x2048 .f32 × Vec F S256x2048 .f32 :=
  (outLast c (grid0.coords t) (mr0 t) (hmr0 t) (mr1 t) (hmr1 t) (mr2 t) (hmr2 t) (mr3 t) (hmr3 t) (mr4 t) (hmr4 t) accM (Memref.isWhole_whole _) (fun h => h0 ((resets_iff t).mp h)) ((emits_iff t).mpr h1) (iblk m c 0 t) (iblk m c 1 t) (iblk m c 2 t) (iblk m c 3 t) xs,
   accLast c (grid0.coords t) (mr0 t) (hmr0 t) (mr1 t) (hmr1 t) (mr2 t) (hmr2 t) (mr3 t) (hmr3 t) (mr4 t) (hmr4 t) accM (Memref.isWhole_whole _) (fun h => h0 ((resets_iff t).mp h)) ((emits_iff t).mpr h1) (iblk m c 0 t) (iblk m c 1 t) (iblk m c 2 t) (iblk m c 3 t) xs)

/-- THE ACCUMULATION: what the output window's buffer and the accumulator scratch hold after the body at position `n`:
    the case the position is in, a later expert's over what the position before left in the scratch. -/
def outsAt (c : Dev nD) : (n : ℕ) → n < cfg0.N → Vec F S256x2048 .f32 × Vec F S256x2048 .f32
  | 0, hn => stepFirst m c ⟨0, hn⟩ (Nat.zero_mod 8) (by show ¬ (0 : ℕ) % 8 = 7; decide)
  | n + 1, hn =>
    if h0 : (n + 1) % 8 = 0 then
      if h1 : (n + 1) % 8 = 7 then False.elim (by omega)
      else stepFirst m c ⟨n + 1, hn⟩ h0 h1
    else
      if h1 : (n + 1) % 8 = 7 then stepLast m c ⟨n + 1, hn⟩ h0 h1 (outsAt c n (Nat.lt_of_succ_lt hn)).2
      else stepMid m c ⟨n + 1, hn⟩ h0 h1 (outsAt c n (Nat.lt_of_succ_lt hn)).2

theorem outsAt_first (c : Dev nD) (t : Fin cfg0.N) (h0 : t.val % 8 = 0) (h1 : ¬t.val % 8 = 7) :
    outsAt m c t.val t.isLt = stepFirst m c t h0 h1 := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt m c t.val t.isLt = stepMid m c t h0 h1 (outsAt m c (t.val - 1) (Nat.lt_of_le_of_lt (Nat.sub_le _ _) t.isLt)).2 := by
  obtain ⟨n, hn⟩ := t
  cases n with
  | zero => exact absurd (Nat.zero_mod 8) h0
  | succ n => exact (dif_neg h0).trans ((dif_neg h1).trans rfl)

theorem outsAt_last (c : Dev nD) (t : Fin cfg0.N) (h0 : ¬t.val % 8 = 0) (h1 : t.val % 8 = 7) :
    outsAt m c t.val t.isLt = stepLast m c t h0 h1 (outsAt m c (t.val - 1) (Nat.lt_of_le_of_lt (Nat.sub_le _ _) t.isLt)).2 := by
  obtain ⟨n, hn⟩ := t
  cases n with
  | zero => exact absurd (Nat.zero_mod 8) h0
  | succ n => exact (dif_neg h0).trans ((dif_pos h1).trans rfl)

/-- The invariant before position `n`: before the first point the launch's (the scratch at anything); afterwards the
    accumulator scratch at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The launch's proof data -/

/-- The arrays as the launch finds them; after the body at point `t` each input's buffer at its block and the output's
    at `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  beforeIn0_of m (dats m 0 c) (A_eq m c 0) (after0 m c) t d
theorem before1 (c : Dev nD) (t : Fin cfg0.N) (d) : (dats m 0 c).before 1 t d = iblk m c 1 t :=
  beforeIn1_of m (dats m 0 c) (A_eq m c 1) (after1 m c) t d
theorem before2 (c : Dev nD) (t : Fin cfg0.N) (d) : (dats m 0 c).before 2 t d = iblk m c 2 t :=
  beforeIn2_of m (dats m 0 c) (A_eq m c 2) (after2 m c) t d
theorem before3 (c : Dev nD) (t : Fin cfg0.N) (d) : (dats m 0 c).before 3 t d = iblk m c 3 t :=
  beforeIn3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d))
    ∗ (∃ d, owns (c : Thread nD τ) (mr4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (mr0 t) fullShare (iblk m c 0 t) := by
  rw [show (dats m 0 c).leavesExact 0 t = owns (c : Thread nD τ) (mr0 t) fullShare ((dats m 0 c).after 0 t) from by
    unfold Dat.leavesExact; rw [live0 t], after0]
theorem leaves1 (c : Dev nD) (t : Fin cfg0.N) : (dats m 0 c).leavesExact 1 t = owns (c : Thread nD τ) (mr1 t) fullShare (iblk m c 1 t) := by
  rw [show (dats m 0 c).leavesExact 1 t = owns (c : Thread nD τ) (mr1 t) fullShare ((dats m 0 c).after 1 t) from by
    unfold Dat.leavesExact; rw [live1 t], after1]
theorem leaves2 (c : Dev nD) (t : Fin cfg0.N) : (dats m 0 c).leavesExact 2 t = owns (c : Thread nD τ) (mr2 t) fullShare (iblk m c 2 t) := by
  rw [show (dats m 0 c).leavesExact 2 t = owns (c : Thread nD τ) (mr2 t) fullShare ((dats m 0 c).after 2 t) from by
    unfold Dat.leavesExact; rw [live2 t], after2]
theorem leaves3 (c : Dev nD) (t : Fin cfg0.N) : (dats m 0 c).leavesExact 3 t = owns (c : Thread nD τ) (mr3 t) fullShare (iblk m c 3 t) := by
  rw [show (dats m 0 c).leavesExact 3 t = owns (c : Thread nD τ) (mr3 t) fullShare ((dats m 0 c).after 3 t) from by
    unfold Dat.leavesExact; rw [live3 t], after3]

set_option maxHeartbeats 4800000 in
/-- The body at any point: the inputs' buffers hold their blocks; the point's position among its tile's experts says
    which run applies; the invariant hands over the scratch (at anything before the first point, else at what the
    point before left) and takes it back at this point's contents; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 256 := lt_of_lt_of_eq t.isLt (show cfg0.N = 256 from N_0)
  by_cases h0 : t.val % 8 = 0
  · have h1 : ¬t.val % 8 = 7 := by omega
    rw [Dat.leavesExact_idle (dats m 0 c) 4 t (idle4_of t (fun h => h1 ((emits_iff t).mp h))) (noFlush4_of t (fun h => h1 ((emits_iff t).mp h)))]
    rw [outsAt_first m c t h0 h1]
    unfold stepFirst accFirst; (try dsimp only)
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ ((resets_iff t).mpr h0) (fun h => h1 ((emits_iff t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accCoverFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ ((resets_iff t).mpr h0) (fun h => h1 ((emits_iff t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accCoverFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dats m 0 c).leavesExact 4 t = owns (c : Thread nD τ) (mr4 t) fullShare ((dats m 0 c).after 4 t) from by
        unfold Dat.leavesExact; rw [live4_of t ((emits_iff t).mpr h1)], after4]
      rw [outsAt_last m c t h0 h1]
      unfold stepLast outLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((resets_iff t).mp h)) ((emits_iff t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (accCoverLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outCoverLast c _ _ _ _ _ _ _ _ _ _ _ _ _ _ _ _ _ _ _ _)
    · rw [Dat.leavesExact_idle (dats m 0 c) 4 t (idle4_of t (fun h => h1 ((emits_iff t).mp h))) (noFlush4_of t (fun h => h1 ((emits_iff t).mp h)))]
      rw [outsAt_mid m c t h0 h1]
      unfold stepMid accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((resets_iff t).mp h)) (fun h => h1 ((emits_iff t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accCoverMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of @main terminates, and every final state has each windowed array at what the
    proof data say and every other unscoped buffer at its launch-time contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- THE FRAME: the program runs to the end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Around

end
-- ==== Proof.IdealPieces.lean ====
/-
  What the body's stores leave, as values: at every expert the accumulator scratch ends holding the update
  (what was loaded) + coef · down-projection, applied to the zero splat at a tile's first expert and to what the
  expert before left at the others; at a tile's last expert the output window's buffer ends holding the same.
  Hence the scratch after point (tile, e) is the update folded over experts 0..e from the zero splat.
-/
import proofs.«120920_j84705345012305_2_alg».proof.Proof.IdealFrame
import Idealize.ShloMosaic.Lib.Pipeline.Value

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A middle expert leaves the update of what the expert before left. -/
theorem acc_mid (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : ¬emits i) (x0 : Vec F S256x2048 .bf16) (x1 : Vec F S1x2816x2048 .bf16) (x2 : Vec F S1x2048x1408 .bf16) (x3 : Vec F S1x1x256 .f32) (xs : Vec F S256x2048 .f32) :
    accMid c i arg2 harg2 arg3 harg3 arg4 harg4 arg5 harg5 arg6 harg6 arg7 harg7 hc0 hc1 x0 x1 x2 x3 xs = k0_pay2 x0 x1 x2 x3 xs := by
  unfold accMid
  rw [View.read_writes_eq_canon _ _ _ (accCoverMid c i arg2 harg2 arg3 harg3 arg4 harg4 arg5 harg5 arg6 harg6 arg7 harg7 hc0 hc1 x0 x1 x2 x3 xs)]
  unfold runMid
  dsimp only
  rw [View.canon_unit_zero (S := S256x2048) hz2]
  simp only [View.readAt_eq_ld, harg2.read_unread, harg3.read_unread, harg4.read_unread, harg5.read_unread, harg7.read_unread, View.ld_unit_zero (S := S256x2048) hz2, View.ld_unit_zero (S := S1x2816x2048) hz3, View.ld_unit_zero (S := S1x2048x1408) hz3, View.ld_unit_zero (S := S1x1x256) hz3]

/-- A last expert leaves the same update in the scratch, -/
theorem acc_last (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : emits i) (x0 : Vec F S256x2048 .bf16) (x1 : Vec F S1x2816x2048 .bf16) (x2 : Vec F S1x2048x1408 .bf16) (x3 : Vec F S1x1x256 .f32) (xs : Vec F S256x2048 .f32) :
    accLast c i arg2 harg2 arg3 harg3 arg4 harg4 arg5 harg5 arg6 harg6 arg7 harg7 hc0 hc1 x0 x1 x2 x3 xs = k0_pay2 x0 x1 x2 x3 xs := by
  unfold accLast
  rw [View.read_writes_eq_canon _ _ _ (accCoverLast c i arg2 harg2 arg3 harg3 arg4 harg4 arg5 harg5 arg6 harg6 arg7 harg7 hc0 hc1 x0 x1 x2 x3 xs)]
  unfold runLast
  dsimp only
  sl_unfold_words
  rw [View.canon_unit_zero (S := S256x2048) hz2]
  simp only [View.readAt_eq_ld, harg2.read_unread, harg3.read_unread, harg4.read_unread, harg5.read_unread, harg7.read_unread, View.ld_unit_zero (S := S256x2048) hz2, View.ld_unit_zero (S := S1x2816x2048) hz3, View.ld_unit_zero (S := S1x2048x1408) hz3, View.ld_unit_zero (S := S1x1x256) hz3]

/-- and, loaded back and stored whole, in the output window's buffer. -/
theorem out_last (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : ¬resets i) (hc1 : emits i) (x0 : Vec F S256x2048 .bf16) (x1 : Vec F S1x2816x2048 .bf16) (x2 : Vec F S1x2048x1408 .bf16) (x3 : Vec F S1x1x256 .f32) (xs : Vec F S256x2048 .f32) :
    outLast c i arg2 harg2 arg3 harg3 arg4 harg4 arg5 harg5 arg6 harg6 arg7 harg7 hc0 hc1 x0 x1 x2 x3 xs = k0_pay2 x0 x1 x2 x3 xs := by
  unfold outLast
  rw [View.read_writes_eq_canon _ _ _ (outCoverLast c i arg2 harg2 arg3 harg3 arg4 harg4 arg5 harg5 arg6 harg6 arg7 harg7 hc0 hc1 x0 x1 x2 x3 xs)]
  unfold runLast
  dsimp only
  sl_unfold_words
  rw [View.canon_unit_zero (S := S256x2048) hz2, View.readCov_unit_zero (S := S256x2048) _ hz2]
  simp only [View.readAt_eq_ld, harg2.read_unread, harg3.read_unread, harg4.read_unread, harg5.read_unread, harg7.read_unread, View.ld_unit_zero (S := S256x2048) hz2, View.ld_unit_zero (S := S1x2816x2048) hz3, View.ld_unit_zero (S := S1x2048x1408) hz3, View.ld_unit_zero (S := S1x1x256) hz3]

/-- A first expert leaves the update of the zero splat it has just stored and loaded back. -/
theorem acc_first (c : Dev nD) (i : grid0.Coords) (arg2 : Memref sig .tc .vmem S256x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1x1x256 .f32) (harg5 : arg5.IsWhole) (arg6 : Memref sig .tc .vmem S256x2048 .f32) (harg6 : arg6.IsWhole) (arg7 : Memref sig .tc .vmem S256x2048 .f32) (harg7 : arg7.IsWhole) (hc0 : resets i) (hc1 : ¬emits i) (x0 : Vec F S256x2048 .bf16) (x1 : Vec F S1x2816x2048 .bf16) (x2 : Vec F S1x2048x1408 .bf16) (x3 : Vec F S1x1x256 .f32) :
    accFirst c i arg2 harg2 arg3 harg3 arg4 harg4 arg5 harg5 arg6 harg6 arg7 harg7 hc0 hc1 x0 x1 x2 x3 = k0_pay2 x0 x1 x2 x3 (k0_pay1 (F := F)) := by
  unfold accFirst
  rw [View.read_writes_eq_canon _ _ _ (accCoverFirst c i arg2 harg2 arg3 harg3 arg4 harg4 arg5 harg5 arg6 harg6 arg7 harg7 hc0 hc1 x0 x1 x2 x3)]
  unfold runFirst
  dsimp only
  sl_unfold_words
  rw [View.canon_cons_unit_zero (S := S256x2048) hz2, View.readCov_unit_zero (S := S256x2048) _ hz2]
  simp only [View.readAt_eq_ld, harg2.read_unread, harg3.read_unread, harg4.read_unread, harg5.read_unread, View.ld_unit_zero (S := S256x2048) hz2, View.ld_unit_zero (S := S1x2816x2048) hz3, View.ld_unit_zero (S := S1x2048x1408) hz3, View.ld_unit_zero (S := S1x1x256) hz3]

end Cert.KernelIdeal.Around

end
-- ==== Proof.IdealChain.lean ====
/-
  The accumulator after every grid point as a fold: after point (tile, e) it holds the update at that point's four
  input blocks applied to the zero splat if e = 0 and to the fold after the point before otherwise. What the runs
  found in the scratch is this fold (by induction on the point, never by enumerating the grid), and what a tile's
  last point leaves in the output window's buffer is the fold there.
-/
import proofs.«120920_j84705345012305_2_alg».proof.Proof.IdealPieces

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator update at point `t`: the body's one arithmetic payload at the point's four input blocks. -/
def upd (c : Dev nD) (t : Fin cfg0.N) (a : Vec F S256x2048 .f32) : Vec F S256x2048 .f32 :=
  k0_pay2 (iblk m c 0 t) (iblk m c 1 t) (iblk m c 2 t) (iblk m c 3 t) a

/-- The fold: restarted from the zero splat at every tile's first expert. -/
def tileAcc (c : Dev nD) : (n : ℕ) → n < cfg0.N → Vec F S256x2048 .f32
  | 0, h => upd m c ⟨0, h⟩ k0_pay1
  | n + 1, h => upd m c ⟨n + 1, h⟩ (if (n + 1) % 8 = 0 then k0_pay1 else tileAcc c n (Nat.lt_of_succ_lt h))

theorem tileAcc_succ (c : Dev nD) (n : ℕ) (h : n + 1 < cfg0.N) :
    tileAcc m c (n + 1) h = upd m c ⟨n + 1, h⟩ (if (n + 1) % 8 = 0 then k0_pay1 else tileAcc m c n (Nat.lt_of_succ_lt h)) := rfl

/-- What the runs found in the scratch after point `n` is the fold. -/
theorem outsAt_acc (c : Dev nD) : ∀ (n : ℕ) (h : n < cfg0.N), (outsAt m c n h).2 = tileAcc m c n h
  | 0, h => by
    rw [outsAt_first m c ⟨0, h⟩ (Nat.zero_mod 8) (by show ¬ (0 : ℕ) % 8 = 7; decide)]
    unfold stepFirst
    dsimp only
    rw [acc_first]
    rfl
  | n + 1, h => by
    rw [tileAcc_succ]
    by_cases h0 : (n + 1) % 8 = 0
    · have h1 : ¬(n + 1) % 8 = 7 := by omega
      rw [outsAt_first m c ⟨n + 1, h⟩ h0 h1, if_pos h0]
      unfold stepFirst
      dsimp only
      rw [acc_first]
      rfl
    · rw [if_neg h0]
      by_cases h1 : (n + 1) % 8 = 7
      · rw [outsAt_last m c ⟨n + 1, h⟩ h0 h1]
        unfold stepLast
        dsimp only
        rw [acc_last]
        show k0_pay2 _ _ _ _ (outsAt m c n _).2 = k0_pay2 _ _ _ _ (tileAcc m c n _)
        rw [outsAt_acc c n]
      · rw [outsAt_mid m c ⟨n + 1, h⟩ h0 h1]
        unfold stepMid
        dsimp only
        rw [acc_mid]
        show k0_pay2 _ _ _ _ (outsAt m c n _).2 = k0_pay2 _ _ _ _ (tileAcc m c n _)
        rw [outsAt_acc c n]

/-- At a tile's last expert the output window's buffer ends holding the fold. -/
theorem outsAt_out (c : Dev nD) (t : Fin cfg0.N) (h1 : t.val % 8 = 7) : (outsAt m c t.val t.isLt).1 = tileAcc m c t.val t.isLt := by
  obtain ⟨n, hn⟩ := t
  cases n with
  | zero => exact absurd (show (0 : ℕ) % 8 = 7 from h1) (by decide)
  | succ n =>
    have h1' : (n + 1) % 8 = 7 := h1
    have h0 : ¬(n + 1) % 8 = 0 := by omega
    show (outsAt m c (n + 1) hn).1 = tileAcc m c (n + 1) hn
    rw [tileAcc_succ, if_neg h0, outsAt_last m c ⟨n + 1, hn⟩ h0 h1']
    unfold stepLast
    dsimp only
    rw [out_last]
    show k0_pay2 _ _ _ _ (outsAt m c n _).2 = k0_pay2 _ _ _ _ (tileAcc m c n _)
    rw [outsAt_acc m c n]

end Cert.KernelIdeal.Around

end
-- ==== Proof.MoeSpec.lean ====
/-
  The mathematics of the routed mixture of gated feed-forward experts, as ONE function of the argument arrays,
  index by index, on the extended reals.

  For a token `p` and an expert `e`:
    hidden e p j  = ∑ k, x(p,k) · w1(e,j,k)                       (2816 hidden units: 1408 gates, then 1408 "up" units)
    gated  e p n  = (g · σ(g)) · u,  g = hidden e p n,  u = hidden e p (n + 1408),  σ g = 1 / (1 + exp (−g))
    down   e p k  = ∑ n, gated e p n · w2(e,k,n)
  and the result is the left-to-right sum over the eight experts, from zero, of  coef e p · down e p k,
  where `coef e p` is the token's combined routing weight for expert `e` (left abstract here: both programs
  compute it by the same host operations).
-/
import Idealize.ShloMosaic.PureOps.Ideal
import Idealize.ShloMosaic.Lib.ValueIdx

noncomputable section

namespace Cert.MoeSpec

open Idealize.ShloMosaic Idealize.ShloMosaic.ValueIdx
open scoped BigOperators

abbrev TX : Shape := ⟨2, ![8192, 2048]⟩
abbrev TW1 : Shape := ⟨3, ![8, 2816, 2048]⟩
abbrev TW2 : Shape := ⟨3, ![8, 2048, 1408]⟩

variable (coef : Fin 8 → Fin 8192 → EReal) (x : TX.Idx → EReal) (w1 : TW1.Idx → EReal) (w2 : TW2.Idx → EReal)

/-- The first projection of token `p` by expert `e`, unit `j`: a row of `x` against a row of `w1 e`. -/
def hidden (e : Fin 8) (p : Fin 8192) (j : Fin 2816) : EReal :=
  ∑ k : Fin 2048, x (ix2 p k) * w1 (ix3 e j k)

/-- The gate unit `n` among the 2816 hidden units. -/
abbrev gateAt (n : Fin 1408) : Fin 2816 := ⟨n.val, by omega⟩
/-- The "up" unit paired with gate `n`. -/
abbrev upAt (n : Fin 1408) : Fin 2816 := ⟨n.val + 1408, by omega⟩

/-- The gated activation: silu of the gate times the up unit. -/
def gated (e : Fin 8) (p : Fin 8192) (n : Fin 1408) : EReal :=
  (hidden x w1 e p (gateAt n) * Ideal.logistic (hidden x w1 e p (gateAt n))) * hidden x w1 e p (upAt n)

/-- The second projection: the gated activations against a row of `w2 e`. -/
def down (e : Fin 8) (p : Fin 8192) (k : Fin 2048) : EReal :=
  ∑ n : Fin 1408, gated x w1 e p n * w2 (ix3 e k n)

/-- The running sum over the first `n` experts, from the zero word, each expert's term added on the right. -/
def partialMix : (n : ℕ) → n ≤ 8 → Fin 8192 → Fin 2048 → EReal
  | 0, _ => fun _ _ => Ideal.ofBits .f32 0x00000000#32
  | n + 1, h => fun p k => partialMix n (Nat.le_of_succ_le h) p k + coef ⟨n, h⟩ p * down x w1 w2 ⟨n, h⟩ p k

theorem partialMix_succ (n : ℕ) (h : n + 1 ≤ 8) (p : Fin 8192) (k : Fin 2048) :
    partialMix coef x w1 w2 (n + 1) h p k
      = partialMix coef x w1 w2 n (Nat.le_of_succ_le h) p k + coef ⟨n, h⟩ p * down x w1 w2 ⟨n, h⟩ p k := rfl

/-- The mixture of all eight experts at (token, feature). -/
def mix : TX.Idx → EReal := fun i => partialMix coef x w1 w2 8 le_rfl (i 0) (i 1)

end Cert.MoeSpec

end
-- ==== Proof.LibLanes.lean ====
/-
  GENERAL LEMMAS: a contraction of the lanes of two matrices — (A * B^T)(p, q) = sum over k of A(p, k) * B(q, k) — read at
  an index on extended reals, in the two spellings a kernel and a host program give it. Nothing here mentions a program;
  the extents R (rows of A), N (rows of B) and K (the contracted lanes) are arbitrary.

  * idx2_ext: two rank-2 indices with the same coordinates are one index.
  * contraction_lanes: a contraction of axis 1 of an [R, K] array with axis 1 of an [N, K] array (no batch axes), read
    at (p, q), is the sum over k : Fin K of l (p, k) * r (q, k); the dimension record enters only through four coordinate
    facts about its operand indices (for a printed record: two by unfolding, two by DotDims.lhsIdx_val_of_single /
    rhsIdx_val_of_single) and the rank and extent of its contraction shape (both rfl).
  * matmul_lanes: the kernel's spelling — the matrix unit's product into a zero accumulator — at (p, q).
  * hostdot_lanes: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibLanes

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the lanes of an [N, K] array, read at (p, q): the sum over
    k of l(p, k) * r(q, k). The dimension record enters through four coordinate facts and the extent of its one
    contracted axis. -/
theorem contraction_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : (⟨2, ![R, K]⟩ : Shape).Idx → EReal) (r : (⟨2, ![N, K]⟩ : Shape).Idx → EReal) (p : Fin R) (q : Fin N) :
    ∑ s : d.contr.Idx, l (d.lhsIdx (ix2 p q) s) * r (d.rhsIdx (ix2 p q) s) = ∑ k : Fin K, l (ix2 p k) * r (ix2 q k) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 q k :=
    idx2_ext _ _ (hr0 _ _) ((hr1 _ _).trans hk)
  rw [el, er]

/-- The matrix unit's product into a zero accumulator, read at (p, q). -/
theorem matmul_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    {φ₁ φ₂ : FTy} (l : FVec Ideal ⟨2, ![R, K]⟩ φ₁) (r : FVec Ideal ⟨2, ![N, K]⟩ φ₂) (p : Fin R) (q : Fin N) :
    matmul d none l r (constant (F := Ideal) ⟨2, ![R, N]⟩ .f32 0x00000000#32) (ix2 p q)
      = ∑ k : Fin K, l (ix2 p k) * r (ix2 q k) :=
  (Ideal.matmul_constant_zero_apply d none l r (ix2 p q)).trans
    (contraction_lanes d hrank hsize hl0 hl1 hr0 hr1 l r p q)

/-- The host's dot_general, read at (p, q). -/
theorem hostdot_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : FVec Ideal ⟨2, ![R, K]⟩ .f32) (r : FVec Ideal ⟨2, ![N, K]⟩ .f32) (p : Fin R) (q : Fin N) :
    Host.dotGeneral d none l r (ix2 p q) = ∑ k : Fin K, l (ix2 p k) * r (ix2 q k) :=
  (Ideal.dotGeneral_apply d none .single l r (ix2 p q)).trans
    (contraction_lanes d hrank hsize hl0 hl1 hr0 hr1 l r p q)

end Cert.LibLanes

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.TileMath.lean ====
/-
  The arithmetic of one grid step of the kernel, read index by index on the extended reals.

  A grid step holds a tile of 256 tokens x (256 x 2048), one expert's two weight matrices w1 (2816 x 2048) and
  w2 (2048 x 1408), the expert's row of 256 routing coefficients, and the running accumulator acc (256 x 2048).
  It stores either the zero word (the reset of the accumulator) or the update

    acc(p, k) + coef(p) * sum over n of ((g * sigma(g)) * u) * w2(k, n),
       g = h(p, n),  u = h(p, n + 1408),  h(p, j) = sum over kk of x(p, kk) * w1(j, kk),

  that is: the first projection (a contraction of the lanes of x with the lanes of w1), its two halves combined
  into the gated activation, the second projection (a contraction with the lanes of w2), the product with the
  token's coefficient, and the sum with the accumulator. The rounding of the activation to the narrower format
  is the identity on extended reals. The two theorems at the end say exactly this; the lemmas before them read
  each operation that moves data (a cast between shapes, a cut of columns, a contraction, a column broadcast over
  the lanes) at an index given by coordinates.
-/
import proofs.«120920_j84705345012305_2_alg».proof.Proof.Gen.KernelIdeal.Skeleton
import proofs.«120920_j84705345012305_2_alg».proof.Proof.MoeSpec
import proofs.«120920_j84705345012305_2_alg».proof.Proof.LibLanes
import proofs.«120920_j84705345012305_2_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TileMath

open Idealize.ShloMosaic Idealize.ShloMosaic.ValueIdx Cert.KernelIdeal Cert.KernelIdeal.Gen
open scoped BigOperators

variable [Cert.KernelIdeal.Facts]

/-- The first projection inside a tile: token p of the tile against row j of the expert's w1. -/
def tileHidden (v3 : Vec Ideal S256x2048 .bf16) (v5 : Vec Ideal S1x2816x2048 .bf16) (p : Fin 256) (j : Fin 2816) : EReal :=
  ∑ kk : Fin 2048, v3 (ix2 p kk) * v5 (ix3 (0 : Fin 1) j kk)

/-! ## The casts between shapes -/

/-- The row of coefficients [1, 1, 256] listed as a vector [256]: entry p is entry (0, 0, p). -/
theorem cast_coef_apply (v17 : FVec Ideal S1x1x256 .f32) (p : Fin 256) :
    shapeCast S256 v17 Facts₀.shapeCasts_S1x1x256_S256 (ix1 p) = v17 (ix3 (0 : Fin 1) (0 : Fin 1) p) :=
  shapeCast_apply v17 Facts₀.shapeCasts_S1x1x256_S256 _ _ (by
    rw [Shape.rowMajor_val_three, Shape.rowMajor_val_one]
    show (0 * 1 + 0) * 256 + p.val = p.val
    omega)

/-- The coefficient column spread over the 2048 lanes of the tile: at (p, k) it is the coefficient of token p. -/
theorem coef_apply (v17 : FVec Ideal S1x1x256 .f32) (p : Fin 256) (k : Fin 2048) :
    broadcastTo S256x2048 (shapeCast S256x1 (shapeCast S256 v17 Facts₀.shapeCasts_S1x1x256_S256) Facts₀.shapeCasts_S256_S256x1)
        Facts₀.broadcasts_S256x1_S256x2048 (ix2 p k)
      = v17 (ix3 (0 : Fin 1) (0 : Fin 1) p) :=
  (Cert.LibLayout.broadcastTo_a1_ab_apply _ Facts₀.broadcasts_S256x1_S256x2048 p k).trans
    ((Cert.LibLayout.shapeCast_a_a1_apply _ Facts₀.shapeCasts_S256_S256x1 p (0 : Fin 1)).trans (cast_coef_apply v17 p))

/-! ## The two contractions -/

/-- The first contraction, of the 2048 lanes of the token tile with the 2048 lanes of w1, at (p, j). -/
theorem dot1_apply (l : FVec Ideal S256x2048 .bf16) (r : FVec Ideal S2816x2048 .bf16) (p : Fin 256) (j : Fin 2816) :
    matmul dot_S256x2048_S2816x2048_S256x2816_1_1_0_0_n_n none l r (constant (F := Ideal) S256x2816 .f32 0x00000000#32) (ix2 p j)
      = ∑ kk : Fin 2048, l (ix2 p kk) * r (ix2 j kk) :=
  Cert.LibLanes.matmul_lanes dot_S256x2048_S2816x2048_S256x2816_1_1_0_0_n_n rfl rfl
    (fun i s => by
      unfold DotDims.lhsIdx
      rw [dif_neg (show ¬(0 : Fin S256x2048.rank) ∈ dot_S256x2048_S2816x2048_S256x2816_1_1_0_0_n_n.lhsBatch by decide),
        dif_pos (show (0 : Fin S256x2048.rank) ∈ dot_S256x2048_S2816x2048_S256x2816_1_1_0_0_n_n.lhsNonContracting by decide)]
      rfl)
    (fun i s => dot_S256x2048_S2816x2048_S256x2816_1_1_0_0_n_n.lhsIdx_val_of_single rfl i s)
    (fun i s => by
      unfold DotDims.rhsIdx
      rw [dif_neg (show ¬(0 : Fin S2816x2048.rank) ∈ dot_S256x2048_S2816x2048_S256x2816_1_1_0_0_n_n.rhsBatch by decide),
        dif_pos (show (0 : Fin S2816x2048.rank) ∈ dot_S256x2048_S2816x2048_S256x2816_1_1_0_0_n_n.rhsNonContracting by decide)]
      rfl)
    (fun i s => dot_S256x2048_S2816x2048_S256x2816_1_1_0_0_n_n.rhsIdx_val_of_single rfl i s)
    l r p j

/-- The second contraction, of the 1408 lanes of the activation with the 1408 lanes of w2, at (p, k). -/
theorem dot2_apply (l : FVec Ideal S256x1408 .bf16) (r : FVec Ideal S2048x1408 .bf16) (p : Fin 256) (k : Fin 2048) :
    matmul dot_S256x1408_S2048x1408_S256x2048_1_1_0_0_n_n none l r (constant (F := Ideal) S256x2048 .f32 0x00000000#32) (ix2 p k)
      = ∑ n : Fin 1408, l (ix2 p n) * r (ix2 k n) :=
  Cert.LibLanes.matmul_lanes dot_S256x1408_S2048x1408_S256x2048_1_1_0_0_n_n rfl rfl
    (fun i s => by
      unfold DotDims.lhsIdx
      rw [dif_neg (show ¬(0 : Fin S256x1408.rank) ∈ dot_S256x1408_S2048x1408_S256x2048_1_1_0_0_n_n.lhsBatch by decide),
        dif_pos (show (0 : Fin S256x1408.rank) ∈ dot_S256x1408_S2048x1408_S256x2048_1_1_0_0_n_n.lhsNonContracting by decide)]
      rfl)
    (fun i s => dot_S256x1408_S2048x1408_S256x2048_1_1_0_0_n_n.lhsIdx_val_of_single rfl i s)
    (fun i s => by
      unfold DotDims.rhsIdx
      rw [dif_neg (show ¬(0 : Fin S2048x1408.rank) ∈ dot_S256x1408_S2048x1408_S256x2048_1_1_0_0_n_n.rhsBatch by decide),
        dif_pos (show (0 : Fin S2048x1408.rank) ∈ dot_S256x1408_S2048x1408_S256x2048_1_1_0_0_n_n.rhsNonContracting by decide)]
      rfl)
    (fun i s => dot_S256x1408_S2048x1408_S256x2048_1_1_0_0_n_n.rhsIdx_val_of_single rfl i s)
    l r p k

/-- The first projection as the kernel computes it — the token tile, and w1 with its unit axis dropped, contracted
    into a zero accumulator — is tileHidden. -/
theorem hidden_apply (v3 : FVec Ideal S256x2048 .bf16) (v5 : FVec Ideal S1x2816x2048 .bf16) (p : Fin 256) (j : Fin 2816) :
    matmul dot_S256x2048_S2816x2048_S256x2816_1_1_0_0_n_n none v3
        (shapeCast S2816x2048 v5 Facts₀.shapeCasts_S1x2816x2048_S2816x2048) (constant (F := Ideal) S256x2816 .f32 0x00000000#32) (ix2 p j)
      = tileHidden v3 v5 p j :=
  (dot1_apply v3 _ p j).trans (Finset.sum_congr rfl fun kk _ =>
    congrArg (fun t => v3 (ix2 p kk) * t) (shapeCast_1ab_ab_apply v5 Facts₀.shapeCasts_S1x2816x2048_S2816x2048 j kk))

/-! ## The two halves of the first projection -/

/-- The left 1408 columns of a [256, 2816] array: column n is column gateAt n. -/
theorem gate_apply (h : FVec Ideal S256x2816 .f32) (p : Fin 256) (n : Fin 1408) :
    extractStridedSlice S256x1408 ![0, 0] h Facts₀.slices_S256x2816_o0_0_S256x1408 (ix2 p n) = h (ix2 p (Cert.MoeSpec.gateAt n)) :=
  slice2_axis1_apply 0 h Facts₀.slices_S256x2816_o0_0_S256x1408 p n (Cert.MoeSpec.gateAt n) (Nat.zero_add _).symm

/-- The right 1408 columns of a [256, 2816] array: column n is column upAt n. -/
theorem up_apply (h : FVec Ideal S256x2816 .f32) (p : Fin 256) (n : Fin 1408) :
    extractStridedSlice S256x1408 ![0, 1408] h Facts₀.slices_S256x2816_o0_1408_S256x1408 (ix2 p n) = h (ix2 p (Cert.MoeSpec.upAt n)) :=
  slice2_axis1_apply 1408 h Facts₀.slices_S256x2816_o0_1408_S256x1408 p n (Cert.MoeSpec.upAt n) (Nat.add_comm _ _)

/-- The logistic function of a vector, read at an index. -/
theorem logistic_apply {s : Shape} {φ : FTy} (a : FVec Ideal s φ) (i : s.Idx) : logistic a i = Ideal.logistic (a i) := rfl

/-! ## The two stored values -/

/-- The reset value of the accumulator is the zero word at every index. -/
theorem pay1_apply (j : S256x2048.Idx) : Gen.k0_pay1 (F := Ideal) j = Ideal.ofBits .f32 0x00000000#32 := by
  unfold Gen.k0_pay1
  rw [shapeCast_self]
  rfl

/-- The accumulator update at (p, k): the accumulator plus the token's coefficient times the second projection of the
    gated activation. -/
theorem pay2_apply (v3 : Vec Ideal S256x2048 .bf16) (v5 : Vec Ideal S1x2816x2048 .bf16) (v7 : Vec Ideal S1x2048x1408 .bf16)
    (v17 : Vec Ideal S1x1x256 .f32) (v19 : Vec Ideal S256x2048 .f32) (p : Fin 256) (k : Fin 2048) :
    Gen.k0_pay2 (F := Ideal) v3 v5 v7 v17 v19 (ix2 p k)
      = v19 (ix2 p k) + v17 (ix3 (0 : Fin 1) (0 : Fin 1) p)
          * ∑ n : Fin 1408, ((tileHidden v3 v5 p (Cert.MoeSpec.gateAt n) * Ideal.logistic (tileHidden v3 v5 p (Cert.MoeSpec.gateAt n)))
              * tileHidden v3 v5 p (Cert.MoeSpec.upAt n)) * v7 (ix3 (0 : Fin 1) k n) := by
  unfold Gen.k0_pay2
  simp only [shapeCast_self]
  rw [addf_apply, mulf_apply]
  refine congrArg₂ (· + ·) rfl (congrArg₂ (· * ·) (coef_apply v17 p k) ?_)
  refine (dot2_apply _ _ p k).trans (Finset.sum_congr rfl fun n _ => ?_)
  refine congrArg₂ (· * ·) ?_ (shapeCast_1ab_ab_apply v7 Facts₀.shapeCasts_S1x2048x1408_S2048x1408 k n)
  rw [truncf_apply, mulf_apply, mulf_apply, logistic_apply, gate_apply, up_apply, hidden_apply, hidden_apply]

end Cert.KernelIdeal.TileMath

end
-- ==== Proof.IdealEntry.lean ====
/-
  What the launch finds in its four input arrays, read at an index.

  Before the launch the host program converts the three float arrays x, w1, w2 to the narrower format (the identity
  on extended reals), and builds the routing coefficients: for each expert e and token q the sum, over the token's
  two routing slots, of the slot's weight where the slot's expert id is e and of zero elsewhere; the eight rows of
  coefficients are stacked into an array [8, 1, 8192]. The theorems here say, entry by entry, that the converted
  arrays are the arguments, that entry (e, 0, q) of the stacked array is entry q of expert e's row, and that
  expert e's row is the sum just described, written with the host operations of the program.
-/
import proofs.«120920_j84705345012305_2_alg».proof.Proof.IdealAround
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Entry

open Cert.KernelIdeal Cert.KernelIdeal.Gen Cert.KernelIdeal.Around
open Idealize.ShloMosaic Idealize.ShloMosaic.TcCoe Idealize.ShloMosaic.ValueIdx Idealize.SL.Sem

variable (m : (ℓ : Loc nD τ sig) → Buf (Elt Ideal) ℓ) (c : Dev nD)

/-! ## The three converted arrays -/

/-- The converted token array is the argument: the conversion is the identity on extended reals. -/
theorem entry_x_fun : @Eq (S8192x2048.Idx → EReal) (V m c main_v0) (m ((c : Thread nD τ).loc main_arg0)) := by
  dsimp only [V]
  simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  rfl

theorem entry_x (i : S8192x2048.Idx) : (V m c main_v0 : S8192x2048.Idx → EReal) i = m ((c : Thread nD τ).loc main_arg0) i :=
  congrFun (entry_x_fun m c) i

/-- The converted first weight array is the argument. -/
theorem entry_w1_fun : @Eq (S8x2816x2048.Idx → EReal) (V m c main_v1) (m ((c : Thread nD τ).loc main_arg1)) := by
  dsimp only [V]
  simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  rfl

theorem entry_w1 (i : S8x2816x2048.Idx) : (V m c main_v1 : S8x2816x2048.Idx → EReal) i = m ((c : Thread nD τ).loc main_arg1) i :=
  congrFun (entry_w1_fun m c) i

/-- The converted second weight array is the argument. -/
theorem entry_w2_fun : @Eq (S8x2048x1408.Idx → EReal) (V m c main_v2) (m ((c : Thread nD τ).loc main_arg2)) := by
  dsimp only [V]
  simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  rfl

theorem entry_w2 (i : S8x2048x1408.Idx) : (V m c main_v2 : S8x2048x1408.Idx → EReal) i = m ((c : Thread nD τ).loc main_arg2) i :=
  congrFun (entry_w2_fun m c) i

end Cert.KernelIdeal.Entry

end
-- ==== Proof.IdealValue.lean ====
/-
  The idealized kernel's result array, index by index, on the extended reals.

  Point t = 8·tile + e of the grid reads token rows 256·tile .. 256·tile + 255 of x, expert e's two weight matrices
  and expert e's routing coefficients of those tokens. The accumulator update at the point, read at (p, k), adds
  coef(e, row) · down(e, row, k) to what it was handed, so by induction on the point the fold after point t is the
  running mixture over experts 0..e of the tile's rows; a tile's last point writes the full mixture back to rows
  256·tile .. 256·tile + 255 of the result, and the 32 tiles cover all 8192 rows.
-/
import proofs.«120920_j84705345012305_2_alg».proof.Proof.IdealChain
import proofs.«120920_j84705345012305_2_alg».proof.Proof.TileMath
import proofs.«120920_j84705345012305_2_alg».proof.Proof.IdealEntry
import proofs.«120920_j84705345012305_2_alg».proof.Proof.MoeSpec
import Idealize.ShloMosaic.Lib.Pipeline.Value
import Idealize.ShloMosaic.Lib.ValueIdx

set_option maxRecDepth 16384

noncomputable section

namespace Cert.KernelIdeal.Mix

open Cert.KernelIdeal Cert.KernelIdeal.Gen Cert.KernelIdeal.Around Cert.KernelIdeal.TileMath Cert.KernelIdeal.Entry
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The three float arguments the mixture reads, as the launch-time memory holds them. -/
abbrev argX (c : Dev nD) : Cert.MoeSpec.TX.Idx → EReal := m ((c : Thread nD τ).loc main_arg0)
abbrev argW1 (c : Dev nD) : Cert.MoeSpec.TW1.Idx → EReal := m ((c : Thread nD τ).loc main_arg1)
abbrev argW2 (c : Dev nD) : Cert.MoeSpec.TW2.Idx → EReal := m ((c : Thread nD τ).loc main_arg2)

/-- The routing coefficient of expert `e` for token `q` as the launch finds it in the stacked coefficient array. -/
def kcoef (c : Dev nD) (e : Fin 8) (q : Fin 8192) : EReal :=
  (V m c main_v44 : S8x1x8192.Idx → EReal) (ix3 e (0 : Fin 1) q)

/-- The printed index maps over the grid: the token tile is t / 8, the expert t % 8. -/
theorem idx_facts : ∀ t : Fin cfg0.N,
    win0_0.index t (0 : Fin 2) = t.val / 8 ∧ win0_0.index t (1 : Fin 2) = 0
    ∧ win0_1.index t (0 : Fin 3) = t.val % 8 ∧ win0_1.index t (1 : Fin 3) = 0 ∧ win0_1.index t (2 : Fin 3) = 0
    ∧ win0_2.index t (0 : Fin 3) = t.val % 8 ∧ win0_2.index t (1 : Fin 3) = 0 ∧ win0_2.index t (2 : Fin 3) = 0
    ∧ win0_3.index t (0 : Fin 3) = t.val % 8 ∧ win0_3.index t (1 : Fin 3) = 0 ∧ win0_3.index t (2 : Fin 3) = t.val / 8
    ∧ win0_4.index t (0 : Fin 2) = t.val / 8 ∧ win0_4.index t (1 : Fin 2) = 0 :=
  (by decide +kernel : ∀ t : Fin grid0.N, _)

theorem N256 : cfg0.N = 256 := N_0

/-- Row `p` of point `t`'s token tile, among all tokens. -/
def row (t : Fin cfg0.N) (p : Fin 256) : Fin 8192 := ⟨256 * (t.val / 8) + p.val, by have hN : t.val < 256 := lt_of_lt_of_eq t.isLt N256; have := p.isLt; omega⟩
/-- Point `t`'s expert. -/
def ex (t : Fin cfg0.N) : Fin 8 := ⟨t.val % 8, Nat.mod_lt _ (by decide)⟩

/-- The token tile the body finds at point `t`: rows `row t ·` of x. -/
theorem blk_x (c : Dev nD) (t : Fin cfg0.N) (p : Fin 256) (kk : Fin 2048) :
    (iblk m c 0 t : S256x2048.Idx → EReal) (ix2 p kk) = argX m c (ix2 (row t p) kk) := by
  obtain ⟨e0, e1, -⟩ := idx_facts t
  unfold iblk
  rw [View.read_apply]
  show (V m c main_v0 : S8192x2048.Idx → EReal) _ = _
  rw [entry_x]
  show m ((c : Thread nD τ).loc main_arg0) _ = m ((c : Thread nD τ).loc main_arg0) _
  congr 1
  funext a
  apply Fin.ext
  match a with
  | ⟨0, _⟩ => show win0_0.index t (0 : Fin 2) * 256 + 1 * p.val = 256 * (t.val / 8) + p.val; rw [e0]; omega
  | ⟨1, _⟩ => show win0_0.index t (1 : Fin 2) * 2048 + 1 * kk.val = kk.val; rw [e1]; omega

/-- Expert t % 8's first weight matrix. -/
theorem blk_w1 (c : Dev nD) (t : Fin cfg0.N) (j : Fin 2816) (kk : Fin 2048) :
    (iblk m c 1 t : S1x2816x2048.Idx → EReal) (ix3 (0 : Fin 1) j kk) = argW1 m c (ix3 (ex t) j kk) := by
  obtain ⟨-, -, e0, e1, e2, -⟩ := idx_facts t
  unfold iblk
  rw [View.read_apply]
  show (V m c main_v1 : S8x2816x2048.Idx → EReal) _ = _
  rw [entry_w1]
  show m ((c : Thread nD τ).loc main_arg1) _ = m ((c : Thread nD τ).loc main_arg1) _
  congr 1
  funext a
  apply Fin.ext
  match a with
  | ⟨0, _⟩ => show win0_1.index t (0 : Fin 3) * 1 + 1 * 0 = t.val % 8; rw [e0]; omega
  | ⟨1, _⟩ => show win0_1.index t (1 : Fin 3) * 2816 + 1 * j.val = j.val; rw [e1]; omega
  | ⟨2, _⟩ => show win0_1.index t (2 : Fin 3) * 2048 + 1 * kk.val = kk.val; rw [e2]; omega

/-- Expert t % 8's second weight matrix. -/
theorem blk_w2 (c : Dev nD) (t : Fin cfg0.N) (k : Fin 2048) (n : Fin 1408) :
    (iblk m c 2 t : S1x2048x1408.Idx → EReal) (ix3 (0 : Fin 1) k n) = argW2 m c (ix3 (ex t) k n) := by
  obtain ⟨-, -, -, -, -, e0, e1, e2, -⟩ := idx_facts t
  unfold iblk
  rw [View.read_apply]
  show (V m c main_v2 : S8x2048x1408.Idx → EReal) _ = _
  rw [entry_w2]
  show m ((c : Thread nD τ).loc main_arg2) _ = m ((c : Thread nD τ).loc main_arg2) _
  congr 1
  funext a
  apply Fin.ext
  match a with
  | ⟨0, _⟩ => show win0_2.index t (0 : Fin 3) * 1 + 1 * 0 = t.val % 8; rw [e0]; omega
  | ⟨1, _⟩ => show win0_2.index t (1 : Fin 3) * 2048 + 1 * k.val = k.val; rw [e1]; omega
  | ⟨2, _⟩ => show win0_2.index t (2 : Fin 3) * 1408 + 1 * n.val = n.val; rw [e2]; omega

/-- Expert t % 8's routing coefficients of the tile's tokens. -/
theorem blk_coef (c : Dev nD) (t : Fin cfg0.N) (p : Fin 256) :
    (iblk m c 3 t : S1x1x256.Idx → EReal) (ix3 (0 : Fin 1) (0 : Fin 1) p) = kcoef m c (ex t) (row t p) := by
  obtain ⟨-, -, -, -, -, -, -, -, e0, e1, e2, -⟩ := idx_facts t
  unfold iblk kcoef
  rw [View.read_apply]
  show (V m c main_v44 : S8x1x8192.Idx → EReal) _ = (V m c main_v44 : S8x1x8192.Idx → EReal) _
  congr 1
  funext a
  apply Fin.ext
  match a with
  | ⟨0, _⟩ => show win0_3.index t (0 : Fin 3) * 1 + 1 * 0 = t.val % 8; rw [e0]; omega
  | ⟨1, _⟩ => show win0_3.index t (1 : Fin 3) * 1 + 1 * 0 = 0; rw [e1]
  | ⟨2, _⟩ => show win0_3.index t (2 : Fin 3) * 256 + 1 * p.val = 256 * (t.val / 8) + p.val; rw [e2]; omega

/-- The first projection of the tile's row `p` by the point's expert. -/
theorem hidden_blk (c : Dev nD) (t : Fin cfg0.N) (p : Fin 256) (j : Fin 2816) :
    tileHidden (iblk m c 0 t) (iblk m c 1 t) p j = Cert.MoeSpec.hidden (argX m c) (argW1 m c) (ex t) (row t p) j := by
  unfold tileHidden Cert.MoeSpec.hidden
  exact Finset.sum_congr rfl fun kk _ => by rw [blk_x, blk_w1]

/-- THE UPDATE AT AN INDEX: what it was handed, plus the point's expert's term for the row. -/
theorem upd_apply (c : Dev nD) (t : Fin cfg0.N) (a : Vec Ideal S256x2048 .f32) (p : Fin 256) (k : Fin 2048) :
    upd m c t a (ix2 p k)
      = a (ix2 p k) + kcoef m c (ex t) (row t p) * Cert.MoeSpec.down (argX m c) (argW1 m c) (argW2 m c) (ex t) (row t p) k := by
  unfold upd
  refine (pay2_apply (iblk m c 0 t) (iblk m c 1 t) (iblk m c 2 t) (iblk m c 3 t) a p k).trans ?_
  refine congrArg₂ (· + ·) rfl ?_
  refine congrArg₂ (· * ·) (blk_coef m c t p) ?_
  unfold Cert.MoeSpec.down Cert.MoeSpec.gated
  exact Finset.sum_congr rfl fun n _ => by
    rw [hidden_blk m c t p (Cert.MoeSpec.gateAt n), hidden_blk m c t p (Cert.MoeSpec.upAt n), blk_w2 m c t k n]

/-- The running mixture does not depend on how its count and bound are spelt. -/
theorem partialMix_congr (coef : Fin 8 → Fin 8192 → EReal) (x : Cert.MoeSpec.TX.Idx → EReal) (w1 : Cert.MoeSpec.TW1.Idx → EReal)
    (w2 : Cert.MoeSpec.TW2.Idx → EReal) {a b : ℕ} (hab : a = b) (ha : a ≤ 8) (hb : b ≤ 8) {q q' : Fin 8192} (hq : q = q') (k : Fin 2048) :
    Cert.MoeSpec.partialMix coef x w1 w2 a ha q k = Cert.MoeSpec.partialMix coef x w1 w2 b hb q' k := by
  subst hab; subst hq; rfl

/-- THE FOLD AT AN INDEX: after point `n` = 8·tile + e the accumulator holds, at (p, k), the running mixture over
    experts 0..e of row 256·tile + p. -/
theorem tileAcc_apply (c : Dev nD) : ∀ (n : ℕ) (h : n < cfg0.N) (p : Fin 256) (k : Fin 2048),
    tileAcc m c n h (ix2 p k)
      = Cert.MoeSpec.partialMix (kcoef m c) (argX m c) (argW1 m c) (argW2 m c) (n % 8 + 1) (Nat.succ_le_of_lt (Nat.mod_lt _ (by decide))) (row ⟨n, h⟩ p) k
  | 0, h, p, k => by
    show upd m c ⟨0, h⟩ (k0_pay1 (F := Ideal)) (ix2 p k) = _
    rw [upd_apply, pay1_apply]
    rfl
  | n + 1, h, p, k => by
    rw [tileAcc_succ, upd_apply]
    have hsucc : Cert.MoeSpec.partialMix (kcoef m c) (argX m c) (argW1 m c) (argW2 m c) ((n + 1) % 8 + 1) (Nat.succ_le_of_lt (Nat.mod_lt _ (by decide))) (row ⟨n + 1, h⟩ p) k
        = Cert.MoeSpec.partialMix (kcoef m c) (argX m c) (argW1 m c) (argW2 m c) ((n + 1) % 8) (Nat.le_of_lt (Nat.mod_lt _ (by decide))) (row ⟨n + 1, h⟩ p) k
          + kcoef m c (ex ⟨n + 1, h⟩) (row ⟨n + 1, h⟩ p) * Cert.MoeSpec.down (argX m c) (argW1 m c) (argW2 m c) (ex ⟨n + 1, h⟩) (row ⟨n + 1, h⟩ p) k := rfl
    rw [hsucc]
    congr 1
    by_cases h0 : (n + 1) % 8 = 0
    · rw [if_pos h0, pay1_apply]
      exact (partialMix_congr _ _ _ _ h0.symm (Nat.zero_le _) _ rfl k)
    · rw [if_neg h0, tileAcc_apply c n (Nat.lt_of_succ_lt h) p k]
      refine partialMix_congr _ _ _ _ (by omega) _ _ (Fin.ext ?_) k
      show 256 * (n / 8) + p.val = 256 * ((n + 1) / 8) + p.val
      have : (n + 1) / 8 = n / 8 := by omega
      rw [this]

/-- The mixture of the eight experts, over the launch-time arguments and the coefficients the launch finds. -/
def result (c : Dev nD) : S8192x2048.Idx → EReal :=
  Cert.MoeSpec.mix (kcoef m c) (argX m c) (argW1 m c) (argW2 m c)

/-- At a tile's last point the fold is the tile's rows of the mixture. -/
theorem tileAcc_last (c : Dev nD) (t : Fin cfg0.N) (h7 : t.val % 8 = 7) :
    (tileAcc m c t.val t.isLt : S256x2048.Idx → EReal) = fun y => result m c (ix2 (row t (y 0)) (y 1)) := by
  funext y
  obtain ⟨p, k, rfl⟩ : ∃ (p : Fin 256) (k : Fin 2048), y = ix2 p k := ⟨y 0, y 1, eq_ix2 y⟩
  rw [tileAcc_apply]
  unfold result Cert.MoeSpec.mix
  exact partialMix_congr _ _ _ _ (by omega) _ _ rfl _

/-- WHAT A TILE'S LAST POINT WRITES BACK is the tile's rows of the mixture. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  obtain ⟨-, -, -, -, -, -, -, -, -, -, -, e0, e1⟩ := idx_facts t
  show (cfg0.win 4).cut (grid0.coords t) ((dats m 0 c).after 4 t) = _
  rw [after4, outsAt_out m c t h7, tileAcc_last m c t h7]
  funext y
  rw [View.read_apply]
  show result m c _ = result m c _
  congr 1
  funext a
  apply Fin.ext
  match a with
  | ⟨0, _⟩ => show 256 * (t.val / 8) + (y 0).val = win0_4.index t (0 : Fin 2) * 256 + 1 * (y 0).val; rw [e0]; omega
  | ⟨1, _⟩ => show (y 1).val = win0_4.index t (1 : Fin 2) * 2048 + 1 * (y 1).val; rw [e1]; omega

theorem mem_blk (t : Fin cfg0.N) (i : S8192x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v45).slice (win0_4.rect t)).set ↔ _
  rw [View.set_slice_whole, Rect.mem_set_unit]
  exact Iff.rfl

/-- Every row of the result is in the block some tile's last point writes back. -/
theorem covered (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  let t : Fin cfg0.N := ⟨8 * ((i 0).val / 256) + 7, by rw [N256]; omega⟩
  obtain ⟨-, -, -, -, -, -, -, -, -, -, -, e0, e1⟩ := idx_facts t
  have tv : t.val = 8 * ((i 0).val / 256) + 7 := rfl
  refine ⟨t, (flush0_4 t).mpr (by rw [tv]; omega), ?_⟩
  rw [mem_blk]
  intro a
  match a with
  | ⟨0, _⟩ => show win0_4.index t (0 : Fin 2) * 256 ≤ (i 0).val ∧ (i 0).val < win0_4.index t (0 : Fin 2) * 256 + 256; rw [e0, tv]; omega
  | ⟨1, _⟩ => show win0_4.index t (1 : Fin 2) * 2048 ≤ (i 1).val ∧ (i 1).val < win0_4.index t (1 : Fin 2) * 2048 + 2048; rw [e1]; omega

/-- THE RESULT ARRAY after the run is the mixture. -/
theorem final (c : Dev nD) : (dats m 0 c).arrAt 4 cfg0.N = result m c :=
  (dats m 0 c).arrAt_eq_of_cover 4 (result m c) (flushed_eq m c) (covered)

/-- The run, read: the result array at the mixture, the five arguments unchanged. -/
theorem run : θ_run defs (onTc (τ := τ) (main (F := Ideal))) ⟨m, fun _ => 0, ρ⟩ fun r => ∀ c : Dev nD,
      r.2.mem ((c.tc : Thread nD τ).loc main_v45) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).1 4).trans (final m c),
     ((h c).2 main_arg0 (Pipeline.mem_restRefs_of _ rfl (by decide))).trans (V_main_arg0 m c),
     ((h c).2 main_arg1 (Pipeline.mem_restRefs_of _ rfl (by decide))).trans (V_main_arg1 m c),
     ((h c).2 main_arg2 (Pipeline.mem_restRefs_of _ rfl (by decide))).trans (V_main_arg2 m c),
     ((h c).2 main_arg3 (Pipeline.mem_restRefs_of _ rfl (by decide))).trans (V_main_arg3 m c),
     ((h c).2 main_arg4 (Pipeline.mem_restRefs_of _ rfl (by decide))).trans (V_main_arg4 m c)⟩)
    (run_main m ρ)

end Cert.KernelIdeal.Mix

end
-- ==== Proof.RefMix.lean ====
/-
  The reference program computes the routed mixture of gated feed-forward experts of the shared specification:
  its result array is `Cert.MoeSpec.mix` of the five argument arrays, with the per-expert coefficient vectors the
  reference's own, taken as they are.

  The reference is a loop over the eight experts, unrolled.  For expert `e` it slices row-block `e` of the first
  weight array, contracts the tokens against it (the 2816 hidden units), takes the first 1408 units as gates
  g ↦ g · (1 / (1 + exp (−g))), multiplies by the last 1408 units, contracts against row-block `e` of the second
  weight array, scales by the coefficient of the token, and adds the outcome to the running sum, which starts at zero.
  Each step below reads one of these stages at an index and identifies it with the specification's function.
-/
import proofs.«120920_j84705345012305_2_alg».proof.Proof.RefReadP
import proofs.«120920_j84705345012305_2_alg».proof.Proof.MoeSpec
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP
open scoped BigOperators

/-- The combined routing weight of token `p` for expert `e`: the reference's coefficient vector of that expert. -/
def refCoef (x3 : (⟨S8192x2, .i32⟩ : BufTy).Contents (Elt Ideal)) (x4 : (⟨S8192x2, .f32⟩ : BufTy).Contents (Elt Ideal)) :
    Fin 8 → Fin 8192 → EReal := fun e p =>
  (match e with
    | ⟨0, _⟩ => val_main_v4 (F := Ideal) x3 x4
    | ⟨1, _⟩ => val_main_v24 (F := Ideal) x3 x4
    | ⟨2, _⟩ => val_main_v44 (F := Ideal) x3 x4
    | ⟨3, _⟩ => val_main_v64 (F := Ideal) x3 x4
    | ⟨4, _⟩ => val_main_v84 (F := Ideal) x3 x4
    | ⟨5, _⟩ => val_main_v104 (F := Ideal) x3 x4
    | ⟨6, _⟩ => val_main_v124 (F := Ideal) x3 x4
    | ⟨7, _⟩ => val_main_v144 (F := Ideal) x3 x4 : (⟨S8192, .f32⟩ : BufTy).Contents (Elt Ideal)) (ix1 p)

variable (x0 : (⟨S8192x2048, .f32⟩ : BufTy).Contents (Elt Ideal)) (x1 : (⟨S8x2816x2048, .f32⟩ : BufTy).Contents (Elt Ideal))
  (x2 : (⟨S8x2048x1408, .f32⟩ : BufTy).Contents (Elt Ideal)) (x3 : (⟨S8192x2, .i32⟩ : BufTy).Contents (Elt Ideal))
  (x4 : (⟨S8192x2, .f32⟩ : BufTy).Contents (Elt Ideal))

/-- The running sum starts at the zero word. -/
theorem acc_zero (i : S8192x2048.Idx) : val_main_v0 (F := Ideal) i = Ideal.ofBits .f32 0x00000000#32 := by
  rw [val_main_v0_apply, val_main_cst_apply]
  rfl

/-! ### Expert 0 -/

/-- The first contraction reads token `p` against row `j` of block 0 of the first weight array. -/
theorem hidden_e0 (p : Fin 8192) (j : Fin 2816) :
    val_main_v8 (F := Ideal) x0 x1 (ix2 p j) = Cert.MoeSpec.hidden x0 x1 (⟨0, by omega⟩ : Fin 8) p j := by
  rw [val_main_v8_apply]
  unfold Cert.MoeSpec.hidden
  refine Finset.sum_congr rfl fun k _ => ?_
  rw [val_main_v7_apply, val_main_v6_apply, val_main_v5_apply]
  have hl : lidx_main_v8 (ix2 p j) k = ix2 p k := funext fun a => match a with | ⟨0, _⟩ => rfl | ⟨1, _⟩ => rfl
  have hr : idx_main_v5 (idx_main_v6 (idx_main_v7 (ridx_main_v8 (ix2 p j) k))) = ix3 (⟨0, by omega⟩ : Fin 8) j k := by
    have hj := j.isLt
    have hk := k.isLt
    funext a
    match a with
    | ⟨0, _⟩ => rfl
    | ⟨1, _⟩ => exact Fin.ext (by show (j.val * 2048 + k.val) / 2048 % 2816 = j.val; omega)
    | ⟨2, _⟩ => exact Fin.ext (by show (j.val * 2048 + k.val) % 2048 = k.val; omega)
  rw [hl, hr]

/-- The gate slice keeps hidden unit `n` … -/
theorem gate_e0 (p : Fin 8192) (n : Fin 1408) :
    val_main_v9 (F := Ideal) x0 x1 (ix2 p n) = Cert.MoeSpec.hidden x0 x1 (⟨0, by omega⟩ : Fin 8) p (Cert.MoeSpec.gateAt n) := by
  rw [val_main_v9_apply]
  have h : idx_main_v9 (ix2 p n) = ix2 p (Cert.MoeSpec.gateAt n) :=
    funext fun a => match a with | ⟨0, _⟩ => rfl | ⟨1, _⟩ => rfl
  rw [h, hidden_e0]

/-- … and the up slice hidden unit `n + 1408`. -/
theorem up_e0 (p : Fin 8192) (n : Fin 1408) :
    val_main_v11 (F := Ideal) x0 x1 (ix2 p n) = Cert.MoeSpec.hidden x0 x1 (⟨0, by omega⟩ : Fin 8) p (Cert.MoeSpec.upAt n) := by
  rw [val_main_v11_apply]
  have h : idx_main_v11 (ix2 p n) = ix2 p (Cert.MoeSpec.upAt n) :=
    funext fun a => match a with
      | ⟨0, _⟩ => rfl
      | ⟨1, _⟩ => Fin.ext (by show 1408 + n.val = n.val + 1408; omega)
  rw [h, hidden_e0]

/-- The activation g ↦ g · (1 / (1 + exp (−g))) is g times the logistic function of g. -/
theorem silu_e0 (i : S8192x1408.Idx) :
    val_main_v10 (F := Ideal) x0 x1 i
      = val_main_v9 (F := Ideal) x0 x1 i * Ideal.logistic (val_main_v9 (F := Ideal) x0 x1 i) := by
  rw [val_main_v10_apply, val_main_call1_v5_apply, val_main_call1_v4_apply, val_main_call1_cst_0_apply, val_main_call1_v3_apply,
    val_main_call1_v2_apply, val_main_call1_cst_apply, val_main_call1_v1_apply, val_main_call1_v0_apply]
  simp only [Ideal.mulf_def, Ideal.hostDivf_def, Ideal.addf_def, Ideal.hostUnary_exp_def, Ideal.hostNegf_def,
    Ideal.negf_def, Ideal.ofBits_def, Ideal.ofBits_one_f32, Ideal.logistic]

/-- The gated activation of hidden unit pair `n`. -/
theorem gated_e0 (p : Fin 8192) (n : Fin 1408) :
    val_main_v12 (F := Ideal) x0 x1 (ix2 p n) = Cert.MoeSpec.gated x0 x1 (⟨0, by omega⟩ : Fin 8) p n := by
  rw [val_main_v12_apply, silu_e0, gate_e0, up_e0]
  rfl

/-- The transposed block 0 of the second weight array at (unit, feature). -/
theorem w2_e0 (n : Fin 1408) (k : Fin 2048) :
    val_main_v16 (F := Ideal) x2 (ix2 n k) = x2 (ix3 (⟨0, by omega⟩ : Fin 8) k n) := by
  rw [val_main_v16_apply, val_main_v15_apply, val_main_v14_apply]
  refine congrArg x2 ?_
  have hn := n.isLt
  have hk := k.isLt
  funext a
  match a with
  | ⟨0, _⟩ => rfl
  | ⟨1, _⟩ => exact Fin.ext (by show (k.val * 1408 + n.val) / 1408 % 2048 = k.val; omega)
  | ⟨2, _⟩ => exact Fin.ext (by show (k.val * 1408 + n.val) % 1408 = n.val; omega)

/-- The second contraction is the specification's second projection. -/
theorem down_e0 (p : Fin 8192) (k : Fin 2048) :
    val_main_v17 (F := Ideal) x0 x1 x2 (ix2 p k) = Cert.MoeSpec.down x0 x1 x2 (⟨0, by omega⟩ : Fin 8) p k := by
  rw [val_main_v17_apply]
  unfold Cert.MoeSpec.down
  refine Finset.sum_congr rfl fun n _ => ?_
  have hl : lidx_main_v17 (ix2 p k) n = ix2 p n := funext fun a => match a with | ⟨0, _⟩ => rfl | ⟨1, _⟩ => rfl
  have hr : ridx_main_v17 (ix2 p k) n = ix2 n k := funext fun a => match a with | ⟨0, _⟩ => rfl | ⟨1, _⟩ => rfl
  rw [hl, hr, gated_e0, w2_e0]

/-- The coefficient of token `p`, spread along the features. -/
theorem coef_e0 (p : Fin 8192) (k : Fin 2048) :
    val_main_v18 (F := Ideal) x3 x4 (ix2 p k) = refCoef x3 x4 (⟨0, by omega⟩ : Fin 8) p := by
  rw [val_main_v18_apply, val_main_v13_apply]
  show _ = val_main_v4 (F := Ideal) x3 x4 (ix1 p)
  exact congrArg (val_main_v4 (F := Ideal) x3 x4) (funext fun a => match a with | ⟨0, _⟩ => rfl)

/-- The term expert 0 adds to the running sum. -/
theorem term_e0 (i : S8192x2048.Idx) :
    val_main_v19 (F := Ideal) x0 x1 x2 x3 x4 i
      = refCoef x3 x4 (⟨0, by omega⟩ : Fin 8) (i 0) * Cert.MoeSpec.down x0 x1 x2 (⟨0, by omega⟩ : Fin 8) (i 0) (i 1) := by
  obtain ⟨p, k, rfl⟩ : ∃ (p : Fin 8192) (k : Fin 2048), i = ix2 p k := ⟨i 0, i 1, eq_ix2 i⟩
  rw [val_main_v19_apply, coef_e0, down_e0]
  rfl

/-- The running sum after expert 0. -/
theorem sum_e0 (i : S8192x2048.Idx) :
    val_main_v20 (F := Ideal) x0 x1 x2 x3 x4 i
      = Cert.MoeSpec.partialMix (refCoef x3 x4) x0 x1 x2 1 (by omega) (i 0) (i 1) := by
  rw [val_main_v20_apply, acc_zero, term_e0]
  exact (Cert.MoeSpec.partialMix_succ (refCoef x3 x4) x0 x1 x2 0 (by omega) (i 0) (i 1)).symm

/-! ### Expert 1 -/

/-- The first contraction reads token `p` against row `j` of block 1 of the first weight array. -/
theorem hidden_e1 (p : Fin 8192) (j : Fin 2816) :
    val_main_v28 (F := Ideal) x0 x1 (ix2 p j) = Cert.MoeSpec.hidden x0 x1 (⟨1, by omega⟩ : Fin 8) p j := by
  rw [val_main_v28_apply]
  unfold Cert.MoeSpec.hidden
  refine Finset.sum_congr rfl fun k _ => ?_
  rw [val_main_v27_apply, val_main_v26_apply, val_main_v25_apply]
  have hl : lidx_main_v28 (ix2 p j) k = ix2 p k := funext fun a => match a with | ⟨0, _⟩ => rfl | ⟨1, _⟩ => rfl
  have hr : idx_main_v25 (idx_main_v26 (idx_main_v27 (ridx_main_v28 (ix2 p j) k))) = ix3 (⟨1, by omega⟩ : Fin 8) j k := by
    have hj := j.isLt
    have hk := k.isLt
    funext a
    match a with
    | ⟨0, _⟩ => rfl
    | ⟨1, _⟩ => exact Fin.ext (by show (j.val * 2048 + k.val) / 2048 % 2816 = j.val; omega)
    | ⟨2, _⟩ => exact Fin.ext (by show (j.val * 2048 + k.val) % 2048 = k.val; omega)
  rw [hl, hr]

/-- The gate slice keeps hidden unit `n` … -/
theorem gate_e1 (p : Fin 8192) (n : Fin 1408) :
    val_main_v29 (F := Ideal) x0 x1 (ix2 p n) = Cert.MoeSpec.hidden x0 x1 (⟨1, by omega⟩ : Fin 8) p (Cert.MoeSpec.gateAt n) := by
  rw [val_main_v29_apply]
  have h : idx_main_v29 (ix2 p n) = ix2 p (Cert.MoeSpec.gateAt n) :=
    funext fun a => match a with | ⟨0, _⟩ => rfl | ⟨1, _⟩ => rfl
  rw [h, hidden_e1]

/-- … and the up slice hidden unit `n + 1408`. -/
theorem up_e1 (p : Fin 8192) (n : Fin 1408) :
    val_main_v31 (F := Ideal) x0 x1 (ix2 p n) = Cert.MoeSpec.hidden x0 x1 (⟨1, by omega⟩ : Fin 8) p (Cert.MoeSpec.upAt n) := by
  rw [val_main_v31_apply]
  have h : idx_main_v31 (ix2 p n) = ix2 p (Cert.MoeSpec.upAt n) :=
    funext fun a => match a with
      | ⟨0, _⟩ => rfl
      | ⟨1, _⟩ => Fin.ext (by show 1408 + n.val = n.val + 1408; omega)
  rw [h, hidden_e1]

/-- The activation g ↦ g · (1 / (1 + exp (−g))) is g times the logistic function of g. -/
theorem silu_e1 (i : S8192x1408.Idx) :
    val_main_v30 (F := Ideal) x0 x1 i
      = val_main_v29 (F := Ideal) x0 x1 i * Ideal.logistic (val_main_v29 (F := Ideal) x0 x1 i) := by
  rw [val_main_v30_apply, val_main_call3_v5_apply, val_main_call3_v4_apply, val_main_call3_cst_0_apply, val_main_call3_v3_apply,
    val_main_call3_v2_apply, val_main_call3_cst_apply, val_main_call3_v1_apply, val_main_call3_v0_apply]
  simp only [Ideal.mulf_def, Ideal.hostDivf_def, Ideal.addf_def, Ideal.hostUnary_exp_def, Ideal.hostNegf_def,
    Ideal.negf_def, Ideal.ofBits_def, Ideal.ofBits_one_f32, Ideal.logistic]

/-- The gated activation of hidden unit pair `n`. -/
theorem gated_e1 (p : Fin 8192) (n : Fin 1408) :
    val_main_v32 (F := Ideal) x0 x1 (ix2 p n) = Cert.MoeSpec.gated x0 x1 (⟨1, by omega⟩ : Fin 8) p n := by
  rw [val_main_v32_apply, silu_e1, gate_e1, up_e1]
  rfl

/-- The transposed block 1 of the second weight array at (unit, feature). -/
theorem w2_e1 (n : Fin 1408) (k : Fin 2048) :
    val_main_v36 (F := Ideal) x2 (ix2 n k) = x2 (ix3 (⟨1, by omega⟩ : Fin 8) k n) := by
  rw [val_main_v36_apply, val_main_v35_apply, val_main_v34_apply]
  refine congrArg x2 ?_
  have hn := n.isLt
  have hk := k.isLt
  funext a
  match a with
  | ⟨0, _⟩ => rfl
  | ⟨1, _⟩ => exact Fin.ext (by show (k.val * 1408 + n.val) / 1408 % 2048 = k.val; omega)
  | ⟨2, _⟩ => exact Fin.ext (by show (k.val * 1408 + n.val) % 1408 = n.val; omega)

/-- The second contraction is the specification's second projection. -/
theorem down_e1 (p : Fin 8192) (k : Fin 2048) :
    val_main_v37 (F := Ideal) x0 x1 x2 (ix2 p k) = Cert.MoeSpec.down x0 x1 x2 (⟨1, by omega⟩ : Fin 8) p k := by
  rw [val_main_v37_apply]
  unfold Cert.MoeSpec.down
  refine Finset.sum_congr rfl fun n _ => ?_
  have hl : lidx_main_v37 (ix2 p k) n = ix2 p n := funext fun a => match a with | ⟨0, _⟩ => rfl | ⟨1, _⟩ => rfl
  have hr : ridx_main_v37 (ix2 p k) n = ix2 n k := funext fun a => match a with | ⟨0, _⟩ => rfl | ⟨1, _⟩ => rfl
  rw [hl, hr, gated_e1, w2_e1]

/-- The coefficient of token `p`, spread along the features. -/
theorem coef_e1 (p : Fin 8192) (k : Fin 2048) :
    val_main_v38 (F := Ideal) x3 x4 (ix2 p k) = refCoef x3 x4 (⟨1, by omega⟩ : Fin 8) p := by
  rw [val_main_v38_apply, val_main_v33_apply]
  show _ = val_main_v24 (F := Ideal) x3 x4 (ix1 p)
  exact congrArg (val_main_v24 (F := Ideal) x3 x4) (funext fun a => match a with | ⟨0, _⟩ => rfl)

/-- The term expert 1 adds to the running sum. -/
theorem term_e1 (i : S8192x2048.Idx) :
    val_main_v39 (F := Ideal) x0 x1 x2 x3 x4 i
      = refCoef x3 x4 (⟨1, by omega⟩ : Fin 8) (i 0) * Cert.MoeSpec.down x0 x1 x2 (⟨1, by omega⟩ : Fin 8) (i 0) (i 1) := by
  obtain ⟨p, k, rfl⟩ : ∃ (p : Fin 8192) (k : Fin 2048), i = ix2 p k := ⟨i 0, i 1, eq_ix2 i⟩
  rw [val_main_v39_apply, coef_e1, down_e1]
  rfl

/-- The running sum after expert 1. -/
theorem sum_e1 (i : S8192x2048.Idx) :
    val_main_v40 (F := Ideal) x0 x1 x2 x3 x4 i
      = Cert.MoeSpec.partialMix (refCoef x3 x4) x0 x1 x2 2 (by omega) (i 0) (i 1) := by
  rw [val_main_v40_apply, sum_e0 x0 x1 x2 x3 x4, term_e1]
  exact (Cert.MoeSpec.partialMix_succ (refCoef x3 x4) x0 x1 x2 1 (by omega) (i 0) (i 1)).symm

/-! ### Expert 2 -/

/-- The first contraction reads token `p` against row `j` of block 2 of the first weight array. -/
theorem hidden_e2 (p : Fin 8192) (j : Fin 2816) :
    val_main_v48 (F := Ideal) x0 x1 (ix2 p j) = Cert.MoeSpec.hidden x0 x1 (⟨2, by omega⟩ : Fin 8) p j := by
  rw [val_main_v48_apply]
  unfold Cert.MoeSpec.hidden
  refine Finset.sum_congr rfl fun k _ => ?_
  rw [val_main_v47_apply, val_main_v46_apply, val_main_v45_apply]
  have hl : lidx_main_v48 (ix2 p j) k = ix2 p k := funext fun a => match a with | ⟨0, _⟩ => rfl | ⟨1, _⟩ => rfl
  have hr : idx_main_v45 (idx_main_v46 (idx_main_v47 (ridx_main_v48 (ix2 p j) k))) = ix3 (⟨2, by omega⟩ : Fin 8) j k := by
    have hj := j.isLt
    have hk := k.isLt
    funext a
    match a with
    | ⟨0, _⟩ => rfl
    | ⟨1, _⟩ => exact Fin.ext (by show (j.val * 2048 + k.val) / 2048 % 2816 = j.val; omega)
    | ⟨2, _⟩ => exact Fin.ext (by show (j.val * 2048 + k.val) % 2048 = k.val; omega)
  rw [hl, hr]

/-- The gate slice keeps hidden unit `n` … -/
theorem gate_e2 (p : Fin 8192) (n : Fin 1408) :
    val_main_v49 (F := Ideal) x0 x1 (ix2 p n) = Cert.MoeSpec.hidden x0 x1 (⟨2, by omega⟩ : Fin 8) p (Cert.MoeSpec.gateAt n) := by
  rw [val_main_v49_apply]
  have h : idx_main_v49 (ix2 p n) = ix2 p (Cert.MoeSpec.gateAt n) :=
    funext fun a => match a with | ⟨0, _⟩ => rfl | ⟨1, _⟩ => rfl
  rw [h, hidden_e2]

/-- … and the up slice hidden unit `n + 1408`. -/
theorem up_e2 (p : Fin 8192) (n : Fin 1408) :
    val_main_v51 (F := Ideal) x0 x1 (ix2 p n) = Cert.MoeSpec.hidden x0 x1 (⟨2, by omega⟩ : Fin 8) p (Cert.MoeSpec.upAt n) := by
  rw [val_main_v51_apply]
  have h : idx_main_v51 (ix2 p n) = ix2 p (Cert.MoeSpec.upAt n) :=
    funext fun a => match a with
      | ⟨0, _⟩ => rfl
      | ⟨1, _⟩ => Fin.ext (by show 1408 + n.val = n.val + 1408; omega)
  rw [h, hidden_e2]

/-- The activation g ↦ g · (1 / (1 + exp (−g))) is g times the logistic function of g. -/
theorem silu_e2 (i : S8192x1408.Idx) :
    val_main_v50 (F := Ideal) x0 x1 i
      = val_main_v49 (F := Ideal) x0 x1 i * Ideal.logistic (val_main_v49 (F := Ideal) x0 x1 i) := by
  rw [val_main_v50_apply, val_main_call5_v5_apply, val_main_call5_v4_apply, val_main_call5_cst_0_apply, val_main_call5_v3_apply,
    val_main_call5_v2_apply, val_main_call5_cst_apply, val_main_call5_v1_apply, val_main_call5_v0_apply]
  simp only [Ideal.mulf_def, Ideal.hostDivf_def, Ideal.addf_def, Ideal.hostUnary_exp_def, Ideal.hostNegf_def,
    Ideal.negf_def, Ideal.ofBits_def, Ideal.ofBits_one_f32, Ideal.logistic]

/-- The gated activation of hidden unit pair `n`. -/
theorem gated_e2 (p : Fin 8192) (n : Fin 1408) :
    val_main_v52 (F := Ideal) x0 x1 (ix2 p n) = Cert.MoeSpec.gated x0 x1 (⟨2, by omega⟩ : Fin 8) p n := by
  rw [val_main_v52_apply, silu_e2, gate_e2, up_e2]
  rfl

/-- The transposed block 2 of the second weight array at (unit, feature). -/
theorem w2_e2 (n : Fin 1408) (k : Fin 2048) :
    val_main_v56 (F := Ideal) x2 (ix2 n k) = x2 (ix3 (⟨2, by omega⟩ : Fin 8) k n) := by
  rw [val_main_v56_apply, val_main_v55_apply, val_main_v54_apply]
  refine congrArg x2 ?_
  have hn := n.isLt
  have hk := k.isLt
  funext a
  match a with
  | ⟨0, _⟩ => rfl
  | ⟨1, _⟩ => exact Fin.ext (by show (k.val * 1408 + n.val) / 1408 % 2048 = k.val; omega)
  | ⟨2, _⟩ => exact Fin.ext (by show (k.val * 1408 + n.val) % 1408 = n.val; omega)

/-- The second contraction is the specification's second projection. -/
theorem down_e2 (p : Fin 8192) (k : Fin 2048) :
    val_main_v57 (F := Ideal) x0 x1 x2 (ix2 p k) = Cert.MoeSpec.down x0 x1 x2 (⟨2, by omega⟩ : Fin 8) p k := by
  rw [val_main_v57_apply]
  unfold Cert.MoeSpec.down
  refine Finset.sum_congr rfl fun n _ => ?_
  have hl : lidx_main_v57 (ix2 p k) n = ix2 p n := funext fun a => match a with | ⟨0, _⟩ => rfl | ⟨1, _⟩ => rfl
  have hr : ridx_main_v57 (ix2 p k) n = ix2 n k := funext fun a => match a with | ⟨0, _⟩ => rfl | ⟨1, _⟩ => rfl
  rw [hl, hr, gated_e2, w2_e2]

/-- The coefficient of token `p`, spread along the features. -/
theorem coef_e2 (p : Fin 8192) (k : Fin 2048) :
    val_main_v58 (F := Ideal) x3 x4 (ix2 p k) = refCoef x3 x4 (⟨2, by omega⟩ : Fin 8) p := by
  rw [val_main_v58_apply, val_main_v53_apply]
  show _ = val_main_v44 (F := Ideal) x3 x4 (ix1 p)
  exact congrArg (val_main_v44 (F := Ideal) x3 x4) (funext fun a => match a with | ⟨0, _⟩ => rfl)

/-- The term expert 2 adds to the running sum. -/
theorem term_e2 (i : S8192x2048.Idx) :
    val_main_v59 (F := Ideal) x0 x1 x2 x3 x4 i
      = refCoef x3 x4 (⟨2, by omega⟩ : Fin 8) (i 0) * Cert.MoeSpec.down x0 x1 x2 (⟨2, by omega⟩ : Fin 8) (i 0) (i 1) := by
  obtain ⟨p, k, rfl⟩ : ∃ (p : Fin 8192) (k : Fin 2048), i = ix2 p k := ⟨i 0, i 1, eq_ix2 i⟩
  rw [val_main_v59_apply, coef_e2, down_e2]
  rfl

/-- The running sum after expert 2. -/
theorem sum_e2 (i : S8192x2048.Idx) :
    val_main_v60 (F := Ideal) x0 x1 x2 x3 x4 i
      = Cert.MoeSpec.partialMix (refCoef x3 x4) x0 x1 x2 3 (by omega) (i 0) (i 1) := by
  rw [val_main_v60_apply, sum_e1 x0 x1 x2 x3 x4, term_e2]
  exact (Cert.MoeSpec.partialMix_succ (refCoef x3 x4) x0 x1 x2 2 (by omega) (i 0) (i 1)).symm

/-! ### Expert 3 -/

/-- The first contraction reads token `p` against row `j` of block 3 of the first weight array. -/
theorem hidden_e3 (p : Fin 8192) (j : Fin 2816) :
    val_main_v68 (F := Ideal) x0 x1 (ix2 p j) = Cert.MoeSpec.hidden x0 x1 (⟨3, by omega⟩ : Fin 8) p j := by
  rw [val_main_v68_apply]
  unfold Cert.MoeSpec.hidden
  refine Finset.sum_congr rfl fun k _ => ?_
  rw [val_main_v67_apply, val_main_v66_apply, val_main_v65_apply]
  have hl : lidx_main_v68 (ix2 p j) k = ix2 p k := funext fun a => match a with | ⟨0, _⟩ => rfl | ⟨1, _⟩ => rfl
  have hr : idx_main_v65 (idx_main_v66 (idx_main_v67 (ridx_main_v68 (ix2 p j) k))) = ix3 (⟨3, by omega⟩ : Fin 8) j k := by
    have hj := j.isLt
    have hk := k.isLt
    funext a
    match a with
    | ⟨0, _⟩ => rfl
    | ⟨1, _⟩ => exact Fin.ext (by show (j.val * 2048 + k.val) / 2048 % 2816 = j.val; omega)
    | ⟨2, _⟩ => exact Fin.ext (by show (j.val * 2048 + k.val) % 2048 = k.val; omega)
  rw [hl, hr]

/-- The gate slice keeps hidden unit `n` … -/
theorem gate_e3 (p : Fin 8192) (n : Fin 1408) :
    val_main_v69 (F := Ideal) x0 x1 (ix2 p n) = Cert.MoeSpec.hidden x0 x1 (⟨3, by omega⟩ : Fin 8) p (Cert.MoeSpec.gateAt n) := by
  rw [val_main_v69_apply]
  have h : idx_main_v69 (ix2 p n) = ix2 p (Cert.MoeSpec.gateAt n) :=
    funext fun a => match a with | ⟨0, _⟩ => rfl | ⟨1, _⟩ => rfl
  rw [h, hidden_e3]

/-- … and the up slice hidden unit `n + 1408`. -/
theorem up_e3 (p : Fin 8192) (n : Fin 1408) :
    val_main_v71 (F := Ideal) x0 x1 (ix2 p n) = Cert.MoeSpec.hidden x0 x1 (⟨3, by omega⟩ : Fin 8) p (Cert.MoeSpec.upAt n) := by
  rw [val_main_v71_apply]
  have h : idx_main_v71 (ix2 p n) = ix2 p (Cert.MoeSpec.upAt n) :=
    funext fun a => match a with
      | ⟨0, _⟩ => rfl
      | ⟨1, _⟩ => Fin.ext (by show 1408 + n.val = n.val + 1408; omega)
  rw [h, hidden_e3]

/-- The activation g ↦ g · (1 / (1 + exp (−g))) is g times the logistic function of g. -/
theorem silu_e3 (i : S8192x1408.Idx) :
    val_main_v70 (F := Ideal) x0 x1 i
      = val_main_v69 (F := Ideal) x0 x1 i * Ideal.logistic (val_main_v69 (F := Ideal) x0 x1 i) := by
  rw [val_main_v70_apply, val_main_call7_v5_apply, val_main_call7_v4_apply, val_main_call7_cst_0_apply, val_main_call7_v3_apply,
    val_main_call7_v2_apply, val_main_call7_cst_apply, val_main_call7_v1_apply, val_main_call7_v0_apply]
  simp only [Ideal.mulf_def, Ideal.hostDivf_def, Ideal.addf_def, Ideal.hostUnary_exp_def, Ideal.hostNegf_def,
    Ideal.negf_def, Ideal.ofBits_def, Ideal.ofBits_one_f32, Ideal.logistic]

/-- The gated activation of hidden unit pair `n`. -/
theorem gated_e3 (p : Fin 8192) (n : Fin 1408) :
    val_main_v72 (F := Ideal) x0 x1 (ix2 p n) = Cert.MoeSpec.gated x0 x1 (⟨3, by omega⟩ : Fin 8) p n := by
  rw [val_main_v72_apply, silu_e3, gate_e3, up_e3]
  rfl

/-- The transposed block 3 of the second weight array at (unit, feature). -/
theorem w2_e3 (n : Fin 1408) (k : Fin 2048) :
    val_main_v76 (F := Ideal) x2 (ix2 n k) = x2 (ix3 (⟨3, by omega⟩ : Fin 8) k n) := by
  rw [val_main_v76_apply, val_main_v75_apply, val_main_v74_apply]
  refine congrArg x2 ?_
  have hn := n.isLt
  have hk := k.isLt
  funext a
  match a with
  | ⟨0, _⟩ => rfl
  | ⟨1, _⟩ => exact Fin.ext (by show (k.val * 1408 + n.val) / 1408 % 2048 = k.val; omega)
  | ⟨2, _⟩ => exact Fin.ext (by show (k.val * 1408 + n.val) % 1408 = n.val; omega)

/-- The second contraction is the specification's second projection. -/
theorem down_e3 (p : Fin 8192) (k : Fin 2048) :
    val_main_v77 (F := Ideal) x0 x1 x2 (ix2 p k) = Cert.MoeSpec.down x0 x1 x2 (⟨3, by omega⟩ : Fin 8) p k := by
  rw [val_main_v77_apply]
  unfold Cert.MoeSpec.down
  refine Finset.sum_congr rfl fun n _ => ?_
  have hl : lidx_main_v77 (ix2 p k) n = ix2 p n := funext fun a => match a with | ⟨0, _⟩ => rfl | ⟨1, _⟩ => rfl
  have hr : ridx_main_v77 (ix2 p k) n = ix2 n k := funext fun a => match a with | ⟨0, _⟩ => rfl | ⟨1, _⟩ => rfl
  rw [hl, hr, gated_e3, w2_e3]

/-- The coefficient of token `p`, spread along the features. -/
theorem coef_e3 (p : Fin 8192) (k : Fin 2048) :
    val_main_v78 (F := Ideal) x3 x4 (ix2 p k) = refCoef x3 x4 (⟨3, by omega⟩ : Fin 8) p := by
  rw [val_main_v78_apply, val_main_v73_apply]
  show _ = val_main_v64 (F := Ideal) x3 x4 (ix1 p)
  exact congrArg (val_main_v64 (F := Ideal) x3 x4) (funext fun a => match a with | ⟨0, _⟩ => rfl)

/-- The term expert 3 adds to the running sum. -/
theorem term_e3 (i : S8192x2048.Idx) :
    val_main_v79 (F := Ideal) x0 x1 x2 x3 x4 i
      = refCoef x3 x4 (⟨3, by omega⟩ : Fin 8) (i 0) * Cert.MoeSpec.down x0 x1 x2 (⟨3, by omega⟩ : Fin 8) (i 0) (i 1) := by
  obtain ⟨p, k, rfl⟩ : ∃ (p : Fin 8192) (k : Fin 2048), i = ix2 p k := ⟨i 0, i 1, eq_ix2 i⟩
  rw [val_main_v79_apply, coef_e3, down_e3]
  rfl

/-- The running sum after expert 3. -/
theorem sum_e3 (i : S8192x2048.Idx) :
    val_main_v80 (F := Ideal) x0 x1 x2 x3 x4 i
      = Cert.MoeSpec.partialMix (refCoef x3 x4) x0 x1 x2 4 (by omega) (i 0) (i 1) := by
  rw [val_main_v80_apply, sum_e2 x0 x1 x2 x3 x4, term_e3]
  exact (Cert.MoeSpec.partialMix_succ (refCoef x3 x4) x0 x1 x2 3 (by omega) (i 0) (i 1)).symm

/-! ### Expert 4 -/

/-- The first contraction reads token `p` against row `j` of block 4 of the first weight array. -/
theorem hidden_e4 (p : Fin 8192) (j : Fin 2816) :
    val_main_v88 (F := Ideal) x0 x1 (ix2 p j) = Cert.MoeSpec.hidden x0 x1 (⟨4, by omega⟩ : Fin 8) p j := by
  rw [val_main_v88_apply]
  unfold Cert.MoeSpec.hidden
  refine Finset.sum_congr rfl fun k _ => ?_
  rw [val_main_v87_apply, val_main_v86_apply, val_main_v85_apply]
  have hl : lidx_main_v88 (ix2 p j) k = ix2 p k := funext fun a => match a with | ⟨0, _⟩ => rfl | ⟨1, _⟩ => rfl
  have hr : idx_main_v85 (idx_main_v86 (idx_main_v87 (ridx_main_v88 (ix2 p j) k))) = ix3 (⟨4, by omega⟩ : Fin 8) j k := by
    have hj := j.isLt
    have hk := k.isLt
    funext a
    match a with
    | ⟨0, _⟩ => rfl
    | ⟨1, _⟩ => exact Fin.ext (by show (j.val * 2048 + k.val) / 2048 % 2816 = j.val; omega)
    | ⟨2, _⟩ => exact Fin.ext (by show (j.val * 2048 + k.val) % 2048 = k.val; omega)
  rw [hl, hr]

/-- The gate slice keeps hidden unit `n` … -/
theorem gate_e4 (p : Fin 8192) (n : Fin 1408) :
    val_main_v89 (F := Ideal) x0 x1 (ix2 p n) = Cert.MoeSpec.hidden x0 x1 (⟨4, by omega⟩ : Fin 8) p (Cert.MoeSpec.gateAt n) := by
  rw [val_main_v89_apply]
  have h : idx_main_v89 (ix2 p n) = ix2 p (Cert.MoeSpec.gateAt n) :=
    funext fun a => match a with | ⟨0, _⟩ => rfl | ⟨1, _⟩ => rfl
  rw [h, hidden_e4]

/-- … and the up slice hidden unit `n + 1408`. -/
theorem up_e4 (p : Fin 8192) (n : Fin 1408) :
    val_main_v91 (F := Ideal) x0 x1 (ix2 p n) = Cert.MoeSpec.hidden x0 x1 (⟨4, by omega⟩ : Fin 8) p (Cert.MoeSpec.upAt n) := by
  rw [val_main_v91_apply]
  have h : idx_main_v91 (ix2 p n) = ix2 p (Cert.MoeSpec.upAt n) :=
    funext fun a => match a with
      | ⟨0, _⟩ => rfl
      | ⟨1, _⟩ => Fin.ext (by show 1408 + n.val = n.val + 1408; omega)
  rw [h, hidden_e4]

/-- The activation g ↦ g · (1 / (1 + exp (−g))) is g times the logistic function of g. -/
theorem silu_e4 (i : S8192x1408.Idx) :
    val_main_v90 (F := Ideal) x0 x1 i
      = val_main_v89 (F := Ideal) x0 x1 i * Ideal.logistic (val_main_v89 (F := Ideal) x0 x1 i) := by
  rw [val_main_v90_apply, val_main_call9_v5_apply, val_main_call9_v4_apply, val_main_call9_cst_0_apply, val_main_call9_v3_apply,
    val_main_call9_v2_apply, val_main_call9_cst_apply, val_main_call9_v1_apply, val_main_call9_v0_apply]
  simp only [Ideal.mulf_def, Ideal.hostDivf_def, Ideal.addf_def, Ideal.hostUnary_exp_def, Ideal.hostNegf_def,
    Ideal.negf_def, Ideal.ofBits_def, Ideal.ofBits_one_f32, Ideal.logistic]

/-- The gated activation of hidden unit pair `n`. -/
theorem gated_e4 (p : Fin 8192) (n : Fin 1408) :
    val_main_v92 (F := Ideal) x0 x1 (ix2 p n) = Cert.MoeSpec.gated x0 x1 (⟨4, by omega⟩ : Fin 8) p n := by
  rw [val_main_v92_apply, silu_e4, gate_e4, up_e4]
  rfl

/-- The transposed block 4 of the second weight array at (unit, feature). -/
theorem w2_e4 (n : Fin 1408) (k : Fin 2048) :
    val_main_v96 (F := Ideal) x2 (ix2 n k) = x2 (ix3 (⟨4, by omega⟩ : Fin 8) k n) := by
  rw [val_main_v96_apply, val_main_v95_apply, val_main_v94_apply]
  refine congrArg x2 ?_
  have hn := n.isLt
  have hk := k.isLt
  funext a
  match a with
  | ⟨0, _⟩ => rfl
  | ⟨1, _⟩ => exact Fin.ext (by show (k.val * 1408 + n.val) / 1408 % 2048 = k.val; omega)
  | ⟨2, _⟩ => exact Fin.ext (by show (k.val * 1408 + n.val) % 1408 = n.val; omega)

/-- The second contraction is the specification's second projection. -/
theorem down_e4 (p : Fin 8192) (k : Fin 2048) :
    val_main_v97 (F := Ideal) x0 x1 x2 (ix2 p k) = Cert.MoeSpec.down x0 x1 x2 (⟨4, by omega⟩ : Fin 8) p k := by
  rw [val_main_v97_apply]
  unfold Cert.MoeSpec.down
  refine Finset.sum_congr rfl fun n _ => ?_
  have hl : lidx_main_v97 (ix2 p k) n = ix2 p n := funext fun a => match a with | ⟨0, _⟩ => rfl | ⟨1, _⟩ => rfl
  have hr : ridx_main_v97 (ix2 p k) n = ix2 n k := funext fun a => match a with | ⟨0, _⟩ => rfl | ⟨1, _⟩ => rfl
  rw [hl, hr, gated_e4, w2_e4]

/-- The coefficient of token `p`, spread along the features. -/
theorem coef_e4 (p : Fin 8192) (k : Fin 2048) :
    val_main_v98 (F := Ideal) x3 x4 (ix2 p k) = refCoef x3 x4 (⟨4, by omega⟩ : Fin 8) p := by
  rw [val_main_v98_apply, val_main_v93_apply]
  show _ = val_main_v84 (F := Ideal) x3 x4 (ix1 p)
  exact congrArg (val_main_v84 (F := Ideal) x3 x4) (funext fun a => match a with | ⟨0, _⟩ => rfl)

/-- The term expert 4 adds to the running sum. -/
theorem term_e4 (i : S8192x2048.Idx) :
    val_main_v99 (F := Ideal) x0 x1 x2 x3 x4 i
      = refCoef x3 x4 (⟨4, by omega⟩ : Fin 8) (i 0) * Cert.MoeSpec.down x0 x1 x2 (⟨4, by omega⟩ : Fin 8) (i 0) (i 1) := by
  obtain ⟨p, k, rfl⟩ : ∃ (p : Fin 8192) (k : Fin 2048), i = ix2 p k := ⟨i 0, i 1, eq_ix2 i⟩
  rw [val_main_v99_apply, coef_e4, down_e4]
  rfl

/-- The running sum after expert 4. -/
theorem sum_e4 (i : S8192x2048.Idx) :
    val_main_v100 (F := Ideal) x0 x1 x2 x3 x4 i
      = Cert.MoeSpec.partialMix (refCoef x3 x4) x0 x1 x2 5 (by omega) (i 0) (i 1) := by
  rw [val_main_v100_apply, sum_e3 x0 x1 x2 x3 x4, term_e4]
  exact (Cert.MoeSpec.partialMix_succ (refCoef x3 x4) x0 x1 x2 4 (by omega) (i 0) (i 1)).symm

/-! ### Expert 5 -/

/-- The first contraction reads token `p` against row `j` of block 5 of the first weight array. -/
theorem hidden_e5 (p : Fin 8192) (j : Fin 2816) :
    val_main_v108 (F := Ideal) x0 x1 (ix2 p j) = Cert.MoeSpec.hidden x0 x1 (⟨5, by omega⟩ : Fin 8) p j := by
  rw [val_main_v108_apply]
  unfold Cert.MoeSpec.hidden
  refine Finset.sum_congr rfl fun k _ => ?_
  rw [val_main_v107_apply, val_main_v106_apply, val_main_v105_apply]
  have hl : lidx_main_v108 (ix2 p j) k = ix2 p k := funext fun a => match a with | ⟨0, _⟩ => rfl | ⟨1, _⟩ => rfl
  have hr : idx_main_v105 (idx_main_v106 (idx_main_v107 (ridx_main_v108 (ix2 p j) k))) = ix3 (⟨5, by omega⟩ : Fin 8) j k := by
    have hj := j.isLt
    have hk := k.isLt
    funext a
    match a with
    | ⟨0, _⟩ => rfl
    | ⟨1, _⟩ => exact Fin.ext (by show (j.val * 2048 + k.val) / 2048 % 2816 = j.val; omega)
    | ⟨2, _⟩ => exact Fin.ext (by show (j.val * 2048 + k.val) % 2048 = k.val; omega)
  rw [hl, hr]

/-- The gate slice keeps hidden unit `n` … -/
theorem gate_e5 (p : Fin 8192) (n : Fin 1408) :
    val_main_v109 (F := Ideal) x0 x1 (ix2 p n) = Cert.MoeSpec.hidden x0 x1 (⟨5, by omega⟩ : Fin 8) p (Cert.MoeSpec.gateAt n) := by
  rw [val_main_v109_apply]
  have h : idx_main_v109 (ix2 p n) = ix2 p (Cert.MoeSpec.gateAt n) :=
    funext fun a => match a with | ⟨0, _⟩ => rfl | ⟨1, _⟩ => rfl
  rw [h, hidden_e5]

/-- … and the up slice hidden unit `n + 1408`. -/
theorem up_e5 (p : Fin 8192) (n : Fin 1408) :
    val_main_v111 (F := Ideal) x0 x1 (ix2 p n) = Cert.MoeSpec.hidden x0 x1 (⟨5, by omega⟩ : Fin 8) p (Cert.MoeSpec.upAt n) := by
  rw [val_main_v111_apply]
  have h : idx_main_v111 (ix2 p n) = ix2 p (Cert.MoeSpec.upAt n) :=
    funext fun a => match a with
      | ⟨0, _⟩ => rfl
      | ⟨1, _⟩ => Fin.ext (by show 1408 + n.val = n.val + 1408; omega)
  rw [h, hidden_e5]

/-- The activation g ↦ g · (1 / (1 + exp (−g))) is g times the logistic function of g. -/
theorem silu_e5 (i : S8192x1408.Idx) :
    val_main_v110 (F := Ideal) x0 x1 i
      = val_main_v109 (F := Ideal) x0 x1 i * Ideal.logistic (val_main_v109 (F := Ideal) x0 x1 i) := by
  rw [val_main_v110_apply, val_main_call11_v5_apply, val_main_call11_v4_apply, val_main_call11_cst_0_apply, val_main_call11_v3_apply,
    val_main_call11_v2_apply, val_main_call11_cst_apply, val_main_call11_v1_apply, val_main_call11_v0_apply]
  simp only [Ideal.mulf_def, Ideal.hostDivf_def, Ideal.addf_def, Ideal.hostUnary_exp_def, Ideal.hostNegf_def,
    Ideal.negf_def, Ideal.ofBits_def, Ideal.ofBits_one_f32, Ideal.logistic]

/-- The gated activation of hidden unit pair `n`. -/
theorem gated_e5 (p : Fin 8192) (n : Fin 1408) :
    val_main_v112 (F := Ideal) x0 x1 (ix2 p n) = Cert.MoeSpec.gated x0 x1 (⟨5, by omega⟩ : Fin 8) p n := by
  rw [val_main_v112_apply, silu_e5, gate_e5, up_e5]
  rfl

/-- The transposed block 5 of the second weight array at (unit, feature). -/
theorem w2_e5 (n : Fin 1408) (k : Fin 2048) :
    val_main_v116 (F := Ideal) x2 (ix2 n k) = x2 (ix3 (⟨5, by omega⟩ : Fin 8) k n) := by
  rw [val_main_v116_apply, val_main_v115_apply, val_main_v114_apply]
  refine congrArg x2 ?_
  have hn := n.isLt
  have hk := k.isLt
  funext a
  match a with
  | ⟨0, _⟩ => rfl
  | ⟨1, _⟩ => exact Fin.ext (by show (k.val * 1408 + n.val) / 1408 % 2048 = k.val; omega)
  | ⟨2, _⟩ => exact Fin.ext (by show (k.val * 1408 + n.val) % 1408 = n.val; omega)

/-- The second contraction is the specification's second projection. -/
theorem down_e5 (p : Fin 8192) (k : Fin 2048) :
    val_main_v117 (F := Ideal) x0 x1 x2 (ix2 p k) = Cert.MoeSpec.down x0 x1 x2 (⟨5, by omega⟩ : Fin 8) p k := by
  rw [val_main_v117_apply]
  unfold Cert.MoeSpec.down
  refine Finset.sum_congr rfl fun n _ => ?_
  have hl : lidx_main_v117 (ix2 p k) n = ix2 p n := funext fun a => match a with | ⟨0, _⟩ => rfl | ⟨1, _⟩ => rfl
  have hr : ridx_main_v117 (ix2 p k) n = ix2 n k := funext fun a => match a with | ⟨0, _⟩ => rfl | ⟨1, _⟩ => rfl
  rw [hl, hr, gated_e5, w2_e5]

/-- The coefficient of token `p`, spread along the features. -/
theorem coef_e5 (p : Fin 8192) (k : Fin 2048) :
    val_main_v118 (F := Ideal) x3 x4 (ix2 p k) = refCoef x3 x4 (⟨5, by omega⟩ : Fin 8) p := by
  rw [val_main_v118_apply, val_main_v113_apply]
  show _ = val_main_v104 (F := Ideal) x3 x4 (ix1 p)
  exact congrArg (val_main_v104 (F := Ideal) x3 x4) (funext fun a => match a with | ⟨0, _⟩ => rfl)

/-- The term expert 5 adds to the running sum. -/
theorem term_e5 (i : S8192x2048.Idx) :
    val_main_v119 (F := Ideal) x0 x1 x2 x3 x4 i
      = refCoef x3 x4 (⟨5, by omega⟩ : Fin 8) (i 0) * Cert.MoeSpec.down x0 x1 x2 (⟨5, by omega⟩ : Fin 8) (i 0) (i 1) := by
  obtain ⟨p, k, rfl⟩ : ∃ (p : Fin 8192) (k : Fin 2048), i = ix2 p k := ⟨i 0, i 1, eq_ix2 i⟩
  rw [val_main_v119_apply, coef_e5, down_e5]
  rfl

/-- The running sum after expert 5. -/
theorem sum_e5 (i : S8192x2048.Idx) :
    val_main_v120 (F := Ideal) x0 x1 x2 x3 x4 i
      = Cert.MoeSpec.partialMix (refCoef x3 x4) x0 x1 x2 6 (by omega) (i 0) (i 1) := by
  rw [val_main_v120_apply, sum_e4 x0 x1 x2 x3 x4, term_e5]
  exact (Cert.MoeSpec.partialMix_succ (refCoef x3 x4) x0 x1 x2 5 (by omega) (i 0) (i 1)).symm

/-! ### Expert 6 -/

/-- The first contraction reads token `p` against row `j` of block 6 of the first weight array. -/
theorem hidden_e6 (p : Fin 8192) (j : Fin 2816) :
    val_main_v128 (F := Ideal) x0 x1 (ix2 p j) = Cert.MoeSpec.hidden x0 x1 (⟨6, by omega⟩ : Fin 8) p j := by
  rw [val_main_v128_apply]
  unfold Cert.MoeSpec.hidden
  refine Finset.sum_congr rfl fun k _ => ?_
  rw [val_main_v127_apply, val_main_v126_apply, val_main_v125_apply]
  have hl : lidx_main_v128 (ix2 p j) k = ix2 p k := funext fun a => match a with | ⟨0, _⟩ => rfl | ⟨1, _⟩ => rfl
  have hr : idx_main_v125 (idx_main_v126 (idx_main_v127 (ridx_main_v128 (ix2 p j) k))) = ix3 (⟨6, by omega⟩ : Fin 8) j k := by
    have hj := j.isLt
    have hk := k.isLt
    funext a
    match a with
    | ⟨0, _⟩ => rfl
    | ⟨1, _⟩ => exact Fin.ext (by show (j.val * 2048 + k.val) / 2048 % 2816 = j.val; omega)
    | ⟨2, _⟩ => exact Fin.ext (by show (j.val * 2048 + k.val) % 2048 = k.val; omega)
  rw [hl, hr]

/-- The gate slice keeps hidden unit `n` … -/
theorem gate_e6 (p : Fin 8192) (n : Fin 1408) :
    val_main_v129 (F := Ideal) x0 x1 (ix2 p n) = Cert.MoeSpec.hidden x0 x1 (⟨6, by omega⟩ : Fin 8) p (Cert.MoeSpec.gateAt n) := by
  rw [val_main_v129_apply]
  have h : idx_main_v129 (ix2 p n) = ix2 p (Cert.MoeSpec.gateAt n) :=
    funext fun a => match a with | ⟨0, _⟩ => rfl | ⟨1, _⟩ => rfl
  rw [h, hidden_e6]

/-- … and the up slice hidden unit `n + 1408`. -/
theorem up_e6 (p : Fin 8192) (n : Fin 1408) :
    val_main_v131 (F := Ideal) x0 x1 (ix2 p n) = Cert.MoeSpec.hidden x0 x1 (⟨6, by omega⟩ : Fin 8) p (Cert.MoeSpec.upAt n) := by
  rw [val_main_v131_apply]
  have h : idx_main_v131 (ix2 p n) = ix2 p (Cert.MoeSpec.upAt n) :=
    funext fun a => match a with
      | ⟨0, _⟩ => rfl
      | ⟨1, _⟩ => Fin.ext (by show 1408 + n.val = n.val + 1408; omega)
  rw [h, hidden_e6]

/-- The activation g ↦ g · (1 / (1 + exp (−g))) is g times the logistic function of g. -/
theorem silu_e6 (i : S8192x1408.Idx) :
    val_main_v130 (F := Ideal) x0 x1 i
      = val_main_v129 (F := Ideal) x0 x1 i * Ideal.logistic (val_main_v129 (F := Ideal) x0 x1 i) := by
  rw [val_main_v130_apply, val_main_call13_v5_apply, val_main_call13_v4_apply, val_main_call13_cst_0_apply, val_main_call13_v3_apply,
    val_main_call13_v2_apply, val_main_call13_cst_apply, val_main_call13_v1_apply, val_main_call13_v0_apply]
  simp only [Ideal.mulf_def, Ideal.hostDivf_def, Ideal.addf_def, Ideal.hostUnary_exp_def, Ideal.hostNegf_def,
    Ideal.negf_def, Ideal.ofBits_def, Ideal.ofBits_one_f32, Ideal.logistic]

/-- The gated activation of hidden unit pair `n`. -/
theorem gated_e6 (p : Fin 8192) (n : Fin 1408) :
    val_main_v132 (F := Ideal) x0 x1 (ix2 p n) = Cert.MoeSpec.gated x0 x1 (⟨6, by omega⟩ : Fin 8) p n := by
  rw [val_main_v132_apply, silu_e6, gate_e6, up_e6]
  rfl

/-- The transposed block 6 of the second weight array at (unit, feature). -/
theorem w2_e6 (n : Fin 1408) (k : Fin 2048) :
    val_main_v136 (F := Ideal) x2 (ix2 n k) = x2 (ix3 (⟨6, by omega⟩ : Fin 8) k n) := by
  rw [val_main_v136_apply, val_main_v135_apply, val_main_v134_apply]
  refine congrArg x2 ?_
  have hn := n.isLt
  have hk := k.isLt
  funext a
  match a with
  | ⟨0, _⟩ => rfl
  | ⟨1, _⟩ => exact Fin.ext (by show (k.val * 1408 + n.val) / 1408 % 2048 = k.val; omega)
  | ⟨2, _⟩ => exact Fin.ext (by show (k.val * 1408 + n.val) % 1408 = n.val; omega)

/-- The second contraction is the specification's second projection. -/
theorem down_e6 (p : Fin 8192) (k : Fin 2048) :
    val_main_v137 (F := Ideal) x0 x1 x2 (ix2 p k) = Cert.MoeSpec.down x0 x1 x2 (⟨6, by omega⟩ : Fin 8) p k := by
  rw [val_main_v137_apply]
  unfold Cert.MoeSpec.down
  refine Finset.sum_congr rfl fun n _ => ?_
  have hl : lidx_main_v137 (ix2 p k) n = ix2 p n := funext fun a => match a with | ⟨0, _⟩ => rfl | ⟨1, _⟩ => rfl
  have hr : ridx_main_v137 (ix2 p k) n = ix2 n k := funext fun a => match a with | ⟨0, _⟩ => rfl | ⟨1, _⟩ => rfl
  rw [hl, hr, gated_e6, w2_e6]

/-- The coefficient of token `p`, spread along the features. -/
theorem coef_e6 (p : Fin 8192) (k : Fin 2048) :
    val_main_v138 (F := Ideal) x3 x4 (ix2 p k) = refCoef x3 x4 (⟨6, by omega⟩ : Fin 8) p := by
  rw [val_main_v138_apply, val_main_v133_apply]
  show _ = val_main_v124 (F := Ideal) x3 x4 (ix1 p)
  exact congrArg (val_main_v124 (F := Ideal) x3 x4) (funext fun a => match a with | ⟨0, _⟩ => rfl)

/-- The term expert 6 adds to the running sum. -/
theorem term_e6 (i : S8192x2048.Idx) :
    val_main_v139 (F := Ideal) x0 x1 x2 x3 x4 i
      = refCoef x3 x4 (⟨6, by omega⟩ : Fin 8) (i 0) * Cert.MoeSpec.down x0 x1 x2 (⟨6, by omega⟩ : Fin 8) (i 0) (i 1) := by
  obtain ⟨p, k, rfl⟩ : ∃ (p : Fin 8192) (k : Fin 2048), i = ix2 p k := ⟨i 0, i 1, eq_ix2 i⟩
  rw [val_main_v139_apply, coef_e6, down_e6]
  rfl

/-- The running sum after expert 6. -/
theorem sum_e6 (i : S8192x2048.Idx) :
    val_main_v140 (F := Ideal) x0 x1 x2 x3 x4 i
      = Cert.MoeSpec.partialMix (refCoef x3 x4) x0 x1 x2 7 (by omega) (i 0) (i 1) := by
  rw [val_main_v140_apply, sum_e5 x0 x1 x2 x3 x4, term_e6]
  exact (Cert.MoeSpec.partialMix_succ (refCoef x3 x4) x0 x1 x2 6 (by omega) (i 0) (i 1)).symm

/-! ### Expert 7 -/

/-- The first contraction reads token `p` against row `j` of block 7 of the first weight array. -/
theorem hidden_e7 (p : Fin 8192) (j : Fin 2816) :
    val_main_v148 (F := Ideal) x0 x1 (ix2 p j) = Cert.MoeSpec.hidden x0 x1 (⟨7, by omega⟩ : Fin 8) p j := by
  rw [val_main_v148_apply]
  unfold Cert.MoeSpec.hidden
  refine Finset.sum_congr rfl fun k _ => ?_
  rw [val_main_v147_apply, val_main_v146_apply, val_main_v145_apply]
  have hl : lidx_main_v148 (ix2 p j) k = ix2 p k := funext fun a => match a with | ⟨0, _⟩ => rfl | ⟨1, _⟩ => rfl
  have hr : idx_main_v145 (idx_main_v146 (idx_main_v147 (ridx_main_v148 (ix2 p j) k))) = ix3 (⟨7, by omega⟩ : Fin 8) j k := by
    have hj := j.isLt
    have hk := k.isLt
    funext a
    match a with
    | ⟨0, _⟩ => rfl
    | ⟨1, _⟩ => exact Fin.ext (by show (j.val * 2048 + k.val) / 2048 % 2816 = j.val; omega)
    | ⟨2, _⟩ => exact Fin.ext (by show (j.val * 2048 + k.val) % 2048 = k.val; omega)
  rw [hl, hr]

/-- The gate slice keeps hidden unit `n` … -/
theorem gate_e7 (p : Fin 8192) (n : Fin 1408) :
    val_main_v149 (F := Ideal) x0 x1 (ix2 p n) = Cert.MoeSpec.hidden x0 x1 (⟨7, by omega⟩ : Fin 8) p (Cert.MoeSpec.gateAt n) := by
  rw [val_main_v149_apply]
  have h : idx_main_v149 (ix2 p n) = ix2 p (Cert.MoeSpec.gateAt n) :=
    funext fun a => match a with | ⟨0, _⟩ => rfl | ⟨1, _⟩ => rfl
  rw [h, hidden_e7]

/-- … and the up slice hidden unit `n + 1408`. -/
theorem up_e7 (p : Fin 8192) (n : Fin 1408) :
    val_main_v151 (F := Ideal) x0 x1 (ix2 p n) = Cert.MoeSpec.hidden x0 x1 (⟨7, by omega⟩ : Fin 8) p (Cert.MoeSpec.upAt n) := by
  rw [val_main_v151_apply]
  have h : idx_main_v151 (ix2 p n) = ix2 p (Cert.MoeSpec.upAt n) :=
    funext fun a => match a with
      | ⟨0, _⟩ => rfl
      | ⟨1, _⟩ => Fin.ext (by show 1408 + n.val = n.val + 1408; omega)
  rw [h, hidden_e7]

/-- The activation g ↦ g · (1 / (1 + exp (−g))) is g times the logistic function of g. -/
theorem silu_e7 (i : S8192x1408.Idx) :
    val_main_v150 (F := Ideal) x0 x1 i
      = val_main_v149 (F := Ideal) x0 x1 i * Ideal.logistic (val_main_v149 (F := Ideal) x0 x1 i) := by
  rw [val_main_v150_apply, val_main_call15_v5_apply, val_main_call15_v4_apply, val_main_call15_cst_0_apply, val_main_call15_v3_apply,
    val_main_call15_v2_apply, val_main_call15_cst_apply, val_main_call15_v1_apply, val_main_call15_v0_apply]
  simp only [Ideal.mulf_def, Ideal.hostDivf_def, Ideal.addf_def, Ideal.hostUnary_exp_def, Ideal.hostNegf_def,
    Ideal.negf_def, Ideal.ofBits_def, Ideal.ofBits_one_f32, Ideal.logistic]

/-- The gated activation of hidden unit pair `n`. -/
theorem gated_e7 (p : Fin 8192) (n : Fin 1408) :
    val_main_v152 (F := Ideal) x0 x1 (ix2 p n) = Cert.MoeSpec.gated x0 x1 (⟨7, by omega⟩ : Fin 8) p n := by
  rw [val_main_v152_apply, silu_e7, gate_e7, up_e7]
  rfl

/-- The transposed block 7 of the second weight array at (unit, feature). -/
theorem w2_e7 (n : Fin 1408) (k : Fin 2048) :
    val_main_v156 (F := Ideal) x2 (ix2 n k) = x2 (ix3 (⟨7, by omega⟩ : Fin 8) k n) := by
  rw [val_main_v156_apply, val_main_v155_apply, val_main_v154_apply]
  refine congrArg x2 ?_
  have hn := n.isLt
  have hk := k.isLt
  funext a
  match a with
  | ⟨0, _⟩ => rfl
  | ⟨1, _⟩ => exact Fin.ext (by show (k.val * 1408 + n.val) / 1408 % 2048 = k.val; omega)
  | ⟨2, _⟩ => exact Fin.ext (by show (k.val * 1408 + n.val) % 1408 = n.val; omega)

/-- The second contraction is the specification's second projection. -/
theorem down_e7 (p : Fin 8192) (k : Fin 2048) :
    val_main_v157 (F := Ideal) x0 x1 x2 (ix2 p k) = Cert.MoeSpec.down x0 x1 x2 (⟨7, by omega⟩ : Fin 8) p k := by
  rw [val_main_v157_apply]
  unfold Cert.MoeSpec.down
  refine Finset.sum_congr rfl fun n _ => ?_
  have hl : lidx_main_v157 (ix2 p k) n = ix2 p n := funext fun a => match a with | ⟨0, _⟩ => rfl | ⟨1, _⟩ => rfl
  have hr : ridx_main_v157 (ix2 p k) n = ix2 n k := funext fun a => match a with | ⟨0, _⟩ => rfl | ⟨1, _⟩ => rfl
  rw [hl, hr, gated_e7, w2_e7]

/-- The coefficient of token `p`, spread along the features. -/
theorem coef_e7 (p : Fin 8192) (k : Fin 2048) :
    val_main_v158 (F := Ideal) x3 x4 (ix2 p k) = refCoef x3 x4 (⟨7, by omega⟩ : Fin 8) p := by
  rw [val_main_v158_apply, val_main_v153_apply]
  show _ = val_main_v144 (F := Ideal) x3 x4 (ix1 p)
  exact congrArg (val_main_v144 (F := Ideal) x3 x4) (funext fun a => match a with | ⟨0, _⟩ => rfl)

/-- The term expert 7 adds to the running sum. -/
theorem term_e7 (i : S8192x2048.Idx) :
    val_main_v159 (F := Ideal) x0 x1 x2 x3 x4 i
      = refCoef x3 x4 (⟨7, by omega⟩ : Fin 8) (i 0) * Cert.MoeSpec.down x0 x1 x2 (⟨7, by omega⟩ : Fin 8) (i 0) (i 1) := by
  obtain ⟨p, k, rfl⟩ : ∃ (p : Fin 8192) (k : Fin 2048), i = ix2 p k := ⟨i 0, i 1, eq_ix2 i⟩
  rw [val_main_v159_apply, coef_e7, down_e7]
  rfl

/-- The running sum after expert 7. -/
theorem sum_e7 (i : S8192x2048.Idx) :
    val_main_v160 (F := Ideal) x0 x1 x2 x3 x4 i
      = Cert.MoeSpec.partialMix (refCoef x3 x4) x0 x1 x2 8 (by omega) (i 0) (i 1) := by
  rw [val_main_v160_apply, sum_e6 x0 x1 x2 x3 x4, term_e7]
  exact (Cert.MoeSpec.partialMix_succ (refCoef x3 x4) x0 x1 x2 7 (by omega) (i 0) (i 1)).symm

/-- The reference's result is the mixture of all eight experts. -/
theorem ref_eq_mix :
    val_main_v160 (F := Ideal) x0 x1 x2 x3 x4 = Cert.MoeSpec.mix (refCoef x3 x4) x0 x1 x2 := by
  funext i
  exact sum_e7 x0 x1 x2 x3 x4 i

end Cert.ReferenceIdeal.RefValue

end
-- ==== Proof.IdealCoef.lean ====
/-
  The routing coefficients the launch finds: each expert's row as a term of the two routing arguments, and the
  stacked array read at an index.

  For each expert e and token q the host program sums, over the token's two routing slots, the slot's weight where
  the slot's expert id is e and zero elsewhere; this gives one row [8192] per expert. Each row gets a leading unit
  axis, the eight are joined along it into [8, 8192], and a unit axis is put in the middle: [8, 1, 8192]. Entry
  (e, 0, q) of that array is entry q of expert e's row.
-/
import proofs.«120920_j84705345012305_2_alg».proof.Proof.IdealEntry
import proofs.«120920_j84705345012305_2_alg».proof.Proof.IdealAround
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Entry

open Cert.KernelIdeal Cert.KernelIdeal.Gen Cert.KernelIdeal.Around
open Idealize.ShloMosaic Idealize.ShloMosaic.TcCoe Idealize.ShloMosaic.ValueIdx Idealize.SL.Sem

variable (m : (ℓ : Loc nD τ sig) → Buf (Elt Ideal) ℓ) (c : Dev nD)

/-! ## The routing coefficients of one expert -/

/-- Expert e's row of coefficients as the host program computes it from the routing ids and weights [8192, 2]:
    per token, the sum over its two slots of the slot's weight where the slot's id is e and of zero elsewhere. -/
def coefTerm (e : BitVec 32) (ids : S8192x2.Idx → BitVec 32) (wts : S8192x2.Idx → EReal) : S8192.Idx → EReal :=
  Host.reduceAdd (F := Ideal)
    (select (cmpi .eq ids (broadcastInDim S8192x2 ![] Facts₀.bcast_S_S8192x2 (constantI S_ 32 e))) wts
      (broadcastInDim S8192x2 ![] Facts₀.bcast_S_S8192x2 (id (constant (F := Ideal) S_ .f32 0x00000000#32))))
    (constant (F := Ideal) S_ .f32 0x00000000#32) Facts₀.reducesTo_S8192x2_S8192_d1 Facts₀.h_S_

/-- The row written out in the host operations. -/
theorem coefTerm_def (e : BitVec 32) (ids : S8192x2.Idx → BitVec 32) (wts : S8192x2.Idx → EReal) :
    coefTerm e ids wts
      = Host.reduceAdd (F := Ideal)
          (select (cmpi .eq ids (broadcastInDim S8192x2 ![] Facts₀.bcast_S_S8192x2 (constantI S_ 32 e))) wts
            (broadcastInDim S8192x2 ![] Facts₀.bcast_S_S8192x2 (id (constant (F := Ideal) S_ .f32 0x00000000#32))))
          (constant (F := Ideal) S_ .f32 0x00000000#32) Facts₀.reducesTo_S8192x2_S8192_d1 Facts₀.h_S_ := rfl

/-- At the launch, expert 0's row is the host term of the two routing arguments. -/
theorem coef0_eq : @Eq (S8192.Idx → EReal) (V m c main_v6)
    (coefTerm 0#32 (m ((c : Thread nD τ).loc main_arg3)) (m ((c : Thread nD τ).loc main_arg4))) := by
  dsimp only [V]
  simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- At the launch, expert 1's row is the host term of the two routing arguments. -/
theorem coef1_eq : @Eq (S8192.Idx → EReal) (V m c main_v10)
    (coefTerm 1#32 (m ((c : Thread nD τ).loc main_arg3)) (m ((c : Thread nD τ).loc main_arg4))) := by
  dsimp only [V]
  simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- At the launch, expert 2's row is the host term of the two routing arguments. -/
theorem coef2_eq : @Eq (S8192.Idx → EReal) (V m c main_v14)
    (coefTerm 2#32 (m ((c : Thread nD τ).loc main_arg3)) (m ((c : Thread nD τ).loc main_arg4))) := by
  dsimp only [V]
  simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- At the launch, expert 3's row is the host term of the two routing arguments. -/
theorem coef3_eq : @Eq (S8192.Idx → EReal) (V m c main_v18)
    (coefTerm 3#32 (m ((c : Thread nD τ).loc main_arg3)) (m ((c : Thread nD τ).loc main_arg4))) := by
  dsimp only [V]
  simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- At the launch, expert 4's row is the host term of the two routing arguments. -/
theorem coef4_eq : @Eq (S8192.Idx → EReal) (V m c main_v22)
    (coefTerm 4#32 (m ((c : Thread nD τ).loc main_arg3)) (m ((c : Thread nD τ).loc main_arg4))) := by
  dsimp only [V]
  simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- At the launch, expert 5's row is the host term of the two routing arguments. -/
theorem coef5_eq : @Eq (S8192.Idx → EReal) (V m c main_v26)
    (coefTerm 5#32 (m ((c : Thread nD τ).loc main_arg3)) (m ((c : Thread nD τ).loc main_arg4))) := by
  dsimp only [V]
  simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- At the launch, expert 6's row is the host term of the two routing arguments. -/
theorem coef6_eq : @Eq (S8192.Idx → EReal) (V m c main_v30)
    (coefTerm 6#32 (m ((c : Thread nD τ).loc main_arg3)) (m ((c : Thread nD τ).loc main_arg4))) := by
  dsimp only [V]
  simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- At the launch, expert 7's row is the host term of the two routing arguments. -/
theorem coef7_eq : @Eq (S8192.Idx → EReal) (V m c main_v34)
    (coefTerm 7#32 (m ((c : Thread nD τ).loc main_arg3)) (m ((c : Thread nD τ).loc main_arg4))) := by
  dsimp only [V]
  simp only [hostPrefix, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-! ## The stacked coefficient rows -/

/-- Eight rows [8192] stacked into [8, 1, 8192]: each row gets a leading unit axis, the eight are joined along it, and
    a unit axis is put between the two. -/
def stackRows (r0 r1 r2 r3 r4 r5 r6 r7 : S8192.Idx → EReal) : S8x1x8192.Idx → EReal :=
  broadcastInDim S8x1x8192 ![0, 2] Facts₀.bcast_S8x8192_S8x1x8192_0_2
    (concatenate S8x8192 0
      [⟨S1x8192, broadcastInDim S1x8192 ![1] Facts₀.bcast_S8192_S1x8192_1 r0⟩,
       ⟨S1x8192, broadcastInDim S1x8192 ![1] Facts₀.bcast_S8192_S1x8192_1 r1⟩,
       ⟨S1x8192, broadcastInDim S1x8192 ![1] Facts₀.bcast_S8192_S1x8192_1 r2⟩,
       ⟨S1x8192, broadcastInDim S1x8192 ![1] Facts₀.bcast_S8192_S1x8192_1 r3⟩,
       ⟨S1x8192, broadcastInDim S1x8192 ![1] Facts₀.bcast_S8192_S1x8192_1 r4⟩,
       ⟨S1x8192, broadcastInDim S1x8192 ![1] Facts₀.bcast_S8192_S1x8192_1 r5⟩,
       ⟨S1x8192, broadcastInDim S1x8192 ![1] Facts₀.bcast_S8192_S1x8192_1 r6⟩,
       ⟨S1x8192, broadcastInDim S1x8192 ![1] Facts₀.bcast_S8192_S1x8192_1 r7⟩]
      Facts₀.concatenates_S1x8192_S1x8192_S1x8192_S1x8192_S1x8192_S1x8192_S1x8192_S1x8192_S8x8192_d0)

/-- A row with a leading unit axis reads, at (u, q), the row at q. -/
theorem row_apply (r : S8192.Idx → EReal) (u : Fin 1) (q : Fin 8192) :
    broadcastInDim S1x8192 ![1] Facts₀.bcast_S8192_S1x8192_1 r (ix2 u q) = r (ix1 q) :=
  broadcastInDim_apply _ _ r _ (ix1 q) (fun a => by
    match a with
    | ⟨0, _⟩ => rfl)

/-- Entry (0, 0, q) of the stacked rows is entry q of row 0. -/
theorem stackRows_apply_0 (r0 r1 r2 r3 r4 r5 r6 r7 : S8192.Idx → EReal) (q : Fin 8192) :
    stackRows r0 r1 r2 r3 r4 r5 r6 r7 (ix3 (0 : Fin 8) (0 : Fin 1) q) = r0 (ix1 q) := by
  unfold stackRows
  refine (broadcastInDim_apply _ _ _ (ix3 (0 : Fin 8) (0 : Fin 1) q) (ix2 (0 : Fin 8) q) (fun a => by
    match a with
    | ⟨0, _⟩ => rfl
    | ⟨1, _⟩ => rfl)).trans ?_
  refine (concatenate_apply_piece (0 : Fin S8x8192.rank) _ _ (ix2 (0 : Fin 8) q) 0 (by show (0 : ℕ) < 8; omega) S1x8192
    (broadcastInDim S1x8192 ![1] Facts₀.bcast_S8192_S1x8192_1 r0) rfl rfl 0 rfl (ix2 (0 : Fin 1) q)
    (fun b hb => by
      match b with
      | ⟨0, _⟩ => exact absurd rfl hb
      | ⟨1, _⟩ => rfl) rfl).trans ?_
  exact row_apply r0 0 q

/-- Entry (1, 0, q) of the stacked rows is entry q of row 1. -/
theorem stackRows_apply_1 (r0 r1 r2 r3 r4 r5 r6 r7 : S8192.Idx → EReal) (q : Fin 8192) :
    stackRows r0 r1 r2 r3 r4 r5 r6 r7 (ix3 (1 : Fin 8) (0 : Fin 1) q) = r1 (ix1 q) := by
  unfold stackRows
  refine (broadcastInDim_apply _ _ _ (ix3 (1 : Fin 8) (0 : Fin 1) q) (ix2 (1 : Fin 8) q) (fun a => by
    match a with
    | ⟨0, _⟩ => rfl
    | ⟨1, _⟩ => rfl)).trans ?_
  refine (concatenate_apply_piece (0 : Fin S8x8192.rank) _ _ (ix2 (1 : Fin 8) q) 1 (by show (1 : ℕ) < 8; omega) S1x8192
    (broadcastInDim S1x8192 ![1] Facts₀.bcast_S8192_S1x8192_1 r1) rfl rfl 1 rfl (ix2 (0 : Fin 1) q)
    (fun b hb => by
      match b with
      | ⟨0, _⟩ => exact absurd rfl hb
      | ⟨1, _⟩ => rfl) rfl).trans ?_
  exact row_apply r1 0 q

/-- Entry (2, 0, q) of the stacked rows is entry q of row 2. -/
theorem stackRows_apply_2 (r0 r1 r2 r3 r4 r5 r6 r7 : S8192.Idx → EReal) (q : Fin 8192) :
    stackRows r0 r1 r2 r3 r4 r5 r6 r7 (ix3 (2 : Fin 8) (0 : Fin 1) q) = r2 (ix1 q) := by
  unfold stackRows
  refine (broadcastInDim_apply _ _ _ (ix3 (2 : Fin 8) (0 : Fin 1) q) (ix2 (2 : Fin 8) q) (fun a => by
    match a with
    | ⟨0, _⟩ => rfl
    | ⟨1, _⟩ => rfl)).trans ?_
  refine (concatenate_apply_piece (0 : Fin S8x8192.rank) _ _ (ix2 (2 : Fin 8) q) 2 (by show (2 : ℕ) < 8; omega) S1x8192
    (broadcastInDim S1x8192 ![1] Facts₀.bcast_S8192_S1x8192_1 r2) rfl rfl 2 rfl (ix2 (0 : Fin 1) q)
    (fun b hb => by
      match b with
      | ⟨0, _⟩ => exact absurd rfl hb
      | ⟨1, _⟩ => rfl) rfl).trans ?_
  exact row_apply r2 0 q

/-- Entry (3, 0, q) of the stacked rows is entry q of row 3. -/
theorem stackRows_apply_3 (r0 r1 r2 r3 r4 r5 r6 r7 : S8192.Idx → EReal) (q : Fin 8192) :
    stackRows r0 r1 r2 r3 r4 r5 r6 r7 (ix3 (3 : Fin 8) (0 : Fin 1) q) = r3 (ix1 q) := by
  unfold stackRows
  refine (broadcastInDim_apply _ _ _ (ix3 (3 : Fin 8) (0 : Fin 1) q) (ix2 (3 : Fin 8) q) (fun a => by
    match a with
    | ⟨0, _⟩ => rfl
    | ⟨1, _⟩ => rfl)).trans ?_
  refine (concatenate_apply_piece (0 : Fin S8x8192.rank) _ _ (ix2 (3 : Fin 8) q) 3 (by show (3 : ℕ) < 8; omega) S1x8192
    (broadcastInDim S1x8192 ![1] Facts₀.bcast_S8192_S1x8192_1 r3) rfl rfl 3 rfl (ix2 (0 : Fin 1) q)
    (fun b hb => by
      match b with
      | ⟨0, _⟩ => exact absurd rfl hb
      | ⟨1, _⟩ => rfl) rfl).trans ?_
  exact row_apply r3 0 q

/-- Entry (4, 0, q) of the stacked rows is entry q of row 4. -/
theorem stackRows_apply_4 (r0 r1 r2 r3 r4 r5 r6 r7 : S8192.Idx → EReal) (q : Fin 8192) :
    stackRows r0 r1 r2 r3 r4 r5 r6 r7 (ix3 (4 : Fin 8) (0 : Fin 1) q) = r4 (ix1 q) := by
  unfold stackRows
  refine (broadcastInDim_apply _ _ _ (ix3 (4 : Fin 8) (0 : Fin 1) q) (ix2 (4 : Fin 8) q) (fun a => by
    match a with
    | ⟨0, _⟩ => rfl
    | ⟨1, _⟩ => rfl)).trans ?_
  refine (concatenate_apply_piece (0 : Fin S8x8192.rank) _ _ (ix2 (4 : Fin 8) q) 4 (by show (4 : ℕ) < 8; omega) S1x8192
    (broadcastInDim S1x8192 ![1] Facts₀.bcast_S8192_S1x8192_1 r4) rfl rfl 4 rfl (ix2 (0 : Fin 1) q)
    (fun b hb => by
      match b with
      | ⟨0, _⟩ => exact absurd rfl hb
      | ⟨1, _⟩ => rfl) rfl).trans ?_
  exact row_apply r4 0 q

/-- Entry (5, 0, q) of the stacked rows is entry q of row 5. -/
theorem stackRows_apply_5 (r0 r1 r2 r3 r4 r5 r6 r7 : S8192.Idx → EReal) (q : Fin 8192) :
    stackRows r0 r1 r2 r3 r4 r5 r6 r7 (ix3 (5 : Fin 8) (0 : Fin 1) q) = r5 (ix1 q) := by
  unfold stackRows
  refine (broadcastInDim_apply _ _ _ (ix3 (5 : Fin 8) (0 : Fin 1) q) (ix2 (5 : Fin 8) q) (fun a => by
    match a with
    | ⟨0, _⟩ => rfl
    | ⟨1, _⟩ => rfl)).trans ?_
  refine (concatenate_apply_piece (0 : Fin S8x8192.rank) _ _ (ix2 (5 : Fin 8) q) 5 (by show (5 : ℕ) < 8; omega) S1x8192
    (broadcastInDim S1x8192 ![1] Facts₀.bcast_S8192_S1x8192_1 r5) rfl rfl 5 rfl (ix2 (0 : Fin 1) q)
    (fun b hb => by
      match b with
      | ⟨0, _⟩ => exact absurd rfl hb
      | ⟨1, _⟩ => rfl) rfl).trans ?_
  exact row_apply r5 0 q

/-- Entry (6, 0, q) of the stacked rows is entry q of row 6. -/
theorem stackRows_apply_6 (r0 r1 r2 r3 r4 r5 r6 r7 : S8192.Idx → EReal) (q : Fin 8192) :
    stackRows r0 r1 r2 r3 r4 r5 r6 r7 (ix3 (6 : Fin 8) (0 : Fin 1) q) = r6 (ix1 q) := by
  unfold stackRows
  refine (broadcastInDim_apply _ _ _ (ix3 (6 : Fin 8) (0 : Fin 1) q) (ix2 (6 : Fin 8) q) (fun a => by
    match a with
    | ⟨0, _⟩ => rfl
    | ⟨1, _⟩ => rfl)).trans ?_
  refine (concatenate_apply_piece (0 : Fin S8x8192.rank) _ _ (ix2 (6 : Fin 8) q) 6 (by show (6 : ℕ) < 8; omega) S1x8192
    (broadcastInDim S1x8192 ![1] Facts₀.bcast_S8192_S1x8192_1 r6) rfl rfl 6 rfl (ix2 (0 : Fin 1) q)
    (fun b hb => by
      match b with
      | ⟨0, _⟩ => exact absurd rfl hb
      | ⟨1, _⟩ => rfl) rfl).trans ?_
  exact row_apply r6 0 q

/-- Entry (7, 0, q) of the stacked rows is entry q of row 7. -/
theorem stackRows_apply_7 (r0 r1 r2 r3 r4 r5 r6 r7 : S8192.Idx → EReal) (q : Fin 8192) :
    stackRows r0 r1 r2 r3 r4 r5 r6 r7 (ix3 (7 : Fin 8) (0 : Fin 1) q) = r7 (ix1 q) := by
  unfold stackRows
  refine (broadcastInDim_apply _ _ _ (ix3 (7 : Fin 8) (0 : Fin 1) q) (ix2 (7 : Fin 8) q) (fun a => by
    match a with
    | ⟨0, _⟩ => rfl
    | ⟨1, _⟩ => rfl)).trans ?_
  refine (concatenate_apply_piece (0 : Fin S8x8192.rank) _ _ (ix2 (7 : Fin 8) q) 7 (by show (7 : ℕ) < 8; omega) S1x8192
    (broadcastInDim S1x8192 ![1] Facts₀.bcast_S8192_S1x8192_1 r7) rfl rfl 7 rfl (ix2 (0 : Fin 1) q)
    (fun b hb => by
      match b with
      | ⟨0, _⟩ => exact absurd rfl hb
      | ⟨1, _⟩ => rfl) rfl).trans ?_
  exact row_apply r7 0 q

/-! ## The last stretch of host operations -/

/-- An operation of eight operands named one by one writes, at its result buffer, its function of the eight
    operands' contents, each read at its own buffer. -/
theorem nary8_result {x0 x1 x2 x3 x4 x5 x6 x7 y : Ref sig .tc}
    (f : ((k : Fin 8) → ((![x0, x1, x2, x3, x4, x5, x6, x7] : Fin 8 → Ref sig .tc) k).ty.Contents (Elt Ideal)) → y.ty.Contents (Elt Ideal)) (hxs) (hy)
    (G : Valuation τ sig (Elt Ideal)) :
    (StableHlo.nary (τ := τ) ![x0, x1, x2, x3, x4, x5, x6, x7] y f hxs hy).result G (Proc.devRef .tc y)
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (fun i => i.elim0))))))))) := by
  rw [StableHlo.nary_result]; congr 1; funext k; fin_cases k <;> rfl

/-- After the last stretch, from any contents: the stacked array is the eight rows, as the stretch leaves them, stacked. -/
theorem stack_last (W : Valuation τ sig (Elt Ideal)) :
    @Eq (S8x1x8192.Idx → EReal) (StableHlo.after hostOps0_16 W (Proc.devRef .tc main_v44))
      (stackRows (StableHlo.after hostOps0_16 W (Proc.devRef .tc main_v6))
        (StableHlo.after hostOps0_16 W (Proc.devRef .tc main_v10))
        (StableHlo.after hostOps0_16 W (Proc.devRef .tc main_v14))
        (StableHlo.after hostOps0_16 W (Proc.devRef .tc main_v18))
        (StableHlo.after hostOps0_16 W (Proc.devRef .tc main_v22))
        (StableHlo.after hostOps0_16 W (Proc.devRef .tc main_v26))
        (StableHlo.after hostOps0_16 W (Proc.devRef .tc main_v30))
        (StableHlo.after hostOps0_16 W (Proc.devRef .tc main_v34))) := by
  simp only [hostOps0_16, StableHlo.after_cons, StableHlo.after_nil]
  rw [StableHlo.unary_result, nary8_result]
  after_results_simp
  rfl

/-! ## The stacked array at the launch -/

/-- The stretches of host operations before the last one. -/
abbrev hostInit : List (List (HloOp τ sig (Elt Ideal))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

/-- The host operations are the earlier stretches followed by the last one. -/
theorem flatten_split : List.flatten (hostPrefix (F := Ideal)) = List.flatten hostInit ++ hostOps0_16 := by
  simp only [hostPrefix, hostInit, List.flatten_cons, List.flatten_nil, List.append_nil, List.append_assoc]

/-- At the launch the stacked array is the eight coefficient rows, as the launch finds them, stacked. -/
theorem V_stack : @Eq (S8x1x8192.Idx → EReal) (V m c main_v44)
    (stackRows (V m c main_v6) (V m c main_v10) (V m c main_v14) (V m c main_v18) (V m c main_v22) (V m c main_v26) (V m c main_v30) (V m c main_v34)) := by
  dsimp only [V]
  rw [flatten_split]
  simp only [StableHlo.after_append]
  exact stack_last _

/-- Entry (0, 0, q) of the stacked array is entry q of expert 0's row. -/
theorem entry_coef0 (q : Fin 8192) :
    (V m c main_v44 : S8x1x8192.Idx → EReal) (ix3 (0 : Fin 8) (0 : Fin 1) q) = (V m c main_v6 : S8192.Idx → EReal) (ix1 q) :=
  (congrFun (V_stack m c) _).trans (stackRows_apply_0 _ _ _ _ _ _ _ _ q)

/-- Entry (1, 0, q) of the stacked array is entry q of expert 1's row. -/
theorem entry_coef1 (q : Fin 8192) :
    (V m c main_v44 : S8x1x8192.Idx → EReal) (ix3 (1 : Fin 8) (0 : Fin 1) q) = (V m c main_v10 : S8192.Idx → EReal) (ix1 q) :=
  (congrFun (V_stack m c) _).trans (stackRows_apply_1 _ _ _ _ _ _ _ _ q)

/-- Entry (2, 0, q) of the stacked array is entry q of expert 2's row. -/
theorem entry_coef2 (q : Fin 8192) :
    (V m c main_v44 : S8x1x8192.Idx → EReal) (ix3 (2 : Fin 8) (0 : Fin 1) q) = (V m c main_v14 : S8192.Idx → EReal) (ix1 q) :=
  (congrFun (V_stack m c) _).trans (stackRows_apply_2 _ _ _ _ _ _ _ _ q)

/-- Entry (3, 0, q) of the stacked array is entry q of expert 3's row. -/
theorem entry_coef3 (q : Fin 8192) :
    (V m c main_v44 : S8x1x8192.Idx → EReal) (ix3 (3 : Fin 8) (0 : Fin 1) q) = (V m c main_v18 : S8192.Idx → EReal) (ix1 q) :=
  (congrFun (V_stack m c) _).trans (stackRows_apply_3 _ _ _ _ _ _ _ _ q)

/-- Entry (4, 0, q) of the stacked array is entry q of expert 4's row. -/
theorem entry_coef4 (q : Fin 8192) :
    (V m c main_v44 : S8x1x8192.Idx → EReal) (ix3 (4 : Fin 8) (0 : Fin 1) q) = (V m c main_v22 : S8192.Idx → EReal) (ix1 q) :=
  (congrFun (V_stack m c) _).trans (stackRows_apply_4 _ _ _ _ _ _ _ _ q)

/-- Entry (5, 0, q) of the stacked array is entry q of expert 5's row. -/
theorem entry_coef5 (q : Fin 8192) :
    (V m c main_v44 : S8x1x8192.Idx → EReal) (ix3 (5 : Fin 8) (0 : Fin 1) q) = (V m c main_v26 : S8192.Idx → EReal) (ix1 q) :=
  (congrFun (V_stack m c) _).trans (stackRows_apply_5 _ _ _ _ _ _ _ _ q)

/-- Entry (6, 0, q) of the stacked array is entry q of expert 6's row. -/
theorem entry_coef6 (q : Fin 8192) :
    (V m c main_v44 : S8x1x8192.Idx → EReal) (ix3 (6 : Fin 8) (0 : Fin 1) q) = (V m c main_v30 : S8192.Idx → EReal) (ix1 q) :=
  (congrFun (V_stack m c) _).trans (stackRows_apply_6 _ _ _ _ _ _ _ _ q)

/-- Entry (7, 0, q) of the stacked array is entry q of expert 7's row. -/
theorem entry_coef7 (q : Fin 8192) :
    (V m c main_v44 : S8x1x8192.Idx → EReal) (ix3 (7 : Fin 8) (0 : Fin 1) q) = (V m c main_v34 : S8192.Idx → EReal) (ix1 q) :=
  (congrFun (V_stack m c) _).trans (stackRows_apply_7 _ _ _ _ _ _ _ _ q)

/-! ## One statement over the expert -/

/-- Expert e's row of coefficients as the launch finds it. -/
def coefRow (e : Fin 8) : S8192.Idx → EReal :=
  match e with
  | ⟨0, _⟩ => V m c main_v6
  | ⟨1, _⟩ => V m c main_v10
  | ⟨2, _⟩ => V m c main_v14
  | ⟨3, _⟩ => V m c main_v18
  | ⟨4, _⟩ => V m c main_v22
  | ⟨5, _⟩ => V m c main_v26
  | ⟨6, _⟩ => V m c main_v30
  | ⟨7, _⟩ => V m c main_v34
  | ⟨_ + 8, h⟩ => absurd h (Nat.not_lt.2 (Nat.le_add_left _ _))

/-- Entry (e, 0, q) of the stacked array is entry q of expert e's row. -/
theorem entry_coef (e : Fin 8) (q : Fin 8192) :
    (V m c main_v44 : S8x1x8192.Idx → EReal) (ix3 e (0 : Fin 1) q) = coefRow m c e (ix1 q) :=
  match e with
  | ⟨0, _⟩ => entry_coef0 m c q
  | ⟨1, _⟩ => entry_coef1 m c q
  | ⟨2, _⟩ => entry_coef2 m c q
  | ⟨3, _⟩ => entry_coef3 m c q
  | ⟨4, _⟩ => entry_coef4 m c q
  | ⟨5, _⟩ => entry_coef5 m c q
  | ⟨6, _⟩ => entry_coef6 m c q
  | ⟨7, _⟩ => entry_coef7 m c q
  | ⟨_ + 8, h⟩ => absurd h (Nat.not_lt.2 (Nat.le_add_left _ _))

/-- Expert e's row is the host term of the two routing arguments, at the expert's id. -/
theorem coefRow_eq (e : Fin 8) :
    coefRow m c e = coefTerm (BitVec.ofNat 32 e.val) (m ((c : Thread nD τ).loc main_arg3)) (m ((c : Thread nD τ).loc main_arg4)) :=
  match e with
  | ⟨0, _⟩ => coef0_eq m c
  | ⟨1, _⟩ => coef1_eq m c
  | ⟨2, _⟩ => coef2_eq m c
  | ⟨3, _⟩ => coef3_eq m c
  | ⟨4, _⟩ => coef4_eq m c
  | ⟨5, _⟩ => coef5_eq m c
  | ⟨6, _⟩ => coef6_eq m c
  | ⟨7, _⟩ => coef7_eq m c
  | ⟨_ + 8, h⟩ => absurd h (Nat.not_lt.2 (Nat.le_add_left _ _))

end Cert.KernelIdeal.Entry

end
-- ==== Proof.IdealBridge.lean ====
/-
  The two programs build the routing coefficients the same way: for each expert e, the reference's coefficient
  stage and the array the kernel's host program stacks into the launch's coefficient operand are the same host
  operations (compare the ids with e, keep the weight where equal and zero elsewhere, sum the two slots from zero)
  of the same two routing arguments. Hence the kernel's mixture and the reference's are one function.
-/
import proofs.«120920_j84705345012305_2_alg».proof.Proof.IdealValue
import proofs.«120920_j84705345012305_2_alg».proof.Proof.IdealCoef
import proofs.«120920_j84705345012305_2_alg».proof.Proof.RefMix

noncomputable section

namespace Cert.Proof.Bridge

open Idealize.ShloMosaic Idealize.ShloMosaic.TcCoe Idealize.ShloMosaic.ValueIdx Idealize.SL.Sem
open Cert.KernelIdeal

variable (m : (ℓ : Loc nD τ sig) → Buf (Elt Ideal) ℓ) (c : Dev nD)

/-- Token `q`'s coefficient for expert `e`: what the launch finds is what the reference's stage holds. -/
theorem coef_agree (e : Fin 8) (q : Fin 8192) :
    Cert.KernelIdeal.Mix.kcoef m c e q
      = Cert.ReferenceIdeal.RefValue.refCoef (m ((c.tc : Thread nD τ).loc main_arg3)) (m ((c.tc : Thread nD τ).loc main_arg4)) e q := by
  unfold Cert.KernelIdeal.Mix.kcoef
  rw [Cert.KernelIdeal.Entry.entry_coef m c e q, Cert.KernelIdeal.Entry.coefRow_eq m c e]
  unfold Cert.ReferenceIdeal.RefValue.refCoef
  fin_cases e <;> rfl

/-- The reference's mixture of the kernel's arguments is the kernel's result. -/
theorem mix_agree :
    Cert.MoeSpec.mix (Cert.ReferenceIdeal.RefValue.refCoef (m ((c.tc : Thread nD τ).loc main_arg3)) (m ((c.tc : Thread nD τ).loc main_arg4)))
        (m ((c.tc : Thread nD τ).loc main_arg0)) (m ((c.tc : Thread nD τ).loc main_arg1)) (m ((c.tc : Thread nD τ).loc main_arg2))
      = Cert.KernelIdeal.Mix.result m c := by
  unfold Cert.KernelIdeal.Mix.result
  exact congrArg (fun cf => Cert.MoeSpec.mix cf _ _ _) (funext fun e => funext fun q => (coef_agree m c e q).symm)

end Cert.Proof.Bridge

end
-- ==== Proof.lean ====
/-
  The certificate of the routed mixture of eight gated feed-forward experts: a tiled accelerator kernel (token tiles
  of 256 rows × experts, the experts' terms accumulated in a scratch tile that is reset at a tile's first expert and
  written out at its last) against the plain loop over experts.

  Frames. Each kernel program (the printed one at the word level, and its idealization) is the host operations that
  convert the float arguments and build the routing coefficients, then one launch over 32 × 8 grid points; the body
  runs in one of three ways according to the expert coordinate, the accumulator carried from point to point by the
  launch's invariant (Proof/…Around, …RunFirst, …RunMid, …RunLast, …Frame). The reference is a straight line of
  host operations, and its frame is its run with the result dropped.

  Values, on the extended reals. Both programs compute, for token p and feature k,
      0 + Σ_{e = 0..7, in this order} coef(e, p) · Σ_n ( g · σ(g) · u ) · w2(e, k, n),
      g = Σ_j x(p, j) · w1(e, n, j),  u = Σ_j x(p, j) · w1(e, 1408 + n, j),  σ g = 1 / (1 + exp(−g)),
  (Proof/MoeSpec). The kernel reaches it tile by tile and expert by expert (Proof/IdealPieces, IdealChain, TileMath,
  IdealEntry, IdealValue), the reference operation by operation (Proof/RefMix); the two programs build coef(e, p)
  by the same host operations of the same two routing arguments (Proof/IdealCoef, IdealBridge). No law beyond
  reading each operation at an index is used: the two sums have the same terms in the same grouping, so the
  precondition (finite inputs) is never opened.
-/
import proofs.«120920_j84705345012305_2_alg».proof.Defs
import proofs.«120920_j84705345012305_2_alg».proof.Proof.Gen.Kernel
import proofs.«120920_j84705345012305_2_alg».proof.Proof.Gen.KernelIdeal
import proofs.«120920_j84705345012305_2_alg».proof.Proof.Gen.ReferenceIdeal
import proofs.«120920_j84705345012305_2_alg».proof.Proof.Gen.Pre_finite_inputs
import proofs.«120920_j84705345012305_2_alg».proof.Proof.RefRunP
import proofs.«120920_j84705345012305_2_alg».proof.Proof.RefReadP
import proofs.«120920_j84705345012305_2_alg».proof.Proof.RefResult
import proofs.«120920_j84705345012305_2_alg».proof.Proof.BitsFrame
import proofs.«120920_j84705345012305_2_alg».proof.Proof.IdealFrame
import proofs.«120920_j84705345012305_2_alg».proof.Proof.IdealValue
import proofs.«120920_j84705345012305_2_alg».proof.Proof.RefMix
import proofs.«120920_j84705345012305_2_alg».proof.Proof.IdealBridge
import Idealize.ShloMosaic.Adequacy
import Idealize.ShloMosaic.Init

noncomputable section

namespace Cert.Proof

open Idealize.ShloMosaic Idealize.ShloMosaic.TcCoe Idealize.SL.Sem

/-- The printed kernel program runs, faults nowhere, and leaves its arguments unchanged. -/
theorem frame_kernel : Cert.frame_Kernel := fun m ρ _ => Cert.Kernel.Around.frame m ρ

/-- So does its idealization. -/
theorem frame_kernelIdeal : Cert.frame_KernelIdeal := fun m ρ _ => Cert.KernelIdeal.Around.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- On the extended reals the kernel's result array and the reference's are the same mixture of the same arguments. -/
theorem algebraic : Cert.algebraic_KernelIdeal_ReferenceIdeal := by
  intro m ρ m' ρ' _ hagree
  refine ⟨fun c => Cert.KernelIdeal.Mix.result m c, Cert.KernelIdeal.Mix.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_is_stage, (hagree c).1, (hagree c).2.1, (hagree c).2.2.1, (hagree c).2.2.2.1, (hagree c).2.2.2.2,
    Cert.ReferenceIdeal.RefValue.ref_eq_mix]
  exact Cert.Proof.Bridge.mix_agree m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
